-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1536x1024 : Shape := ⟨2, ![1536, 1024]⟩
abbrev S1024 : Shape := ⟨1, ![1024]⟩
abbrev S1536 : Shape := ⟨1, ![1536]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1536x1024 : S_.BroadcastsInDim S1536x1024 (![] : Fin 0 → Fin S1536x1024.rank)
  reducesTo_S1536x1024_S_d0_1 : S1536x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg10 : FVec F S1536x1024 .f32) (main_arg11 : FVec F S1024 .f32) (main_v33 : IVec S_ 1) : IVec S_ 1 :=
  let main_v34 : FVec F S1536x1024 .f32 := Host.absf main_arg10
  let main_cst_12 : FVec F S_ .f32 := constant S_ .f32 0x7F800000#32
  let main_v35 : FVec F S1536x1024 .f32 := broadcastInDim S1536x1024 ![] bcast_S_S1536x1024 main_cst_12
  let main_v36 : IVec S1536x1024 1 := cmpf .olt main_v34 main_v35
  let main_c_13 : IVec S_ 1 := constantI S_ 1 1#1
  let main_v37 : IVec S_ 1 := (fun x v => Host.reduce IntOp.andi x v reducesTo_S1536x1024_S_d0_1 h_S_) main_v36 main_c_13
  let main_v38 : IVec S_ 1 := andi main_v33 main_v37
  let main_v39 : FVec F S1024 .f32 := Host.absf main_arg11
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg5 : FVec F S1024 .f32) (main_arg7 : FVec F S1536x1024 .f32) (main_arg8 : FVec F S1024 .f32) (main_arg10 : FVec F S1536x1024 .f32) (main_arg11 : FVec F S1024 .f32) (main_v13 : IVec S_ 1) (main_v16 : IVec S1536x1024 1) : IVec S_ 1 :=
  let main_c_5 : IVec S_ 1 := constantI S_ 1 1#1
  let main_v17 : IVec S_ 1 := (fun x v => Host.reduce IntOp.andi x v reducesTo_S1536x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1536x1024 .f32 := Host.absf main_arg7
  let main_cst_8 : FVec F S_ .f32 := constant S_ .f32 0x7F800000#32
  let main_v25 : FVec F S1536x1024 .f32 := broadcastInDim S1536x1024 ![] bcast_S_S1536x1024 main_cst_8
  let main_v26 : IVec S1536x1024 1 := cmpf .olt main_v24 main_v25
  let main_c_9 : IVec S_ 1 := constantI S_ 1 1#1
  let main_v27 : IVec S_ 1 := (fun x v => Host.reduce IntOp.andi x v reducesTo_S1536x1024_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg10 main_arg11 main_v33

def fn {F : FTy → Type} [FloatOps F] (main_arg0 : FVec F S8192x1024 .f32) (main_arg1 : FVec F S1536x1024 .f32) (main_arg2 : FVec F S1024 .f32) (main_arg3 : IVec S1536 32) (main_arg4 : FVec F S1536x1024 .f32) (main_arg5 : FVec F S1024 .f32) (main_arg6 : IVec S1536 32) (main_arg7 : FVec F S1536x1024 .f32) (main_arg8 : FVec F S1024 .f32) (main_arg9 : IVec S1536 32) (main_arg10 : FVec F S1536x1024 .f32) (main_arg11 : FVec F S1024 .f32) (main_arg12 : IVec S1536 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1536x1024 .f32 := Host.absf main_arg1
  let main_cst_0 : FVec F S_ .f32 := constant S_ .f32 0x7F800000#32
  let main_v5 : FVec F S1536x1024 .f32 := broadcastInDim S1536x1024 ![] bcast_S_S1536x1024 main_cst_0
  let main_v6 : IVec S1536x1024 1 := cmpf .olt main_v4 main_v5
  let main_c_1 : IVec S_ 1 := constantI S_ 1 1#1
  let main_v7 : IVec S_ 1 := (fun x v => Host.reduce IntOp.andi x v reducesTo_S1536x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1536x1024 .f32 := Host.absf main_arg4
  let main_cst_4 : FVec F S_ .f32 := constant S_ .f32 0x7F800000#32
  let main_v15 : FVec F S1536x1024 .f32 := broadcastInDim S1536x1024 ![] bcast_S_S1536x1024 main_cst_4
  let main_v16 : IVec S1536x1024 1 := cmpf .olt main_v14 main_v15
  fn_part1 (F := F) main_arg5 main_arg7 main_arg8 main_arg10 main_arg11 main_v13 main_v16
-- ==== Kernel.lean ====
abbrev S8192x1024 : Shape := ⟨2, ![8192, 1024]⟩
abbrev S1536x1024 : Shape := ⟨2, ![1536, 1024]⟩
abbrev S1024 : Shape := ⟨1, ![1024]⟩
abbrev S1536 : Shape := ⟨1, ![1536]⟩
abbrev S_ : Shape := ⟨0, ![]⟩
abbrev S1536x1 : Shape := ⟨2, ![1536, 1]⟩
abbrev S1 : Shape := ⟨1, ![1]⟩
abbrev S1x1 : Shape := ⟨2, ![1, 1]⟩
abbrev S8192x1536 : Shape := ⟨2, ![8192, 1536]⟩
abbrev S1024x1536 : Shape := ⟨2, ![1024, 1536]⟩
abbrev S1024x1024 : Shape := ⟨2, ![1024, 1024]⟩
abbrev S1x1024 : Shape := ⟨2, ![1, 1024]⟩
abbrev S8192x2048 : Shape := ⟨2, ![8192, 2048]⟩
abbrev S8192x3072 : Shape := ⟨2, ![8192, 3072]⟩
abbrev S8192x4096 : Shape := ⟨2, ![8192, 4096]⟩
abbrev S8192x5120 : Shape := ⟨2, ![8192, 5120]⟩

abbrev nBuf : Space → Nat
  | .hbm => 121
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1536x1024, .f32⟩
  | .hbm, ⟨2, _⟩ => ⟨S1024, .f32⟩
  | .hbm, ⟨3, _⟩ => ⟨S1536, .i32⟩
  | .hbm, ⟨4, _⟩ => ⟨S1536x1024, .f32⟩
  | .hbm, ⟨5, _⟩ => ⟨S1024, .f32⟩
  | .hbm, ⟨6, _⟩ => ⟨S1536, .i32⟩
  | .hbm, ⟨7, _⟩ => ⟨S1536x1024, .f32⟩
  | .hbm, ⟨8, _⟩ => ⟨S1024, .f32⟩
  | .hbm, ⟨9, _⟩ => ⟨S1536, .i32⟩
  | .hbm, ⟨10, _⟩ => ⟨S1536x1024, .f32⟩
  | .hbm, ⟨11, _⟩ => ⟨S1024, .f32⟩
  | .hbm, ⟨12, _⟩ => ⟨S1536, .i32⟩
  | .hbm, ⟨13, _⟩ => ⟨S_, .i32⟩
  | .hbm, ⟨14, _⟩ => ⟨S1536, .i32⟩
  | .hbm, ⟨15, _⟩ => ⟨S1536, .i1⟩
  | .hbm, ⟨16, _⟩ => ⟨S_, .i32⟩
  | .hbm, ⟨17, _⟩ => ⟨S1536, .i32⟩
  | .hbm, ⟨18, _⟩ => ⟨S1536, .i32⟩
  | .hbm, ⟨19, _⟩ => ⟨S1536, .i32⟩
  | .hbm, ⟨20, _⟩ => ⟨S1536x1, .i32⟩
  | .hbm, ⟨21, _⟩ => ⟨S1, .i32⟩
  | .hbm, ⟨22, _⟩ => ⟨S_, .i32⟩
  | .hbm, ⟨23, _⟩ => ⟨S1536x1, .i32⟩
  | .hbm, ⟨24, _⟩ => ⟨S1536x1, .i1⟩
  | .hbm, ⟨25, _⟩ => ⟨S1x1, .i32⟩
  | .hbm, ⟨26, _⟩ => ⟨S1536x1, .i32⟩
  | .hbm, ⟨27, _⟩ => ⟨S1536x1, .i1⟩
  | .hbm, ⟨28, _⟩ => ⟨S1536x1, .i1⟩
  | .hbm, ⟨29, _⟩ => ⟨S_, .i1⟩
  | .hbm, ⟨30, _⟩ => ⟨S1536, .i1⟩
  | .hbm, ⟨31, _⟩ => ⟨S8192x1536, .f32⟩
  | .hbm, ⟨32, _⟩ => ⟨S8192x1536, .i1⟩
  | .hbm, ⟨33, _⟩ => ⟨S_, .f32⟩
  | .hbm, ⟨34, _⟩ => ⟨S8192x1536, .f32⟩
  | .hbm, ⟨35, _⟩ => ⟨S8192x1536, .f32⟩
  | .hbm, ⟨36, _⟩ => ⟨S8192x1536, .bf16⟩
  | .hbm, ⟨37, _⟩ => ⟨S1536x1024, .bf16⟩
  | .hbm, ⟨38, _⟩ => ⟨S8192x1024, .f32⟩
  | .hbm, ⟨39, _⟩ => ⟨S8192x2048, .f32⟩
  | .hbm, ⟨40, _⟩ => ⟨S_, .i32⟩
  | .hbm, ⟨41, _⟩ => ⟨S1536, .i32⟩
  | .hbm, ⟨42, _⟩ => ⟨S1536, .i1⟩
  | .hbm, ⟨43, _⟩ => ⟨S_, .i32⟩
  | .hbm, ⟨44, _⟩ => ⟨S1536, .i32⟩
  | .hbm, ⟨45, _⟩ => ⟨S1536, .i32⟩
  | .hbm, ⟨46, _⟩ => ⟨S1536, .i32⟩
  | .hbm, ⟨47, _⟩ => ⟨S1536x1, .i32⟩
  | .hbm, ⟨48, _⟩ => ⟨S1, .i32⟩
  | .hbm, ⟨49, _⟩ => ⟨S_, .i32⟩
  | .hbm, ⟨50, _⟩ => ⟨S1536x1, .i32⟩
  | .hbm, ⟨51, _⟩ => ⟨S1536x1, .i1⟩
  | .hbm, ⟨52, _⟩ => ⟨S1x1, .i32⟩
  | .hbm, ⟨53, _⟩ => ⟨S1536x1, .i32⟩
  | .hbm, ⟨54, _⟩ => ⟨S1536x1, .i1⟩
  | .hbm, ⟨55, _⟩ => ⟨S1536x1, .i1⟩
  | .hbm, ⟨56, _⟩ => ⟨S_, .i1⟩
  | .hbm, ⟨57, _⟩ => ⟨S1536, .i1⟩
  | .hbm, ⟨58, _⟩ => ⟨S8192x1536, .f32⟩
  | .hbm, ⟨59, _⟩ => ⟨S8192x1536, .i1⟩
  | .hbm, ⟨60, _⟩ => ⟨S_, .f32⟩
  | .hbm, ⟨61, _⟩ => ⟨S8192x1536, .f32⟩
  | .hbm, ⟨62, _⟩ => ⟨S8192x1536, .f32⟩
  | .hbm, ⟨63, _⟩ => ⟨S8192x1536, .bf16⟩
  | .hbm, ⟨64, _⟩ => ⟨S1536x1024, .bf16⟩
  | .hbm, ⟨65, _⟩ => ⟨S8192x1024, .f32⟩
  | .hbm, ⟨66, _⟩ => ⟨S8192x3072, .f32⟩
  | .hbm, ⟨67, _⟩ => ⟨S_, .i32⟩
  | .hbm, ⟨68, _⟩ => ⟨S1536, .i32⟩
  | .hbm, ⟨69, _⟩ => ⟨S1536, .i1⟩
  | .hbm, ⟨70, _⟩ => ⟨S_, .i32⟩
  | .hbm, ⟨71, _⟩ => ⟨S1536, .i32⟩
  | .hbm, ⟨72, _⟩ => ⟨S1536, .i32⟩
  | .hbm, ⟨73, _⟩ => ⟨S1536, .i32⟩
  | .hbm, ⟨74, _⟩ => ⟨S1536x1, .i32⟩
  | .hbm, ⟨75, _⟩ => ⟨S1, .i32⟩
  | .hbm, ⟨76, _⟩ => ⟨S_, .i32⟩
  | .hbm, ⟨77, _⟩ => ⟨S1536x1, .i32⟩
  | .hbm, ⟨78, _⟩ => ⟨S1536x1, .i1⟩
  | .hbm, ⟨79, _⟩ => ⟨S1x1, .i32⟩
  | .hbm, ⟨80, _⟩ => ⟨S1536x1, .i32⟩
  | .hbm, ⟨81, _⟩ => ⟨S1536x1, .i1⟩
  | .hbm, ⟨82, _⟩ => ⟨S1536x1, .i1⟩
  | .hbm, ⟨83, _⟩ => ⟨S_, .i1⟩
  | .hbm, ⟨84, _⟩ => ⟨S1536, .i1⟩
  | .hbm, ⟨85, _⟩ => ⟨S8192x1536, .f32⟩
  | .hbm, ⟨86, _⟩ => ⟨S8192x1536, .i1⟩
  | .hbm, ⟨87, _⟩ => ⟨S_, .f32⟩
  | .hbm, ⟨88, _⟩ => ⟨S8192x1536, .f32⟩
  | .hbm, ⟨89, _⟩ => ⟨S8192x1536, .f32⟩
  | .hbm, ⟨90, _⟩ => ⟨S8192x1536, .bf16⟩
  | .hbm, ⟨91, _⟩ => ⟨S1536x1024, .bf16⟩
  | .hbm, ⟨92, _⟩ => ⟨S8192x1024, .f32⟩
  | .hbm, ⟨93, _⟩ => ⟨S8192x4096, .f32⟩
  | .hbm, ⟨94, _⟩ => ⟨S_, .i32⟩
  | .hbm, ⟨95, _⟩ => ⟨S1536, .i32⟩
  | .hbm, ⟨96, _⟩ => ⟨S1536, .i1⟩
  | .hbm, ⟨97, _⟩ => ⟨S_, .i32⟩
  | .hbm, ⟨98, _⟩ => ⟨S1536, .i32⟩
  | .hbm, ⟨99, _⟩ => ⟨S1536, .i32⟩
  | .hbm, ⟨100, _⟩ => ⟨S1536, .i32⟩
  | .hbm, ⟨101, _⟩ => ⟨S1536x1, .i32⟩
  | .hbm, ⟨102, _⟩ => ⟨S1, .i32⟩
  | .hbm, ⟨103, _⟩ => ⟨S_, .i32⟩
  | .hbm, ⟨104, _⟩ => ⟨S1536x1, .i32⟩
  | .hbm, ⟨105, _⟩ => ⟨S1536x1, .i1⟩
  | .hbm, ⟨106, _⟩ => ⟨S1x1, .i32⟩
  | .hbm, ⟨107, _⟩ => ⟨S1536x1, .i32⟩
  | .hbm, ⟨108, _⟩ => ⟨S1536x1, .i1⟩
  | .hbm, ⟨109, _⟩ => ⟨S1536x1, .i1⟩
  | .hbm, ⟨110, _⟩ => ⟨S_, .i1⟩
  | .hbm, ⟨111, _⟩ => ⟨S1536, .i1⟩
  | .hbm, ⟨112, _⟩ => ⟨S8192x1536, .f32⟩
  | .hbm, ⟨113, _⟩ => ⟨S8192x1536, .i1⟩
  | .hbm, ⟨114, _⟩ => ⟨S_, .f32⟩
  | .hbm, ⟨115, _⟩ => ⟨S8192x1536, .f32⟩
  | .hbm, ⟨116, _⟩ => ⟨S8192x1536, .f32⟩
  | .hbm, ⟨117, _⟩ => ⟨S8192x1536, .bf16⟩
  | .hbm, ⟨118, _⟩ => ⟨S1536x1024, .bf16⟩
  | .hbm, ⟨119, _⟩ => ⟨S8192x1024, .f32⟩
  | .hbm, ⟨120, _⟩ => ⟨S8192x5120, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024, .f32⟩
  | .local _ .vmem, ⟨4, _⟩ => ⟨S1024x1024, .f32⟩
  | .local _ .vmem, ⟨5, _⟩ => ⟨S1024x1024, .f32⟩
  | .local _ .vmem, ⟨6, _⟩ => ⟨S1024x1536, .bf16⟩
  | .local _ .vmem, ⟨7, _⟩ => ⟨S1024x1536, .bf16⟩
  | .local _ .vmem, ⟨8, _⟩ => ⟨S1536x1024, .bf16⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | .local _ .vmem, ⟨12, _⟩ => ⟨S1024x1536, .bf16⟩
  | .local _ .vmem, ⟨13, _⟩ => ⟨S1024x1536, .bf16⟩
  | .local _ .vmem, ⟨14, _⟩ => ⟨S1536x1024, .bf16⟩
  | .local _ .vmem, ⟨15, _⟩ => ⟨S1024, .f32⟩
  | .local _ .vmem, ⟨16, _⟩ => ⟨S1024x1024, .f32⟩
  | .local _ .vmem, ⟨17, _⟩ => ⟨S1024x1024, .f32⟩
  | .local _ .vmem, ⟨18, _⟩ => ⟨S1024x1536, .bf16⟩
  | .local _ .vmem, ⟨19, _⟩ => ⟨S1024x1536, .bf16⟩
  | .local _ .vmem, ⟨20, _⟩ => ⟨S1536x1024, .bf16⟩
  | .local _ .vmem, ⟨21, _⟩ => ⟨S1024, .f32⟩
  | .local _ .vmem, ⟨22, _⟩ => ⟨S1024x1024, .f32⟩
  | .local _ .vmem, ⟨23, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v10 : Ref sig .tc := ⟨.hbm, 89, rfl⟩
abbrev main_v11 : Ref sig .tc := ⟨.hbm, 90, rfl⟩
abbrev main_v12 : Ref sig .tc := ⟨.hbm, 91, rfl⟩
abbrev main_v13 : Ref sig .tc := ⟨.hbm, 92, rfl⟩
abbrev main_v14 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v15 : Ref sig .tc := ⟨.hbm, 116, rfl⟩
abbrev main_v16 : Ref sig .tc := ⟨.hbm, 117, rfl⟩
abbrev main_v17 : Ref sig .tc := ⟨.hbm, 118, rfl⟩
abbrev main_v18 : Ref sig .tc := ⟨.hbm, 119, rfl⟩
abbrev main_v19 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1536x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1536 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1536x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1536 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1536x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1536 : S_.BroadcastsInDim S1536 (![] : Fin 0 → Fin S1536.rank)
  bcast_S1536_S1536x1_0 : S1536.BroadcastsInDim S1536x1 (![0] : Fin 1 → Fin S1536x1.rank)
  bcast_S_S1536x1 : S_.BroadcastsInDim S1536x1 (![] : Fin 0 → Fin S1536x1.rank)
  bcast_S1_S1x1_1 : S1.BroadcastsInDim S1x1 (![1] : Fin 1 → Fin S1x1.rank)
  bcast_S1x1_S1536x1_0_1 : S1x1.BroadcastsInDim S1536x1 (![0, 1] : Fin 2 → Fin S1536x1.rank)
  reducesTo_S1536x1_S1536_d1 : S1536x1.ReducesTo [1] S1536
  h_S_ : 0 < S_.numel
  bcast_S1536_S8192x1536_1 : S1536.BroadcastsInDim S8192x1536 (![1] : Fin 1 → Fin S8192x1536.rank)
  bcast_S_S8192x1536 : S_.BroadcastsInDim S8192x1536 (![] : Fin 0 → Fin S8192x1536.rank)
  bitsLt_bf16_f32 : FTy.bits .bf16 < FTy.bits .f32
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  concatenates_S8192x1024_S8192x1024_S8192x2048_d1 : Shape.Concatenates [S8192x1024, S8192x1024] S8192x2048 1
  concatenates_S8192x2048_S8192x1024_S8192x3072_d1 : Shape.Concatenates [S8192x2048, S8192x1024] S8192x3072 1
  concatenates_S8192x3072_S8192x1024_S8192x4096_d1 : Shape.Concatenates [S8192x3072, S8192x1024] S8192x4096 1
  concatenates_S8192x4096_S8192x1024_S8192x5120_d1 : Shape.Concatenates [S8192x4096, S8192x1024] S8192x5120 1
  gather_S8192x1024_S1536x1_S8192x1536_0_1_n_n_1_1_81921_wf : GatherDims.WF S8192x1024 S1536x1 S8192x1536 [0] [1] [] [1] [] 1 ![8192, 1]
  dot_S1024x1536_S1536x1024_S1024x1024_1_0_0_1_n_n_wf : DotDims.WF S1024x1536 S1536x1024 S1024x1024 [1] [0] [0] [1] [] []
  gather_S8192x2048_S1536x1_S8192x1536_0_1_n_n_1_1_81921_wf : GatherDims.WF S8192x2048 S1536x1 S8192x1536 [0] [1] [] [1] [] 1 ![8192, 1]
  gather_S8192x3072_S1536x1_S8192x1536_0_1_n_n_1_1_81921_wf : GatherDims.WF S8192x3072 S1536x1 S8192x1536 [0] [1] [] [1] [] 1 ![8192, 1]
  gather_S8192x4096_S1536x1_S8192x1536_0_1_n_n_1_1_81921_wf : GatherDims.WF S8192x4096 S1536x1 S8192x1536 [0] [1] [] [1] [] 1 ![8192, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1536.size a ≤ S8192x1536.size a
  hwx0_0 : ∀ i : grid0.Coords, EltTy.bits .bf16 = 32 ∨ (Rect.block (s := S8192x1536) S1024x1536.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x1024.size a ≤ S1536x1024.size a
  hwx0_1 : ∀ i : grid0.Coords, EltTy.bits .bf16 = 32 ∨ (Rect.block (s := S1536x1024) S1536x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1536.size a ≤ S8192x1536.size a
  hwx1_0 : ∀ i : grid1.Coords, EltTy.bits .bf16 = 32 ∨ (Rect.block (s := S8192x1536) S1024x1536.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1536x1024.size a ≤ S1536x1024.size a
  hwx1_1 : ∀ i : grid1.Coords, EltTy.bits .bf16 = 32 ∨ (Rect.block (s := S1536x1024) S1536x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1536.size a ≤ S8192x1536.size a
  hwx2_0 : ∀ i : grid2.Coords, EltTy.bits .bf16 = 32 ∨ (Rect.block (s := S8192x1536) S1024x1536.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1536x1024.size a ≤ S1536x1024.size a
  hwx2_1 : ∀ i : grid2.Coords, EltTy.bits .bf16 = 32 ∨ (Rect.block (s := S1536x1024) S1536x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1536.size a ≤ S8192x1536.size a
  hwx3_0 : ∀ i : grid3.Coords, EltTy.bits .bf16 = 32 ∨ (Rect.block (s := S8192x1536) S1024x1536.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1536x1024.size a ≤ S1536x1024.size a
  hwx3_1 : ∀ i : grid3.Coords, EltTy.bits .bf16 = 32 ∨ (Rect.block (s := S1536x1024) S1536x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S1024.size a
  hwx3_2 : ∀ i : grid3.Coords, EltTy.bits .f32 = 32 ∨ (Rect.block (s := S1024) S1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S8192x1024.size a
  hwx3_3 : ∀ i : grid3.Coords, EltTy.bits .f32 = 32 ∨ (Rect.block (s := S8192x1024) S1024x1024.size (cc3_transform_3 i) (hinb3_3 i)).WholeWords (EltTy.packing .f32)

variable [Facts₀]

def gather_S8192x1024_S1536x1_S8192x1536_0_1_n_n_1_1_81921 : GatherDims S8192x1024 S1536x1 S8192x1536 where
  offsetDims := [0]
  collapsedSliceDims := [1]
  operandBatchingDims := []
  startIndicesBatchingDims := []
  startIndexMap := [1]
  indexVectorDim := 1
  sliceSizes := ![8192, 1]
  wf := gather_S8192x1024_S1536x1_S8192x1536_0_1_n_n_1_1_81921_wf
def dot_S1024x1536_S1536x1024_S1024x1024_1_0_0_1_n_n : DotDims S1024x1536 S1536x1024 S1024x1024 where
  lhsContracting := [1]
  rhsContracting := [0]
  lhsNonContracting := [0]
  rhsNonContracting := [1]
  lhsBatch := []
  rhsBatch := []
  wf := dot_S1024x1536_S1536x1024_S1024x1024_1_0_0_1_n_n_wf
def gather_S8192x2048_S1536x1_S8192x1536_0_1_n_n_1_1_81921 : GatherDims S8192x2048 S1536x1 S8192x1536 where
  offsetDims := [0]
  collapsedSliceDims := [1]
  operandBatchingDims := []
  startIndicesBatchingDims := []
  startIndexMap := [1]
  indexVectorDim := 1
  sliceSizes := ![8192, 1]
  wf := gather_S8192x2048_S1536x1_S8192x1536_0_1_n_n_1_1_81921_wf
def gather_S8192x3072_S1536x1_S8192x1536_0_1_n_n_1_1_81921 : GatherDims S8192x3072 S1536x1 S8192x1536 where
  offsetDims := [0]
  collapsedSliceDims := [1]
  operandBatchingDims := []
  startIndicesBatchingDims := []
  startIndexMap := [1]
  indexVectorDim := 1
  sliceSizes := ![8192, 1]
  wf := gather_S8192x3072_S1536x1_S8192x1536_0_1_n_n_1_1_81921_wf
def gather_S8192x4096_S1536x1_S8192x1536_0_1_n_n_1_1_81921 : GatherDims S8192x4096 S1536x1 S8192x1536 where
  offsetDims := [0]
  collapsedSliceDims := [1]
  operandBatchingDims := []
  startIndicesBatchingDims := []
  startIndexMap := [1]
  indexVectorDim := 1
  sliceSizes := ![8192, 1]
  wf := gather_S8192x4096_S1536x1_S8192x1536_0_1_n_n_1_1_81921_wf

abbrev win0_0 : Pipeline.Window sig grid0 :=
  Pipeline.Window.ofSpec (Memref.whole main_v1) S1024x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1536x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1024x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1536x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S1024x1536.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1536x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v16) S1024x1536.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S1536x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8192x1024 : Shape := ⟨2, ![8192, 1024]⟩
abbrev S1536x1024 : Shape := ⟨2, ![1536, 1024]⟩
abbrev S1024 : Shape := ⟨1, ![1024]⟩
abbrev S1536 : Shape := ⟨1, ![1536]⟩
abbrev S_ : Shape := ⟨0, ![]⟩
abbrev S1536x1 : Shape := ⟨2, ![1536, 1]⟩
abbrev S1 : Shape := ⟨1, ![1]⟩
abbrev S1x1 : Shape := ⟨2, ![1, 1]⟩
abbrev S8192x1536 : Shape := ⟨2, ![8192, 1536]⟩
abbrev S1x1024 : Shape := ⟨2, ![1, 1024]⟩
abbrev S8192x2048 : Shape := ⟨2, ![8192, 2048]⟩
abbrev S8192x3072 : Shape := ⟨2, ![8192, 3072]⟩
abbrev S8192x4096 : Shape := ⟨2, ![8192, 4096]⟩
abbrev S8192x5120 : Shape := ⟨2, ![8192, 5120]⟩

abbrev nBuf : Space → Nat
  | .hbm => 129
  | .vmem => 0
  | .smem => 0
  | _ => 0

abbrev hbmTy0_0 (i : Nat) : BufTy := match i % 128 with
  | 0 => ⟨S8192x1024, .f32⟩
  | 1 => ⟨S1536x1024, .f32⟩
  | 2 => ⟨S1024, .f32⟩
  | 3 => ⟨S1536, .i32⟩
  | 4 => ⟨S1536x1024, .f32⟩
  | 5 => ⟨S1024, .f32⟩
  | 6 => ⟨S1536, .i32⟩
  | 7 => ⟨S1536x1024, .f32⟩
  | 8 => ⟨S1024, .f32⟩
  | 9 => ⟨S1536, .i32⟩
  | 10 => ⟨S1536x1024, .f32⟩
  | 11 => ⟨S1024, .f32⟩
  | 12 => ⟨S1536, .i32⟩
  | 13 => ⟨S_, .i32⟩
  | 14 => ⟨S1536, .i32⟩
  | 15 => ⟨S1536, .i1⟩
  | 16 => ⟨S_, .i32⟩
  | 17 => ⟨S1536, .i32⟩
  | 18 => ⟨S1536, .i32⟩
  | 19 => ⟨S1536, .i32⟩
  | 20 => ⟨S1536x1, .i32⟩
  | 21 => ⟨S1, .i32⟩
  | 22 => ⟨S_, .i32⟩
  | 23 => ⟨S1536x1, .i32⟩
  | 24 => ⟨S1536x1, .i1⟩
  | 25 => ⟨S1x1, .i32⟩
  | 26 => ⟨S1536x1, .i32⟩
  | 27 => ⟨S1536x1, .i1⟩
  | 28 => ⟨S1536x1, .i1⟩
  | 29 => ⟨S_, .i1⟩
  | 30 => ⟨S1536, .i1⟩
  | 31 => ⟨S8192x1536, .f32⟩
  | 32 => ⟨S8192x1536, .i1⟩
  | 33 => ⟨S_, .f32⟩
  | 34 => ⟨S8192x1536, .f32⟩
  | 35 => ⟨S8192x1536, .f32⟩
  | 36 => ⟨S8192x1024, .f32⟩
  | 37 => ⟨S1x1024, .f32⟩
  | 38 => ⟨S8192x1024, .f32⟩
  | 39 => ⟨S8192x1024, .f32⟩
  | 40 => ⟨S8192x1024, .f32⟩
  | 41 => ⟨S8192x2048, .f32⟩
  | 42 => ⟨S_, .i32⟩
  | 43 => ⟨S1536, .i32⟩
  | 44 => ⟨S1536, .i1⟩
  | 45 => ⟨S_, .i32⟩
  | 46 => ⟨S1536, .i32⟩
  | 47 => ⟨S1536, .i32⟩
  | 48 => ⟨S1536, .i32⟩
  | 49 => ⟨S1536x1, .i32⟩
  | 50 => ⟨S1, .i32⟩
  | 51 => ⟨S_, .i32⟩
  | 52 => ⟨S1536x1, .i32⟩
  | 53 => ⟨S1536x1, .i1⟩
  | 54 => ⟨S1x1, .i32⟩
  | 55 => ⟨S1536x1, .i32⟩
  | 56 => ⟨S1536x1, .i1⟩
  | 57 => ⟨S1536x1, .i1⟩
  | 58 => ⟨S_, .i1⟩
  | 59 => ⟨S1536, .i1⟩
  | 60 => ⟨S8192x1536, .f32⟩
  | 61 => ⟨S8192x1536, .i1⟩
  | 62 => ⟨S_, .f32⟩
  | 63 => ⟨S8192x1536, .f32⟩
  | 64 => ⟨S8192x1536, .f32⟩
  | 65 => ⟨S8192x1024, .f32⟩
  | 66 => ⟨S1x1024, .f32⟩
  | 67 => ⟨S8192x1024, .f32⟩
  | 68 => ⟨S8192x1024, .f32⟩
  | 69 => ⟨S8192x1024, .f32⟩
  | 70 => ⟨S8192x3072, .f32⟩
  | 71 => ⟨S_, .i32⟩
  | 72 => ⟨S1536, .i32⟩
  | 73 => ⟨S1536, .i1⟩
  | 74 => ⟨S_, .i32⟩
  | 75 => ⟨S1536, .i32⟩
  | 76 => ⟨S1536, .i32⟩
  | 77 => ⟨S1536, .i32⟩
  | 78 => ⟨S1536x1, .i32⟩
  | 79 => ⟨S1, .i32⟩
  | 80 => ⟨S_, .i32⟩
  | 81 => ⟨S1536x1, .i32⟩
  | 82 => ⟨S1536x1, .i1⟩
  | 83 => ⟨S1x1, .i32⟩
  | 84 => ⟨S1536x1, .i32⟩
  | 85 => ⟨S1536x1, .i1⟩
  | 86 => ⟨S1536x1, .i1⟩
  | 87 => ⟨S_, .i1⟩
  | 88 => ⟨S1536, .i1⟩
  | 89 => ⟨S8192x1536, .f32⟩
  | 90 => ⟨S8192x1536, .i1⟩
  | 91 => ⟨S_, .f32⟩
  | 92 => ⟨S8192x1536, .f32⟩
  | 93 => ⟨S8192x1536, .f32⟩
  | 94 => ⟨S8192x1024, .f32⟩
  | 95 => ⟨S1x1024, .f32⟩
  | 96 => ⟨S8192x1024, .f32⟩
  | 97 => ⟨S8192x1024, .f32⟩
  | 98 => ⟨S8192x1024, .f32⟩
  | 99 => ⟨S8192x4096, .f32⟩
  | 100 => ⟨S_, .i32⟩
  | 101 => ⟨S1536, .i32⟩
  | 102 => ⟨S1536, .i1⟩
  | 103 => ⟨S_, .i32⟩
  | 104 => ⟨S1536, .i32⟩
  | 105 => ⟨S1536, .i32⟩
  | 106 => ⟨S1536, .i32⟩
  | 107 => ⟨S1536x1, .i32⟩
  | 108 => ⟨S1, .i32⟩
  | 109 => ⟨S_, .i32⟩
  | 110 => ⟨S1536x1, .i32⟩
  | 111 => ⟨S1536x1, .i1⟩
  | 112 => ⟨S1x1, .i32⟩
  | 113 => ⟨S1536x1, .i32⟩
  | 114 => ⟨S1536x1, .i1⟩
  | 115 => ⟨S1536x1, .i1⟩
  | 116 => ⟨S_, .i1⟩
  | 117 => ⟨S1536, .i1⟩
  | 118 => ⟨S8192x1536, .f32⟩
  | 119 => ⟨S8192x1536, .i1⟩
  | 120 => ⟨S_, .f32⟩
  | 121 => ⟨S8192x1536, .f32⟩
  | 122 => ⟨S8192x1536, .f32⟩
  | 123 => ⟨S8192x1024, .f32⟩
  | 124 => ⟨S1x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x5120, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v14 : Ref sig .tc := ⟨.hbm, 93, rfl⟩
abbrev main_v15 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_v19 : Ref sig .tc := ⟨.hbm, 98, rfl⟩
abbrev main_v20 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v21 : Ref sig .tc := ⟨.hbm, 122, rfl⟩
abbrev main_v22 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩

abbrev nD : Nat := 1
abbrev τ : Topo := Topo.v7x

variable {F : FTy → Type} [FloatOps F]

class Facts₀ : Prop where
  bcast_S_S1536 : S_.BroadcastsInDim S1536 (![] : Fin 0 → Fin S1536.rank)
  bcast_S1536_S1536x1_0 : S1536.BroadcastsInDim S1536x1 (![0] : Fin 1 → Fin S1536x1.rank)
  bcast_S_S1536x1 : S_.BroadcastsInDim S1536x1 (![] : Fin 0 → Fin S1536x1.rank)
  bcast_S1_S1x1_1 : S1.BroadcastsInDim S1x1 (![1] : Fin 1 → Fin S1x1.rank)
  bcast_S1x1_S1536x1_0_1 : S1x1.BroadcastsInDim S1536x1 (![0, 1] : Fin 2 → Fin S1536x1.rank)
  reducesTo_S1536x1_S1536_d1 : S1536x1.ReducesTo [1] S1536
  h_S_ : 0 < S_.numel
  bcast_S1536_S8192x1536_1 : S1536.BroadcastsInDim S8192x1536 (![1] : Fin 1 → Fin S8192x1536.rank)
  bcast_S_S8192x1536 : S_.BroadcastsInDim S8192x1536 (![] : Fin 0 → Fin S8192x1536.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  concatenates_S8192x1024_S8192x1024_S8192x2048_d1 : Shape.Concatenates [S8192x1024, S8192x1024] S8192x2048 1
  concatenates_S8192x2048_S8192x1024_S8192x3072_d1 : Shape.Concatenates [S8192x2048, S8192x1024] S8192x3072 1
  concatenates_S8192x3072_S8192x1024_S8192x4096_d1 : Shape.Concatenates [S8192x3072, S8192x1024] S8192x4096 1
  concatenates_S8192x4096_S8192x1024_S8192x5120_d1 : Shape.Concatenates [S8192x4096, S8192x1024] S8192x5120 1
  gather_S8192x1024_S1536x1_S8192x1536_0_1_n_n_1_1_81921_wf : GatherDims.WF S8192x1024 S1536x1 S8192x1536 [0] [1] [] [1] [] 1 ![8192, 1]
  dot_S8192x1536_S1536x1024_S8192x1024_1_0_0_1_n_n_wf : DotDims.WF S8192x1536 S1536x1024 S8192x1024 [1] [0] [0] [1] [] []
  gather_S8192x2048_S1536x1_S8192x1536_0_1_n_n_1_1_81921_wf : GatherDims.WF S8192x2048 S1536x1 S8192x1536 [0] [1] [] [1] [] 1 ![8192, 1]
  gather_S8192x3072_S1536x1_S8192x1536_0_1_n_n_1_1_81921_wf : GatherDims.WF S8192x3072 S1536x1 S8192x1536 [0] [1] [] [1] [] 1 ![8192, 1]
  gather_S8192x4096_S1536x1_S8192x1536_0_1_n_n_1_1_81921_wf : GatherDims.WF S8192x4096 S1536x1 S8192x1536 [0] [1] [] [1] [] 1 ![8192, 1]

variable [Facts₀]

def gather_S8192x1024_S1536x1_S8192x1536_0_1_n_n_1_1_81921 : GatherDims S8192x1024 S1536x1 S8192x1536 where
  offsetDims := [0]
  collapsedSliceDims := [1]
  operandBatchingDims := []
  startIndicesBatchingDims := []
  startIndexMap := [1]
  indexVectorDim := 1
  sliceSizes := ![8192, 1]
  wf := gather_S8192x1024_S1536x1_S8192x1536_0_1_n_n_1_1_81921_wf
def dot_S8192x1536_S1536x1024_S8192x1024_1_0_0_1_n_n : DotDims S8192x1536 S1536x1024 S8192x1024 where
  lhsContracting := [1]
  rhsContracting := [0]
  lhsNonContracting := [0]
  rhsNonContracting := [1]
  lhsBatch := []
  rhsBatch := []
  wf := dot_S8192x1536_S1536x1024_S8192x1024_1_0_0_1_n_n_wf
def gather_S8192x2048_S1536x1_S8192x1536_0_1_n_n_1_1_81921 : GatherDims S8192x2048 S1536x1 S8192x1536 where
  offsetDims := [0]
  collapsedSliceDims := [1]
  operandBatchingDims := []
  startIndicesBatchingDims := []
  startIndexMap := [1]
  indexVectorDim := 1
  sliceSizes := ![8192, 1]
  wf := gather_S8192x2048_S1536x1_S8192x1536_0_1_n_n_1_1_81921_wf
def gather_S8192x3072_S1536x1_S8192x1536_0_1_n_n_1_1_81921 : GatherDims S8192x3072 S1536x1 S8192x1536 where
  offsetDims := [0]
  collapsedSliceDims := [1]
  operandBatchingDims := []
  startIndicesBatchingDims := []
  startIndexMap := [1]
  indexVectorDim := 1
  sliceSizes := ![8192, 1]
  wf := gather_S8192x3072_S1536x1_S8192x1536_0_1_n_n_1_1_81921_wf
def gather_S8192x4096_S1536x1_S8192x1536_0_1_n_n_1_1_81921 : GatherDims S8192x4096 S1536x1 S8192x1536 where
  offsetDims := [0]
  collapsedSliceDims := [1]
  operandBatchingDims := []
  startIndicesBatchingDims := []
  startIndexMap := [1]
  indexVectorDim := 1
  sliceSizes := ![8192, 1]
  wf := gather_S8192x4096_S1536x1_S8192x1536_0_1_n_n_1_1_81921_wf

class Facts : Prop extends Facts₀ where

variable [Facts]
-- ==== Proof.KRun.lean ====
/-
  The kernel program's run with its result named.

  Every weakly fair execution of @main terminates without a fault, and the final state holds, in every unscoped buffer,
  the contents the last segment boundary names: the fold of the host stretches and of the four launches' write-backs
  from the launch memory. Read at the result buffer this is the program's value; read at an argument it is the launch
  contents.
-/
import proofs.«171747_j77077483094889_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v18) = W16 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v18 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)

end Cert.KernelIdeal.Run

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«171747_j77077483094889_1_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.Dense.lean ====
/-
  One dense layer with a hyperbolic-tangent activation, on the extended reals.

  `dense l r b` is, entry by entry, tanh of (the row of `l` times the column of `r`, plus the column's bias): with
  `rowsTimes` the matrix product and `rowBias` the addition of one row to every row,
  `dense l r b (p, q) = tanh (∑ k, l (p, k) * r (k, q) + b (0, q))`.

  Three readings of it are proved here. The host's spelling — a `dot_general`, a bias vector broadcast twice, an add and
  the host's tanh — is `dense` of the operands and the bias reshaped to one row. A kernel body's spelling — a matrix-unit
  product accumulated into the zero splat, the one-row bias broadcast over the rows, an add and tanh — is `dense` too.
  And a block of rows of `dense l r b` is `dense` of that block of rows of `l`: an entry depends on its own row of
  `l` only, so a kernel that computes the layer one block of rows at a time computes the layer.
-/
import proofs.«171747_j77077483094889_1_alg».proof.Proof.LibPlainDot
import proofs.«171747_j77077483094889_1_alg».proof.Proof.LibRowBias
import proofs.«171747_j77077483094889_1_alg».proof.Proof.LibRowBiasHost
import Idealize.ShloMosaic.Lib.Pipeline.Value
import Idealize.ShloMosaic.Lib.ValueLayout

noncomputable section

namespace Cert.Dense

open Idealize.ShloMosaic Idealize.ShloMosaic.ValueIdx Cert.LibPlainDot Cert.LibRowBias

/-- tanh of (rows of `l` times `r`, plus the one row `b`). -/
def dense {M K N : ℕ} (l : (⟨2, ![M, K]⟩ : Shape).Idx → EReal) (r : (⟨2, ![K, N]⟩ : Shape).Idx → EReal)
    (b : (⟨2, ![1, N]⟩ : Shape).Idx → EReal) : (⟨2, ![M, N]⟩ : Shape).Idx → EReal :=
  fun i => Ideal.tanh (rowBias (rowsTimes l r) b i)

/-- Rows `o, …, o + R - 1` of the layer are the layer of those rows of the left operand. -/
theorem dense_rows {M R K N : ℕ} (o : ℕ) (l : (⟨2, ![M, K]⟩ : Shape).Idx → EReal) (lb : (⟨2, ![R, K]⟩ : Shape).Idx → EReal)
    (r : (⟨2, ![K, N]⟩ : Shape).Idx → EReal) (b : (⟨2, ![1, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    dense lb r b y = dense l r b i := by
  unfold dense
  refine congrArg Ideal.tanh ?_
  exact rowBias_rows o (rowsTimes l r) (rowsTimes lb r) b
    (fun p q h => rowsTimes_rows o l lb r hl (ix2 p q) (ix2 (⟨o + p.val, h⟩ : Fin M) q) rfl rfl) y i h0 h1

/-- The same with the right operand and the bias given up to equality: what a block of the kernel's operands is read as. -/
theorem dense_block {M R K N : ℕ} (o : ℕ) (l : (⟨2, ![M, K]⟩ : Shape).Idx → EReal) (lb : (⟨2, ![R, K]⟩ : Shape).Idx → EReal)
    (r rb : (⟨2, ![K, N]⟩ : Shape).Idx → EReal) (b bb : (⟨2, ![1, N]⟩ : Shape).Idx → EReal)
    (hl : ∀ (y : Fin R) (k : Fin K) (h : o + y.val < M), lb (ix2 y k) = l (ix2 (⟨o + y.val, h⟩ : Fin M) k))
    (hr : rb = r) (hb : bb = b)
    (y : (⟨2, ![R, N]⟩ : Shape).Idx) (i : (⟨2, ![M, N]⟩ : Shape).Idx) (h0 : (i 0).val = o + (y 0).val) (h1 : (i 1).val = (y 1).val) :
    dense lb rb bb y = dense l r b i := by
  subst hr hb
  exact dense_rows o l lb rb bb hl y i h0 h1

/-- The host's spelling: tanh of (a `dot_general` plus the bias vector broadcast to a row and then over the rows). -/
theorem host_dense {M K N : ℕ} (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    Host.tanh (addf (Host.dotGeneral D none l r)
        (broadcastInDim ⟨2, ![M, N]⟩ ![0, 1] h2 (broadcastInDim ⟨2, ![1, N]⟩ ![1] h1 x)))
      = dense l r (shapeCast ⟨2, ![1, N]⟩ x hc) := by
  subst hD
  rw [addf_bcastRow _ x h1 h2 hc]
  show (fun i => Ideal.tanh (rowBias (FloatOps.dotGeneral (DotDims.plain M K N) none HostSchedule.single l r) _ i)) = _
  rw [dotGeneral_plain]
  rfl

/-- A kernel body's spelling: tanh of (a matrix-unit product into the zero splat plus the one-row bias broadcast over
    the rows). -/
theorem body_dense {R K N : ℕ} {φ₁ φ₂ : FTy} (D : DotDims ⟨2, ![R, K]⟩ ⟨2, ![K, N]⟩ ⟨2, ![R, N]⟩) (hD : D = DotDims.plain R K N)
    (l : FVec Ideal ⟨2, ![R, K]⟩ φ₁) (r : FVec Ideal ⟨2, ![K, N]⟩ φ₂) (b : FVec Ideal ⟨2, ![1, N]⟩ .f32)
    (hb : (⟨2, ![1, N]⟩ : Shape).Broadcasts ⟨2, ![R, N]⟩) :
    tanh (addf (matmul D none l r (constant ⟨2, ![R, N]⟩ .f32 0x00000000#32)) (broadcastTo ⟨2, ![R, N]⟩ b hb))
      = dense l r b := by
  subst hD
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  show Ideal.tanh (FloatOps.matmul (DotDims.plain R K N) none l r (constant ⟨2, ![R, N]⟩ .f32 0x00000000#32) (ix2 p q)
      + broadcastTo ⟨2, ![R, N]⟩ b hb (ix2 p q)) = _
  rw [matmul_zero_plain, broadcastTo_1b_ab_apply]
  rfl

end Cert.Dense

end
-- ==== Proof.KRegion0.lean ====
/-
  What the first kernel launch leaves in its output array, as one function of the arrays it is entered with.

  The launch walks 8 grid points; point `t` stages rows `1024 t … 1024 t + 1023` of the selected columns (an
  `[8192, 1536]` array), the whole weight matrix and the whole bias vector, and writes back rows `1024 t … 1024 t + 1023`
  of the output. The body computes the dense layer of its staged blocks, and a block of rows of a dense layer is the
  dense layer of that block of rows, so every point writes back its block of ONE array: the dense layer of the whole
  operands. The eight blocks tile the output's rows, so the output ends holding exactly that array.
-/
import proofs.«171747_j77077483094889_1_alg».proof.Proof.Gen.KernelIdeal.Frame
import proofs.«171747_j77077483094889_1_alg».proof.Proof.Dense
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The array the output ends holding: the dense layer of the selected columns, the weights and the bias as a row. -/
def G (c : Dev nD) : S8192x1024.Idx → EReal :=
  dense (M := 8192) (K := 1536) (N := 1024) (V c main_v1) (V c main_v2) (shapeCast S1x1024 (V c main_arg2) shapeCasts_S1024_S1x1024)

/-- The body's stored value is the dense layer of its loaded blocks. -/
theorem pay_eq (x0 : Vec Ideal S1024x1536 .bf16) (x1 : Vec Ideal S1536x1024 .bf16) (x2 : Vec Ideal S1024 .f32) :
    k0_pay1 x0 x1 x2 = dense (M := 1024) (K := 1536) (N := 1024) x0 x1 (shapeCast S1x1024 x2 shapeCasts_S1024_S1x1024) := by
  unfold k0_pay1
  simp only [shapeCast_self]
  exact body_dense (R := 1024) (K := 1536) (N := 1024) (φ₁ := .bf16) (φ₂ := .bf16) dot_S1024x1536_S1536x1024_S1024x1024_1_0_0_1_n_n rfl x0 x1
    (shapeCast S1x1024 x2 shapeCasts_S1024_S1x1024) broadcasts_S1x1024_S1024x1024

/-- The printed index maps over the grid: the selected columns and the output move one block of rows per point, the
    weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Point `t`'s block of the selected columns is rows `1024 t + p` of the array. -/
theorem blk0 (c : Dev nD) (t : Fin cfg0.N) (p : Fin 1024) (k : Fin 1536) (h : 1024 * t.val + p.val < 8192) :
    iblk0 V c 0 t (ix2 p k) = V c main_v1 (ix2 (⟨1024 * t.val + p.val, h⟩ : Fin 8192) k) := by
  show V c main_v1 (((cfg0.win 0).blk t).view.emb (ix2 p k)) = _
  refine congrArg (V c main_v1) (funext fun a => Fin.ext ?_)
  obtain ⟨e0, e1, -⟩ := idx_facts t
  match a with
  | ⟨0, _⟩ => show win0_0.index t (0 : Fin 2) * 1024 + 1 * p.val = 1024 * t.val + p.val; omega
  | ⟨1, _⟩ => show win0_0.index t (1 : Fin 2) * 1536 + 1 * k.val = k.val; omega

/-- Every point's block of the weights is the whole matrix. -/
theorem blk1 (c : Dev nD) (t : Fin cfg0.N) : iblk0 V c 1 t = V c main_v2 := by
  funext y
  show V c main_v2 (((cfg0.win 1).blk t).view.emb y) = _
  refine congrArg (V c main_v2) (funext fun a => Fin.ext ?_)
  obtain ⟨-, -, e0, e1, -⟩ := idx_facts t
  match a with
  | ⟨0, _⟩ => show win0_1.index t (0 : Fin 2) * 1536 + 1 * (y 0).val = (y 0).val; omega
  | ⟨1, _⟩ => show win0_1.index t (1 : Fin 2) * 1024 + 1 * (y 1).val = (y 1).val; omega

/-- Every point's block of the bias is the whole vector. -/
theorem blk2 (c : Dev nD) (t : Fin cfg0.N) : iblk0 V c 2 t = V c main_arg2 := by
  funext y
  show V c main_arg2 (((cfg0.win 2).blk t).view.emb y) = _
  refine congrArg (V c main_arg2) (funext fun a => Fin.ext ?_)
  obtain ⟨-, -, -, -, e0, -⟩ := idx_facts t
  match a with
  | ⟨0, _⟩ => show win0_2.index t (0 : Fin 1) * 1024 + 1 * (y 0).val = (y 0).val; omega

/-- What point `t` writes back is block `t` of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz2]
  simp only [View.ld_unit_zero (S := S1024x1536) hz2, View.ld_unit_zero (S := S1536x1024) hz2, View.ld_unit_zero (S := S1024) hz1]
  rw [pay_eq]
  funext y
  obtain ⟨-, -, -, -, -, e0, e1⟩ := idx_facts t
  show dense (M := 1024) (K := 1536) (N := 1024) (iblk0 V c 0 t) (iblk0 V c 1 t) (shapeCast S1x1024 (iblk0 V c 2 t) shapeCasts_S1024_S1x1024) y
    = G V c (((cfg0.win 3).blk t).view.emb y)
  unfold G
  refine dense_block (M := 8192) (R := 1024) (K := 1536) (N := 1024) (1024 * t.val) (V c main_v1) (iblk0 V c 0 t)
    (V c main_v2) (iblk0 V c 1 t)
    (shapeCast S1x1024 (V c main_arg2) shapeCasts_S1024_S1x1024) (shapeCast S1x1024 (iblk0 V c 2 t) shapeCasts_S1024_S1x1024)
    (fun p k h => blk0 V c t p k h) (blk1 V c t) (congrArg (fun z => shapeCast S1x1024 z shapeCasts_S1024_S1x1024) (blk2 V c t))
    y (((cfg0.win 3).blk t).view.emb y) ?_ ?_
  · show win0_3.index t (0 : Fin 2) * 1024 + 1 * (y 0).val = 1024 * t.val + (y 0).val; omega
  · show win0_3.index t (1 : Fin 2) * 1024 + 1 * (y 1).val = (y 1).val; omega

/-- An index of the output is in point `t`'s block iff each coordinate is in the block's range on its axis. -/
theorem mem_blk (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- Row `r` of the output is in the block of point `r / 1024`. -/
theorem cover (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  have hlt : (i 0).val / 1024 < cfg0.N := by rw [hN]; omega
  refine ⟨⟨(i 0).val / 1024, hlt⟩, flush0_3 _, ?_⟩
  rw [mem_blk]
  obtain ⟨-, -, -, -, -, e0, e1⟩ := idx_facts ⟨(i 0).val / 1024, hlt⟩
  have e0' : win0_3.index ⟨(i 0).val / 1024, hlt⟩ (0 : Fin 2) = (i 0).val / 1024 := e0
  intro a
  match a with
  | ⟨0, _⟩ => show win0_3.index ⟨(i 0).val / 1024, hlt⟩ (0 : Fin 2) * 1024 ≤ (i 0).val ∧ (i 0).val < win0_3.index ⟨(i 0).val / 1024, hlt⟩ (0 : Fin 2) * 1024 + 1024; omega
  | ⟨1, _⟩ => show win0_3.index ⟨(i 0).val / 1024, hlt⟩ (1 : Fin 2) * 1024 ≤ (i 1).val ∧ (i 1).val < win0_3.index ⟨(i 0).val / 1024, hlt⟩ (1 : Fin 2) * 1024 + 1024; omega

/-- The output array after the launch is the dense layer of the arrays the launch is entered with. -/
theorem out_eq (c : Dev nD) : (dat0 V c).arrAt 3 cfg0.N = G V c :=
  (dat0 V c).arrAt_eq_of_cover 3 (G V c) (fun t _ => flushed_eq V c t) (cover)

end Cert.KernelIdeal.Region0

end
-- ==== Proof.KArgs.lean ====
/-
  Which buffers a stretch of host lines leaves alone.

  No host line and no kernel launch of the program writes an argument array. `Args W W'` says that the contents `W'`
  agree with `W` on the thirteen arguments; it is transitive, so it carries from the launch to any later point of the
  run. `keep_tac` proves that one buffer is left alone by a literal list of host lines: the buffer differs from every
  buffer a line writes.
-/
import proofs.«171747_j77077483094889_1_alg».proof.Proof.Gen.KernelIdeal.Launch
import Idealize.ShloMosaic.Lib.StableHlo.Run

noncomputable section

namespace Cert.KernelIdeal.Keep

open Idealize.ShloMosaic Idealize.ShloMosaic.TcCoe Idealize.SL.Sem Cert.KernelIdeal

variable {F : FTy → Type} [FloatOps F]

/-- `W'` holds what `W` holds in every argument array. -/
def Args (W W' : Valuation τ sig (Elt F)) : Prop :=
  W' (Proc.devRef .tc main_arg0) = W (Proc.devRef .tc main_arg0)
  ∧ W' (Proc.devRef .tc main_arg1) = W (Proc.devRef .tc main_arg1)
  ∧ W' (Proc.devRef .tc main_arg2) = W (Proc.devRef .tc main_arg2)
  ∧ W' (Proc.devRef .tc main_arg3) = W (Proc.devRef .tc main_arg3)
  ∧ W' (Proc.devRef .tc main_arg4) = W (Proc.devRef .tc main_arg4)
  ∧ W' (Proc.devRef .tc main_arg5) = W (Proc.devRef .tc main_arg5)
  ∧ W' (Proc.devRef .tc main_arg6) = W (Proc.devRef .tc main_arg6)
  ∧ W' (Proc.devRef .tc main_arg7) = W (Proc.devRef .tc main_arg7)
  ∧ W' (Proc.devRef .tc main_arg8) = W (Proc.devRef .tc main_arg8)
  ∧ W' (Proc.devRef .tc main_arg9) = W (Proc.devRef .tc main_arg9)
  ∧ W' (Proc.devRef .tc main_arg10) = W (Proc.devRef .tc main_arg10)
  ∧ W' (Proc.devRef .tc main_arg11) = W (Proc.devRef .tc main_arg11)
  ∧ W' (Proc.devRef .tc main_arg12) = W (Proc.devRef .tc main_arg12)

theorem Args.refl (W : Valuation τ sig (Elt F)) : Args W W :=
  ⟨rfl, rfl, rfl, rfl, rfl, rfl, rfl, rfl, rfl, rfl, rfl, rfl, rfl⟩

theorem Args.trans {W W' W'' : Valuation τ sig (Elt F)} (h : Args W W') (h' : Args W' W'') : Args W W'' := by
  obtain ⟨a0, a1, a2, a3, a4, a5, a6, a7, a8, a9, a10, a11, a12⟩ := h
  obtain ⟨b0, b1, b2, b3, b4, b5, b6, b7, b8, b9, b10, b11, b12⟩ := h'
  exact ⟨b0.trans a0, b1.trans a1, b2.trans a2, b3.trans a3, b4.trans a4, b5.trans a5, b6.trans a6, b7.trans a7, b8.trans a8, b9.trans a9, b10.trans a10, b11.trans a11, b12.trans a12⟩

/-- A buffer that is none of the buffers a literal list of host lines writes keeps its contents. -/
scoped macro "keep_tac " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, Finset.mem_singleton]
  repeat' apply And.intro
  all_goals exact StableHlo.devRef_ne_of_ne (by decide)))

end Cert.KernelIdeal.Keep

end
-- ==== Proof.Fns.lean ====
/-
  The host-side functions both programs share, and the network they compose into.

  Each of the four layers first GATHERS 1536 columns of the running concatenation `acc` of all earlier layers'
  outputs (an `[8192, W]` array, W = 1024, 2048, 3072, 4096): a column number that is negative is first raised by W,
  the column is read with the start index clamped into the array, and the whole column is replaced by the fill value
  when the raised number is still outside `[0, W - 1]` — `takeA … takeD`, one per width, written exactly as the host
  spells them, so that they are never opened: the two programs apply the SAME function to the same operands. The layer's
  output is then appended to `acc` along the columns (`catA … catD`).

  `net lay` is the whole network over an abstract layer function `lay` (selected columns, weights, bias ↦ output):
  the last layer's output. The reference's layer is the host's dot-general + twice-broadcast bias + tanh (`layR`); the
  kernel's is the `dense` layer of the operands rounded to bf16, which on the extended reals is no change (`layK`).
  `layR = layK` is the one mathematical fact that joins the two programs (`Cert.Dense.host_dense`).
-/
import proofs.«171747_j77077483094889_1_alg».proof.Proof.Gen.KernelIdeal
import proofs.«171747_j77077483094889_1_alg».proof.Proof.Dense

noncomputable section

namespace Cert.KernelIdeal.Fns

open Idealize.ShloMosaic Idealize.ShloMosaic.ValueIdx Cert.KernelIdeal Cert.KernelIdeal.Facts₀ Cert.Dense

variable {F : FTy → Type} [FloatOps F]

/-- Column numbers made non-negative (a negative one raised by the width `w`), as an `[1536, 1]` index column. -/
def fixIdx (w : BitVec 32) (i : IVec S1536 32) : IVec S1536x1 32 :=
  broadcastInDim S1536x1 ![0] bcast_S1536_S1536x1_0
    (select (cmpi .slt i (broadcastInDim S1536 ![] bcast_S_S1536 (constantI S_ 32 0#32)))
      (addi i (broadcastInDim S1536 ![] bcast_S_S1536 (constantI S_ 32 w))) i)

/-- Which of the raised column numbers lie in `[0, hi]`. -/
def inRange (hi : BitVec 32) (j : IVec S1536x1 32) : IVec S1536 1 :=
  Host.reduce IntOp.andi
    (andi (cmpi .sge j (broadcastInDim S1536x1 ![] bcast_S_S1536x1 (constantI S_ 32 0#32)))
      (cmpi .sle j (broadcastInDim S1536x1 ![0, 1] bcast_S1x1_S1536x1_0_1 (broadcastInDim S1x1 ![1] bcast_S1_S1x1_1 (constantI S1 32 hi)))))
    (constantI S_ 1 1#1) reducesTo_S1536x1_S1536_d1 h_S_

/-- The gathered columns, those out of range replaced by the fill value. -/
def fill (ok : IVec S1536 1) (g : FVec F S8192x1536 .f32) : FVec F S8192x1536 .f32 :=
  select (broadcastInDim S8192x1536 ![1] bcast_S1536_S8192x1536_1 ok) g
    (broadcastInDim S8192x1536 ![] bcast_S_S8192x1536 (constant S_ .f32 0x7FC00000#32))

/-- The column gather of an `[8192, 1024]` array. -/
def takeA (x : FVec F S8192x1024 .f32) (i : IVec S1536 32) : FVec F S8192x1536 .f32 :=
  fill (inRange 1023#32 (fixIdx 1024#32 i)) (Host.gather gather_S8192x1024_S1536x1_S8192x1536_0_1_n_n_1_1_81921 x (fixIdx 1024#32 i))
/-- The column gather of an `[8192, 2048]` array. -/
def takeB (x : FVec F S8192x2048 .f32) (i : IVec S1536 32) : FVec F S8192x1536 .f32 :=
  fill (inRange 2047#32 (fixIdx 2048#32 i)) (Host.gather gather_S8192x2048_S1536x1_S8192x1536_0_1_n_n_1_1_81921 x (fixIdx 2048#32 i))
/-- The column gather of an `[8192, 3072]` array. -/
def takeC (x : FVec F S8192x3072 .f32) (i : IVec S1536 32) : FVec F S8192x1536 .f32 :=
  fill (inRange 3071#32 (fixIdx 3072#32 i)) (Host.gather gather_S8192x3072_S1536x1_S8192x1536_0_1_n_n_1_1_81921 x (fixIdx 3072#32 i))
/-- The column gather of an `[8192, 4096]` array. -/
def takeD (x : FVec F S8192x4096 .f32) (i : IVec S1536 32) : FVec F S8192x1536 .f32 :=
  fill (inRange 4095#32 (fixIdx 4096#32 i)) (Host.gather gather_S8192x4096_S1536x1_S8192x1536_0_1_n_n_1_1_81921 x (fixIdx 4096#32 i))

/-- A layer's output appended to the columns so far. -/
def catA (a : FVec F S8192x1024 .f32) (b : FVec F S8192x1024 .f32) : FVec F S8192x2048 .f32 :=
  concatenate S8192x2048 1 [⟨S8192x1024, a⟩, ⟨S8192x1024, b⟩] concatenates_S8192x1024_S8192x1024_S8192x2048_d1
def catB (a : FVec F S8192x2048 .f32) (b : FVec F S8192x1024 .f32) : FVec F S8192x3072 .f32 :=
  concatenate S8192x3072 1 [⟨S8192x2048, a⟩, ⟨S8192x1024, b⟩] concatenates_S8192x2048_S8192x1024_S8192x3072_d1
def catC (a : FVec F S8192x3072 .f32) (b : FVec F S8192x1024 .f32) : FVec F S8192x4096 .f32 :=
  concatenate S8192x4096 1 [⟨S8192x3072, a⟩, ⟨S8192x1024, b⟩] concatenates_S8192x3072_S8192x1024_S8192x4096_d1

/-- The four layers over an abstract layer function: gather, layer, append, three times, then gather and layer. -/
def net (lay : FVec F S8192x1536 .f32 → FVec F S1536x1024 .f32 → FVec F S1024 .f32 → FVec F S8192x1024 .f32)
    (x : FVec F S8192x1024 .f32)
    (k0 : FVec F S1536x1024 .f32) (b0 : FVec F S1024 .f32) (i0 : IVec S1536 32)
    (k1 : FVec F S1536x1024 .f32) (b1 : FVec F S1024 .f32) (i1 : IVec S1536 32)
    (k2 : FVec F S1536x1024 .f32) (b2 : FVec F S1024 .f32) (i2 : IVec S1536 32)
    (k3 : FVec F S1536x1024 .f32) (b3 : FVec F S1024 .f32) (i3 : IVec S1536 32) : FVec F S8192x1024 .f32 :=
  let a1 := catA x (lay (takeA x i0) k0 b0)
  let a2 := catB a1 (lay (takeB a1 i1) k1 b1)
  let a3 := catC a2 (lay (takeC a2 i2) k2 b2)
  lay (takeD a3 i3) k3 b3

theorem hrow : (⟨1, ![1024]⟩ : Shape).ShapeCasts ⟨2, ![1, 1024]⟩ := by decide
theorem hb1 : (⟨1, ![1024]⟩ : Shape).BroadcastsInDim ⟨2, ![1, 1024]⟩ ![1] := by decide
theorem hb2 : (⟨2, ![1, 1024]⟩ : Shape).BroadcastsInDim ⟨2, ![8192, 1024]⟩ ![0, 1] := by decide

/-- The kernel's layer on the extended reals: the dense layer of the selected columns, the weights and the bias as one row. -/
def layK (s : FVec Ideal S8192x1536 .f32) (k : FVec Ideal S1536x1024 .f32) (b : FVec Ideal S1024 .f32) : FVec Ideal S8192x1024 .f32 :=
  dense (M := 8192) (K := 1536) (N := 1024) s k (shapeCast ⟨2, ![1, 1024]⟩ b hrow)

/-- The reference's layer as the host spells it. -/
def layR (s : FVec Ideal S8192x1536 .f32) (k : FVec Ideal S1536x1024 .f32) (b : FVec Ideal S1024 .f32) : FVec Ideal S8192x1024 .f32 :=
  Host.tanh (addf (Host.dotGeneral (DotDims.plain 8192 1536 1024) none s k)
    (broadcastInDim ⟨2, ![8192, 1024]⟩ ![0, 1] hb2 (broadcastInDim ⟨2, ![1, 1024]⟩ ![1] hb1 b)))

/-- The two layers are one function. -/
theorem layR_eq_layK : layR = layK := by
  funext s k b
  exact host_dense (DotDims.plain 8192 1536 1024) rfl s k b hb1 hb2 hrow

end Cert.KernelIdeal.Fns

end
-- ==== Proof.KLayer0.lean ====
/-
  The first layer of the kernel program, from the contents it is entered with to the contents it leaves.

  The layer's host lines gather 1536 columns of the running concatenation (`takeA`) and round the gathered columns
  and the weights to bf16 (no change on the extended reals); the launch leaves the dense layer of those operands in its
  output array (the launch's value, proved beside this module); a last host line appends the output to the concatenation.
  No line and no launch writes an argument array, and the buffers a later line reads are not written in between, so
  every operand is read back to the contents the layer was entered with.
-/
import proofs.«171747_j77077483094889_1_alg».proof.Proof.KRegion0
import proofs.«171747_j77077483094889_1_alg».proof.Proof.KArgs
import proofs.«171747_j77077483094889_1_alg».proof.Proof.Fns

set_option maxRecDepth 16384

noncomputable section

namespace Cert.KernelIdeal.Layer0

open Idealize.ShloMosaic Idealize.ShloMosaic.TcCoe Idealize.SL.Sem Idealize.ShloMosaic.StableHlo
open Cert.KernelIdeal Cert.KernelIdeal.Gen Cert.KernelIdeal.Fns Cert.KernelIdeal.Keep Cert.Dense

variable (m : (ℓ : Loc nD τ sig) → Buf (Elt Ideal) ℓ) (ρ : Dev nD → PrngReg) (c : Dev nD)

/-- The gather's lines leave the gathered columns. -/
theorem sel_eq (W : Valuation τ sig (Elt Ideal)) :
    (StableHlo.after (hostOps0 (F := Ideal)) W (Proc.devRef .tc main_v0) : S8192x1536.Idx → EReal) = takeA (F := Ideal) (W (Proc.devRef .tc main_arg0)) (W (Proc.devRef .tc main_arg3)) := by
  simp only [hostOps0]
  after_results_simp
  rfl

/-- Rounding the gathered columns to bf16 changes nothing on the extended reals. -/
theorem selbf_eq (W : Valuation τ sig (Elt Ideal)) :
    (StableHlo.after (hostOps0_1 (F := Ideal)) W (Proc.devRef .tc main_v1) : S8192x1536.Idx → EReal) = W (Proc.devRef .tc main_v0) := by
  simp only [hostOps0_1]
  after_results_simp
  rfl

/-- Nor does rounding the weights. -/
theorem kbf_eq (W : Valuation τ sig (Elt Ideal)) :
    (StableHlo.after (hostOps0_1 (F := Ideal)) W (Proc.devRef .tc main_v2) : S1536x1024.Idx → EReal) = W (Proc.devRef .tc main_arg1) := by
  simp only [hostOps0_1]
  after_results_simp
  rfl

/-- The gather's lines write no argument. -/
theorem argsT (W : Valuation τ sig (Elt Ideal)) : Args W (StableHlo.after (hostOps0 (F := Ideal)) W) :=
  ⟨by keep_tac hostOps0, by keep_tac hostOps0, by keep_tac hostOps0, by keep_tac hostOps0, by keep_tac hostOps0, by keep_tac hostOps0, by keep_tac hostOps0, by keep_tac hostOps0, by keep_tac hostOps0, by keep_tac hostOps0, by keep_tac hostOps0, by keep_tac hostOps0, by keep_tac hostOps0⟩

/-- Nor do the rounding lines. -/
theorem argsU (W : Valuation τ sig (Elt Ideal)) : Args W (StableHlo.after (hostOps0_1 (F := Ideal)) W) :=
  ⟨by keep_tac hostOps0_1, by keep_tac hostOps0_1, by keep_tac hostOps0_1, by keep_tac hostOps0_1, by keep_tac hostOps0_1, by keep_tac hostOps0_1, by keep_tac hostOps0_1, by keep_tac hostOps0_1, by keep_tac hostOps0_1, by keep_tac hostOps0_1, by keep_tac hostOps0_1, by keep_tac hostOps0_1, by keep_tac hostOps0_1⟩

/-- The launch writes its output array only; the bias it stages is read, not written. -/
theorem argsR : Args (W2 m ρ c) (W3 m ρ c) :=
  ⟨W3_of_ne m ρ c main_arg0 (by decide),
   W3_of_ne m ρ c main_arg1 (by decide),
   (W3_arr m ρ c 2).trans (((dat0 (V2 m ρ) c).arrAt_in 2 rfl _).trans (A_eq0 (V2 m ρ) c 2)),
   W3_of_ne m ρ c main_arg3 (by decide),
   W3_of_ne m ρ c main_arg4 (by decide),
   W3_of_ne m ρ c main_arg5 (by decide),
   W3_of_ne m ρ c main_arg6 (by decide),
   W3_of_ne m ρ c main_arg7 (by decide),
   W3_of_ne m ρ c main_arg8 (by decide),
   W3_of_ne m ρ c main_arg9 (by decide),
   W3_of_ne m ρ c main_arg10 (by decide),
   W3_of_ne m ρ c main_arg11 (by decide),
   W3_of_ne m ρ c main_arg12 (by decide)⟩

/-- The line after the launch writes no argument. -/
theorem argsC (W : Valuation τ sig (Elt Ideal)) : Args W (StableHlo.after (hostOps1 (F := Ideal)) W) :=
  ⟨by keep_tac hostOps1, by keep_tac hostOps1, by keep_tac hostOps1, by keep_tac hostOps1, by keep_tac hostOps1, by keep_tac hostOps1, by keep_tac hostOps1, by keep_tac hostOps1, by keep_tac hostOps1, by keep_tac hostOps1, by keep_tac hostOps1, by keep_tac hostOps1, by keep_tac hostOps1⟩

/-- The arguments are, after the layer, what they were before it. -/
theorem args : Args (W0 m ρ c) (W4 m ρ c) :=
  (((argsT (W0 m ρ c)).trans (argsU (W1 m ρ c))).trans (argsR m ρ c)).trans (argsC (W3 m ρ c))

/-- The launch's output array: the dense layer of the gathered columns of the concatenation the layer was entered
    with, the weights and the bias. -/
theorem out_eq : (W3 m ρ c (Proc.devRef .tc main_v3) : S8192x1024.Idx → EReal)
    = layK (takeA (F := Ideal) (W0 m ρ c (Proc.devRef .tc main_arg0)) (W0 m ρ c (Proc.devRef .tc main_arg3))) (W0 m ρ c (Proc.devRef .tc main_arg1)) (W0 m ρ c (Proc.devRef .tc main_arg2)) := by
  have h3 : W3 m ρ c (Proc.devRef .tc main_v3) = (dat0 (V2 m ρ) c).arrAt 3 cfg0.N := W3_arr m ρ c 3
  rw [h3, Region0.out_eq (V2 m ρ) c]
  have e1 : (V2 m ρ c main_v1 : S8192x1536.Idx → EReal) = takeA (F := Ideal) (W0 m ρ c (Proc.devRef .tc main_arg0)) (W0 m ρ c (Proc.devRef .tc main_arg3)) :=
    (selbf_eq (W1 m ρ c)).trans (sel_eq (W0 m ρ c))
  have e2 : (V2 m ρ c main_v2 : S1536x1024.Idx → EReal) = W0 m ρ c (Proc.devRef .tc main_arg1) :=
    (kbf_eq (W1 m ρ c)).trans (by keep_tac hostOps0)
  have e3 : (V2 m ρ c main_arg2 : S1024.Idx → EReal) = W0 m ρ c (Proc.devRef .tc main_arg2) :=
    (show StableHlo.after (hostOps0_1 (F := Ideal)) (W1 m ρ c) (Proc.devRef .tc main_arg2) = W1 m ρ c (Proc.devRef .tc main_arg2) from by keep_tac hostOps0_1).trans
      (show StableHlo.after (hostOps0 (F := Ideal)) (W0 m ρ c) (Proc.devRef .tc main_arg2) = W0 m ρ c (Proc.devRef .tc main_arg2) from by keep_tac hostOps0)
  show dense (M := 8192) (K := 1536) (N := 1024) (V2 m ρ c main_v1) (V2 m ρ c main_v2) (shapeCast S1x1024 (V2 m ρ c main_arg2) Gen.shapeCasts_S1024_S1x1024) = _
  rw [e1, e2, e3]
  rfl

/-- The concatenation the layer was entered with is still in its buffer when the layer's output is appended. -/
theorem acc_kept : W3 m ρ c (Proc.devRef .tc main_arg0) = W0 m ρ c (Proc.devRef .tc main_arg0) :=
  (argsR m ρ c).1.trans (((argsT (W0 m ρ c)).trans (argsU (W1 m ρ c))).1)

/-- The next concatenation: the one the layer was entered with, the layer's output appended. -/
theorem acc_eq : (W4 m ρ c (Proc.devRef .tc main_v4) : S8192x2048.Idx → EReal)
    = catA (F := Ideal) (W0 m ρ c (Proc.devRef .tc main_arg0)) (layK (takeA (F := Ideal) (W0 m ρ c (Proc.devRef .tc main_arg0)) (W0 m ρ c (Proc.devRef .tc main_arg3))) (W0 m ρ c (Proc.devRef .tc main_arg1)) (W0 m ρ c (Proc.devRef .tc main_arg2))) := by
  have h : (StableHlo.after (hostOps1 (F := Ideal)) (W3 m ρ c) (Proc.devRef .tc main_v4) : S8192x2048.Idx → EReal) = catA (F := Ideal) (W3 m ρ c (Proc.devRef .tc main_arg0)) (W3 m ρ c (Proc.devRef .tc main_v3)) := by
    simp only [hostOps1]
    after_results_simp
    rfl
  refine h.trans ?_
  rw [acc_kept m ρ c, out_eq m ρ c]

end Cert.KernelIdeal.Layer0

end
-- ==== Proof.KRegion1.lean ====
/-
  What the second kernel launch leaves in its output array, as one function of the arrays it is entered with.

  The launch walks 8 grid points; point `t` stages rows `1024 t … 1024 t + 1023` of the selected columns (an
  `[8192, 1536]` array), the whole weight matrix and the whole bias vector, and writes back rows `1024 t … 1024 t + 1023`
  of the output. The body computes the dense layer of its staged blocks, and a block of rows of a dense layer is the
  dense layer of that block of rows, so every point writes back its block of ONE array: the dense layer of the whole
  operands. The eight blocks tile the output's rows, so the output ends holding exactly that array.
-/
import proofs.«171747_j77077483094889_1_alg».proof.Proof.Gen.KernelIdeal.Frame
import proofs.«171747_j77077483094889_1_alg».proof.Proof.Dense
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The array the output ends holding: the dense layer of the selected columns, the weights and the bias as a row. -/
def G (c : Dev nD) : S8192x1024.Idx → EReal :=
  dense (M := 8192) (K := 1536) (N := 1024) (V c main_v6) (V c main_v7) (shapeCast S1x1024 (V c main_arg5) shapeCasts_S1024_S1x1024)

/-- The body's stored value is the dense layer of its loaded blocks. -/
theorem pay_eq (x0 : Vec Ideal S1024x1536 .bf16) (x1 : Vec Ideal S1536x1024 .bf16) (x2 : Vec Ideal S1024 .f32) :
    k1_pay1 x0 x1 x2 = dense (M := 1024) (K := 1536) (N := 1024) x0 x1 (shapeCast S1x1024 x2 shapeCasts_S1024_S1x1024) := by
  unfold k1_pay1
  simp only [shapeCast_self]
  exact body_dense (R := 1024) (K := 1536) (N := 1024) (φ₁ := .bf16) (φ₂ := .bf16) dot_S1024x1536_S1536x1024_S1024x1024_1_0_0_1_n_n rfl x0 x1
    (shapeCast S1x1024 x2 shapeCasts_S1024_S1x1024) broadcasts_S1x1024_S1024x1024

/-- The printed index maps over the grid: the selected columns and the output move one block of rows per point, the
    weights and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Point `t`'s block of the selected columns is rows `1024 t + p` of the array. -/
theorem blk0 (c : Dev nD) (t : Fin cfg1.N) (p : Fin 1024) (k : Fin 1536) (h : 1024 * t.val + p.val < 8192) :
    iblk1 V c 0 t (ix2 p k) = V c main_v6 (ix2 (⟨1024 * t.val + p.val, h⟩ : Fin 8192) k) := by
  show V c main_v6 (((cfg1.win 0).blk t).view.emb (ix2 p k)) = _
  refine congrArg (V c main_v6) (funext fun a => Fin.ext ?_)
  obtain ⟨e0, e1, -⟩ := idx_facts t
  match a with
  | ⟨0, _⟩ => show win1_0.index t (0 : Fin 2) * 1024 + 1 * p.val = 1024 * t.val + p.val; omega
  | ⟨1, _⟩ => show win1_0.index t (1 : Fin 2) * 1536 + 1 * k.val = k.val; omega

/-- Every point's block of the weights is the whole matrix. -/
theorem blk1 (c : Dev nD) (t : Fin cfg1.N) : iblk1 V c 1 t = V c main_v7 := by
  funext y
  show V c main_v7 (((cfg1.win 1).blk t).view.emb y) = _
  refine congrArg (V c main_v7) (funext fun a => Fin.ext ?_)
  obtain ⟨-, -, e0, e1, -⟩ := idx_facts t
  match a with
  | ⟨0, _⟩ => show win1_1.index t (0 : Fin 2) * 1536 + 1 * (y 0).val = (y 0).val; omega
  | ⟨1, _⟩ => show win1_1.index t (1 : Fin 2) * 1024 + 1 * (y 1).val = (y 1).val; omega

/-- Every point's block of the bias is the whole vector. -/
theorem blk2 (c : Dev nD) (t : Fin cfg1.N) : iblk1 V c 2 t = V c main_arg5 := by
  funext y
  show V c main_arg5 (((cfg1.win 2).blk t).view.emb y) = _
  refine congrArg (V c main_arg5) (funext fun a => Fin.ext ?_)
  obtain ⟨-, -, -, -, e0, -⟩ := idx_facts t
  match a with
  | ⟨0, _⟩ => show win1_2.index t (0 : Fin 1) * 1024 + 1 * (y 0).val = (y 0).val; omega

/-- What point `t` writes back is block `t` of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz2]
  simp only [View.ld_unit_zero (S := S1024x1536) hz2, View.ld_unit_zero (S := S1536x1024) hz2, View.ld_unit_zero (S := S1024) hz1]
  rw [pay_eq]
  funext y
  obtain ⟨-, -, -, -, -, e0, e1⟩ := idx_facts t
  show dense (M := 1024) (K := 1536) (N := 1024) (iblk1 V c 0 t) (iblk1 V c 1 t) (shapeCast S1x1024 (iblk1 V c 2 t) shapeCasts_S1024_S1x1024) y
    = G V c (((cfg1.win 3).blk t).view.emb y)
  unfold G
  refine dense_block (M := 8192) (R := 1024) (K := 1536) (N := 1024) (1024 * t.val) (V c main_v6) (iblk1 V c 0 t)
    (V c main_v7) (iblk1 V c 1 t)
    (shapeCast S1x1024 (V c main_arg5) shapeCasts_S1024_S1x1024) (shapeCast S1x1024 (iblk1 V c 2 t) shapeCasts_S1024_S1x1024)
    (fun p k h => blk0 V c t p k h) (blk1 V c t) (congrArg (fun z => shapeCast S1x1024 z shapeCasts_S1024_S1x1024) (blk2 V c t))
    y (((cfg1.win 3).blk t).view.emb y) ?_ ?_
  · show win1_3.index t (0 : Fin 2) * 1024 + 1 * (y 0).val = 1024 * t.val + (y 0).val; omega
  · show win1_3.index t (1 : Fin 2) * 1024 + 1 * (y 1).val = (y 1).val; omega

/-- An index of the output is in point `t`'s block iff each coordinate is in the block's range on its axis. -/
theorem mem_blk (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v8).slice (win1_3.rect t)).set ↔ _
  rw [View.set_slice_whole, Rect.mem_set_unit]
  exact Iff.rfl

/-- Row `r` of the output is in the block of point `r / 1024`. -/
theorem cover (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 8 := N_1
  have hlt : (i 0).val / 1024 < cfg1.N := by rw [hN]; omega
  refine ⟨⟨(i 0).val / 1024, hlt⟩, flush1_3 _, ?_⟩
  rw [mem_blk]
  obtain ⟨-, -, -, -, -, e0, e1⟩ := idx_facts ⟨(i 0).val / 1024, hlt⟩
  have e0' : win1_3.index ⟨(i 0).val / 1024, hlt⟩ (0 : Fin 2) = (i 0).val / 1024 := e0
  intro a
  match a with
  | ⟨0, _⟩ => show win1_3.index ⟨(i 0).val / 1024, hlt⟩ (0 : Fin 2) * 1024 ≤ (i 0).val ∧ (i 0).val < win1_3.index ⟨(i 0).val / 1024, hlt⟩ (0 : Fin 2) * 1024 + 1024; omega
  | ⟨1, _⟩ => show win1_3.index ⟨(i 0).val / 1024, hlt⟩ (1 : Fin 2) * 1024 ≤ (i 1).val ∧ (i 1).val < win1_3.index ⟨(i 0).val / 1024, hlt⟩ (1 : Fin 2) * 1024 + 1024; omega

/-- The output array after the launch is the dense layer of the arrays the launch is entered with. -/
theorem out_eq (c : Dev nD) : (dat1 V c).arrAt 3 cfg1.N = G V c :=
  (dat1 V c).arrAt_eq_of_cover 3 (G V c) (fun t _ => flushed_eq V c t) (cover)

end Cert.KernelIdeal.Region1

end
-- ==== Proof.KLayer1.lean ====
/-
  The second layer of the kernel program, from the contents it is entered with to the contents it leaves.

  The layer's host lines gather 1536 columns of the running concatenation (`takeB`) and round the gathered columns
  and the weights to bf16 (no change on the extended reals); the launch leaves the dense layer of those operands in its
  output array (the launch's value, proved beside this module); a last host line appends the output to the concatenation.
  No line and no launch writes an argument array, and the buffers a later line reads are not written in between, so
  every operand is read back to the contents the layer was entered with.
-/
import proofs.«171747_j77077483094889_1_alg».proof.Proof.KRegion1
import proofs.«171747_j77077483094889_1_alg».proof.Proof.KArgs
import proofs.«171747_j77077483094889_1_alg».proof.Proof.Fns

set_option maxRecDepth 16384

noncomputable section

namespace Cert.KernelIdeal.Layer1

open Idealize.ShloMosaic Idealize.ShloMosaic.TcCoe Idealize.SL.Sem Idealize.ShloMosaic.StableHlo
open Cert.KernelIdeal Cert.KernelIdeal.Gen Cert.KernelIdeal.Fns Cert.KernelIdeal.Keep Cert.Dense

variable (m : (ℓ : Loc nD τ sig) → Buf (Elt Ideal) ℓ) (ρ : Dev nD → PrngReg) (c : Dev nD)

/-- The gather's lines leave the gathered columns. -/
theorem sel_eq (W : Valuation τ sig (Elt Ideal)) :
    (StableHlo.after (hostOps1_1 (F := Ideal)) W (Proc.devRef .tc main_v5) : S8192x1536.Idx → EReal) = takeB (F := Ideal) (W (Proc.devRef .tc main_v4)) (W (Proc.devRef .tc main_arg6)) := by
  simp only [hostOps1_1]
  after_results_simp
  rfl

/-- Rounding the gathered columns to bf16 changes nothing on the extended reals. -/
theorem selbf_eq (W : Valuation τ sig (Elt Ideal)) :
    (StableHlo.after (hostOps1_2 (F := Ideal)) W (Proc.devRef .tc main_v6) : S8192x1536.Idx → EReal) = W (Proc.devRef .tc main_v5) := by
  simp only [hostOps1_2]
  after_results_simp
  rfl

/-- Nor does rounding the weights. -/
theorem kbf_eq (W : Valuation τ sig (Elt Ideal)) :
    (StableHlo.after (hostOps1_2 (F := Ideal)) W (Proc.devRef .tc main_v7) : S1536x1024.Idx → EReal) = W (Proc.devRef .tc main_arg4) := by
  simp only [hostOps1_2]
  after_results_simp
  rfl

/-- The gather's lines write no argument. -/
theorem argsT (W : Valuation τ sig (Elt Ideal)) : Args W (StableHlo.after (hostOps1_1 (F := Ideal)) W) :=
  ⟨by keep_tac hostOps1_1, by keep_tac hostOps1_1, by keep_tac hostOps1_1, by keep_tac hostOps1_1, by keep_tac hostOps1_1, by keep_tac hostOps1_1, by keep_tac hostOps1_1, by keep_tac hostOps1_1, by keep_tac hostOps1_1, by keep_tac hostOps1_1, by keep_tac hostOps1_1, by keep_tac hostOps1_1, by keep_tac hostOps1_1⟩

/-- Nor do the rounding lines. -/
theorem argsU (W : Valuation τ sig (Elt Ideal)) : Args W (StableHlo.after (hostOps1_2 (F := Ideal)) W) :=
  ⟨by keep_tac hostOps1_2, by keep_tac hostOps1_2, by keep_tac hostOps1_2, by keep_tac hostOps1_2, by keep_tac hostOps1_2, by keep_tac hostOps1_2, by keep_tac hostOps1_2, by keep_tac hostOps1_2, by keep_tac hostOps1_2, by keep_tac hostOps1_2, by keep_tac hostOps1_2, by keep_tac hostOps1_2, by keep_tac hostOps1_2⟩

/-- The launch writes its output array only; the bias it stages is read, not written. -/
theorem argsR : Args (W6 m ρ c) (W7 m ρ c) :=
  ⟨W7_of_ne m ρ c main_arg0 (by decide),
   W7_of_ne m ρ c main_arg1 (by decide),
   W7_of_ne m ρ c main_arg2 (by decide),
   W7_of_ne m ρ c main_arg3 (by decide),
   W7_of_ne m ρ c main_arg4 (by decide),
   (W7_arr m ρ c 2).trans (((dat1 (V6 m ρ) c).arrAt_in 2 rfl _).trans (A_eq1 (V6 m ρ) c 2)),
   W7_of_ne m ρ c main_arg6 (by decide),
   W7_of_ne m ρ c main_arg7 (by decide),
   W7_of_ne m ρ c main_arg8 (by decide),
   W7_of_ne m ρ c main_arg9 (by decide),
   W7_of_ne m ρ c main_arg10 (by decide),
   W7_of_ne m ρ c main_arg11 (by decide),
   W7_of_ne m ρ c main_arg12 (by decide)⟩

/-- The line after the launch writes no argument. -/
theorem argsC (W : Valuation τ sig (Elt Ideal)) : Args W (StableHlo.after (hostOps2 (F := Ideal)) W) :=
  ⟨by keep_tac hostOps2, by keep_tac hostOps2, by keep_tac hostOps2, by keep_tac hostOps2, by keep_tac hostOps2, by keep_tac hostOps2, by keep_tac hostOps2, by keep_tac hostOps2, by keep_tac hostOps2, by keep_tac hostOps2, by keep_tac hostOps2, by keep_tac hostOps2, by keep_tac hostOps2⟩

/-- The arguments are, after the layer, what they were before it. -/
theorem args : Args (W4 m ρ c) (W8 m ρ c) :=
  (((argsT (W4 m ρ c)).trans (argsU (W5 m ρ c))).trans (argsR m ρ c)).trans (argsC (W7 m ρ c))

/-- The launch's output array: the dense layer of the gathered columns of the concatenation the layer was entered
    with, the weights and the bias. -/
theorem out_eq : (W7 m ρ c (Proc.devRef .tc main_v8) : S8192x1024.Idx → EReal)
    = layK (takeB (F := Ideal) (W4 m ρ c (Proc.devRef .tc main_v4)) (W4 m ρ c (Proc.devRef .tc main_arg6))) (W4 m ρ c (Proc.devRef .tc main_arg4)) (W4 m ρ c (Proc.devRef .tc main_arg5)) := by
  have h3 : W7 m ρ c (Proc.devRef .tc main_v8) = (dat1 (V6 m ρ) c).arrAt 3 cfg1.N := W7_arr m ρ c 3
  rw [h3, Region1.out_eq (V6 m ρ) c]
  have e1 : (V6 m ρ c main_v6 : S8192x1536.Idx → EReal) = takeB (F := Ideal) (W4 m ρ c (Proc.devRef .tc main_v4)) (W4 m ρ c (Proc.devRef .tc main_arg6)) :=
    (selbf_eq (W5 m ρ c)).trans (sel_eq (W4 m ρ c))
  have e2 : (V6 m ρ c main_v7 : S1536x1024.Idx → EReal) = W4 m ρ c (Proc.devRef .tc main_arg4) :=
    (kbf_eq (W5 m ρ c)).trans (by keep_tac hostOps1_1)
  have e3 : (V6 m ρ c main_arg5 : S1024.Idx → EReal) = W4 m ρ c (Proc.devRef .tc main_arg5) :=
    (show StableHlo.after (hostOps1_2 (F := Ideal)) (W5 m ρ c) (Proc.devRef .tc main_arg5) = W5 m ρ c (Proc.devRef .tc main_arg5) from by keep_tac hostOps1_2).trans
      (show StableHlo.after (hostOps1_1 (F := Ideal)) (W4 m ρ c) (Proc.devRef .tc main_arg5) = W4 m ρ c (Proc.devRef .tc main_arg5) from by keep_tac hostOps1_1)
  show dense (M := 8192) (K := 1536) (N := 1024) (V6 m ρ c main_v6) (V6 m ρ c main_v7) (shapeCast S1x1024 (V6 m ρ c main_arg5) Gen.shapeCasts_S1024_S1x1024) = _
  rw [e1, e2, e3]
  rfl

/-- The concatenation the layer was entered with is still in its buffer when the layer's output is appended. -/
theorem acc_kept : W7 m ρ c (Proc.devRef .tc main_v4) = W4 m ρ c (Proc.devRef .tc main_v4) :=
  (W7_of_ne m ρ c main_v4 (by decide)).trans ((show StableHlo.after (hostOps1_2 (F := Ideal)) (W5 m ρ c) (Proc.devRef .tc main_v4) = W5 m ρ c (Proc.devRef .tc main_v4) from by keep_tac hostOps1_2).trans
    (show StableHlo.after (hostOps1_1 (F := Ideal)) (W4 m ρ c) (Proc.devRef .tc main_v4) = W4 m ρ c (Proc.devRef .tc main_v4) from by keep_tac hostOps1_1))

/-- The next concatenation: the one the layer was entered with, the layer's output appended. -/
theorem acc_eq : (W8 m ρ c (Proc.devRef .tc main_v9) : S8192x3072.Idx → EReal)
    = catB (F := Ideal) (W4 m ρ c (Proc.devRef .tc main_v4)) (layK (takeB (F := Ideal) (W4 m ρ c (Proc.devRef .tc main_v4)) (W4 m ρ c (Proc.devRef .tc main_arg6))) (W4 m ρ c (Proc.devRef .tc main_arg4)) (W4 m ρ c (Proc.devRef .tc main_arg5))) := by
  have h : (StableHlo.after (hostOps2 (F := Ideal)) (W7 m ρ c) (Proc.devRef .tc main_v9) : S8192x3072.Idx → EReal) = catB (F := Ideal) (W7 m ρ c (Proc.devRef .tc main_v4)) (W7 m ρ c (Proc.devRef .tc main_v8)) := by
    simp only [hostOps2]
    after_results_simp
    rfl
  refine h.trans ?_
  rw [acc_kept m ρ c, out_eq m ρ c]

end Cert.KernelIdeal.Layer1

end
-- ==== Proof.KRegion2.lean ====
/-
  What the third kernel launch leaves in its output array, as one function of the arrays it is entered with.

  The launch walks 8 grid points; point `t` stages rows `1024 t … 1024 t + 1023` of the selected columns (an
  `[8192, 1536]` array), the whole weight matrix and the whole bias vector, and writes back rows `1024 t … 1024 t + 1023`
  of the output. The body computes the dense layer of its staged blocks, and a block of rows of a dense layer is the
  dense layer of that block of rows, so every point writes back its block of ONE array: the dense layer of the whole
  operands. The eight blocks tile the output's rows, so the output ends holding exactly that array.
-/
import proofs.«171747_j77077483094889_1_alg».proof.Proof.Gen.KernelIdeal.Frame
import proofs.«171747_j77077483094889_1_alg».proof.Proof.Dense
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The array the output ends holding: the dense layer of the selected columns, the weights and the bias as a row. -/
def G (c : Dev nD) : S8192x1024.Idx → EReal :=
  dense (M := 8192) (K := 1536) (N := 1024) (V c main_v11) (V c main_v12) (shapeCast S1x1024 (V c main_arg8) shapeCasts_S1024_S1x1024)

/-- The body's stored value is the dense layer of its loaded blocks. -/
theorem pay_eq (x0 : Vec Ideal S1024x1536 .bf16) (x1 : Vec Ideal S1536x1024 .bf16) (x2 : Vec Ideal S1024 .f32) :
    k2_pay1 x0 x1 x2 = dense (M := 1024) (K := 1536) (N := 1024) x0 x1 (shapeCast S1x1024 x2 shapeCasts_S1024_S1x1024) := by
  unfold k2_pay1
  simp only [shapeCast_self]
  exact body_dense (R := 1024) (K := 1536) (N := 1024) (φ₁ := .bf16) (φ₂ := .bf16) dot_S1024x1536_S1536x1024_S1024x1024_1_0_0_1_n_n rfl x0 x1
    (shapeCast S1x1024 x2 shapeCasts_S1024_S1x1024) broadcasts_S1x1024_S1024x1024

/-- The printed index maps over the grid: the selected columns and the output move one block of rows per point, the
    weights and the bias stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Point `t`'s block of the selected columns is rows `1024 t + p` of the array. -/
theorem blk0 (c : Dev nD) (t : Fin cfg2.N) (p : Fin 1024) (k : Fin 1536) (h : 1024 * t.val + p.val < 8192) :
    iblk2 V c 0 t (ix2 p k) = V c main_v11 (ix2 (⟨1024 * t.val + p.val, h⟩ : Fin 8192) k) := by
  show V c main_v11 (((cfg2.win 0).blk t).view.emb (ix2 p k)) = _
  refine congrArg (V c main_v11) (funext fun a => Fin.ext ?_)
  obtain ⟨e0, e1, -⟩ := idx_facts t
  match a with
  | ⟨0, _⟩ => show win2_0.index t (0 : Fin 2) * 1024 + 1 * p.val = 1024 * t.val + p.val; omega
  | ⟨1, _⟩ => show win2_0.index t (1 : Fin 2) * 1536 + 1 * k.val = k.val; omega

/-- Every point's block of the weights is the whole matrix. -/
theorem blk1 (c : Dev nD) (t : Fin cfg2.N) : iblk2 V c 1 t = V c main_v12 := by
  funext y
  show V c main_v12 (((cfg2.win 1).blk t).view.emb y) = _
  refine congrArg (V c main_v12) (funext fun a => Fin.ext ?_)
  obtain ⟨-, -, e0, e1, -⟩ := idx_facts t
  match a with
  | ⟨0, _⟩ => show win2_1.index t (0 : Fin 2) * 1536 + 1 * (y 0).val = (y 0).val; omega
  | ⟨1, _⟩ => show win2_1.index t (1 : Fin 2) * 1024 + 1 * (y 1).val = (y 1).val; omega

/-- Every point's block of the bias is the whole vector. -/
theorem blk2 (c : Dev nD) (t : Fin cfg2.N) : iblk2 V c 2 t = V c main_arg8 := by
  funext y
  show V c main_arg8 (((cfg2.win 2).blk t).view.emb y) = _
  refine congrArg (V c main_arg8) (funext fun a => Fin.ext ?_)
  obtain ⟨-, -, -, -, e0, -⟩ := idx_facts t
  match a with
  | ⟨0, _⟩ => show win2_2.index t (0 : Fin 1) * 1024 + 1 * (y 0).val = (y 0).val; omega

/-- What point `t` writes back is block `t` of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz2]
  simp only [View.ld_unit_zero (S := S1024x1536) hz2, View.ld_unit_zero (S := S1536x1024) hz2, View.ld_unit_zero (S := S1024) hz1]
  rw [pay_eq]
  funext y
  obtain ⟨-, -, -, -, -, e0, e1⟩ := idx_facts t
  show dense (M := 1024) (K := 1536) (N := 1024) (iblk2 V c 0 t) (iblk2 V c 1 t) (shapeCast S1x1024 (iblk2 V c 2 t) shapeCasts_S1024_S1x1024) y
    = G V c (((cfg2.win 3).blk t).view.emb y)
  unfold G
  refine dense_block (M := 8192) (R := 1024) (K := 1536) (N := 1024) (1024 * t.val) (V c main_v11) (iblk2 V c 0 t)
    (V c main_v12) (iblk2 V c 1 t)
    (shapeCast S1x1024 (V c main_arg8) shapeCasts_S1024_S1x1024) (shapeCast S1x1024 (iblk2 V c 2 t) shapeCasts_S1024_S1x1024)
    (fun p k h => blk0 V c t p k h) (blk1 V c t) (congrArg (fun z => shapeCast S1x1024 z shapeCasts_S1024_S1x1024) (blk2 V c t))
    y (((cfg2.win 3).blk t).view.emb y) ?_ ?_
  · show win2_3.index t (0 : Fin 2) * 1024 + 1 * (y 0).val = 1024 * t.val + (y 0).val; omega
  · show win2_3.index t (1 : Fin 2) * 1024 + 1 * (y 1).val = (y 1).val; omega

/-- An index of the output is in point `t`'s block iff each coordinate is in the block's range on its axis. -/
theorem mem_blk (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v13).slice (win2_3.rect t)).set ↔ _
  rw [View.set_slice_whole, Rect.mem_set_unit]
  exact Iff.rfl

/-- Row `r` of the output is in the block of point `r / 1024`. -/
theorem cover (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 8 := N_2
  have hlt : (i 0).val / 1024 < cfg2.N := by rw [hN]; omega
  refine ⟨⟨(i 0).val / 1024, hlt⟩, flush2_3 _, ?_⟩
  rw [mem_blk]
  obtain ⟨-, -, -, -, -, e0, e1⟩ := idx_facts ⟨(i 0).val / 1024, hlt⟩
  have e0' : win2_3.index ⟨(i 0).val / 1024, hlt⟩ (0 : Fin 2) = (i 0).val / 1024 := e0
  intro a
  match a with
  | ⟨0, _⟩ => show win2_3.index ⟨(i 0).val / 1024, hlt⟩ (0 : Fin 2) * 1024 ≤ (i 0).val ∧ (i 0).val < win2_3.index ⟨(i 0).val / 1024, hlt⟩ (0 : Fin 2) * 1024 + 1024; omega
  | ⟨1, _⟩ => show win2_3.index ⟨(i 0).val / 1024, hlt⟩ (1 : Fin 2) * 1024 ≤ (i 1).val ∧ (i 1).val < win2_3.index ⟨(i 0).val / 1024, hlt⟩ (1 : Fin 2) * 1024 + 1024; omega

/-- The output array after the launch is the dense layer of the arrays the launch is entered with. -/
theorem out_eq (c : Dev nD) : (dat2 V c).arrAt 3 cfg2.N = G V c :=
  (dat2 V c).arrAt_eq_of_cover 3 (G V c) (fun t _ => flushed_eq V c t) (cover)

end Cert.KernelIdeal.Region2

end
-- ==== Proof.KLayer2.lean ====
/-
  The third layer of the kernel program, from the contents it is entered with to the contents it leaves.

  The layer's host lines gather 1536 columns of the running concatenation (`takeC`) and round the gathered columns
  and the weights to bf16 (no change on the extended reals); the launch leaves the dense layer of those operands in its
  output array (the launch's value, proved beside this module); a last host line appends the output to the concatenation.
  No line and no launch writes an argument array, and the buffers a later line reads are not written in between, so
  every operand is read back to the contents the layer was entered with.
-/
import proofs.«171747_j77077483094889_1_alg».proof.Proof.KRegion2
import proofs.«171747_j77077483094889_1_alg».proof.Proof.KArgs
import proofs.«171747_j77077483094889_1_alg».proof.Proof.Fns

set_option maxRecDepth 16384

noncomputable section

namespace Cert.KernelIdeal.Layer2

open Idealize.ShloMosaic Idealize.ShloMosaic.TcCoe Idealize.SL.Sem Idealize.ShloMosaic.StableHlo
open Cert.KernelIdeal Cert.KernelIdeal.Gen Cert.KernelIdeal.Fns Cert.KernelIdeal.Keep Cert.Dense

variable (m : (ℓ : Loc nD τ sig) → Buf (Elt Ideal) ℓ) (ρ : Dev nD → PrngReg) (c : Dev nD)

/-- The gather's lines leave the gathered columns. -/
theorem sel_eq (W : Valuation τ sig (Elt Ideal)) :
    (StableHlo.after (hostOps2_1 (F := Ideal)) W (Proc.devRef .tc main_v10) : S8192x1536.Idx → EReal) = takeC (F := Ideal) (W (Proc.devRef .tc main_v9)) (W (Proc.devRef .tc main_arg9)) := by
  simp only [hostOps2_1]
  after_results_simp
  rfl

/-- Rounding the gathered columns to bf16 changes nothing on the extended reals. -/
theorem selbf_eq (W : Valuation τ sig (Elt Ideal)) :
    (StableHlo.after (hostOps2_2 (F := Ideal)) W (Proc.devRef .tc main_v11) : S8192x1536.Idx → EReal) = W (Proc.devRef .tc main_v10) := by
  simp only [hostOps2_2]
  after_results_simp
  rfl

/-- Nor does rounding the weights. -/
theorem kbf_eq (W : Valuation τ sig (Elt Ideal)) :
    (StableHlo.after (hostOps2_2 (F := Ideal)) W (Proc.devRef .tc main_v12) : S1536x1024.Idx → EReal) = W (Proc.devRef .tc main_arg7) := by
  simp only [hostOps2_2]
  after_results_simp
  rfl

/-- The gather's lines write no argument. -/
theorem argsT (W : Valuation τ sig (Elt Ideal)) : Args W (StableHlo.after (hostOps2_1 (F := Ideal)) W) :=
  ⟨by keep_tac hostOps2_1, by keep_tac hostOps2_1, by keep_tac hostOps2_1, by keep_tac hostOps2_1, by keep_tac hostOps2_1, by keep_tac hostOps2_1, by keep_tac hostOps2_1, by keep_tac hostOps2_1, by keep_tac hostOps2_1, by keep_tac hostOps2_1, by keep_tac hostOps2_1, by keep_tac hostOps2_1, by keep_tac hostOps2_1⟩

/-- Nor do the rounding lines. -/
theorem argsU (W : Valuation τ sig (Elt Ideal)) : Args W (StableHlo.after (hostOps2_2 (F := Ideal)) W) :=
  ⟨by keep_tac hostOps2_2, by keep_tac hostOps2_2, by keep_tac hostOps2_2, by keep_tac hostOps2_2, by keep_tac hostOps2_2, by keep_tac hostOps2_2, by keep_tac hostOps2_2, by keep_tac hostOps2_2, by keep_tac hostOps2_2, by keep_tac hostOps2_2, by keep_tac hostOps2_2, by keep_tac hostOps2_2, by keep_tac hostOps2_2⟩

/-- The launch writes its output array only; the bias it stages is read, not written. -/
theorem argsR : Args (W10 m ρ c) (W11 m ρ c) :=
  ⟨W11_of_ne m ρ c main_arg0 (by decide),
   W11_of_ne m ρ c main_arg1 (by decide),
   W11_of_ne m ρ c main_arg2 (by decide),
   W11_of_ne m ρ c main_arg3 (by decide),
   W11_of_ne m ρ c main_arg4 (by decide),
   W11_of_ne m ρ c main_arg5 (by decide),
   W11_of_ne m ρ c main_arg6 (by decide),
   W11_of_ne m ρ c main_arg7 (by decide),
   (W11_arr m ρ c 2).trans (((dat2 (V10 m ρ) c).arrAt_in 2 rfl _).trans (A_eq2 (V10 m ρ) c 2)),
   W11_of_ne m ρ c main_arg9 (by decide),
   W11_of_ne m ρ c main_arg10 (by decide),
   W11_of_ne m ρ c main_arg11 (by decide),
   W11_of_ne m ρ c main_arg12 (by decide)⟩

/-- The line after the launch writes no argument. -/
theorem argsC (W : Valuation τ sig (Elt Ideal)) : Args W (StableHlo.after (hostOps3 (F := Ideal)) W) :=
  ⟨by keep_tac hostOps3, by keep_tac hostOps3, by keep_tac hostOps3, by keep_tac hostOps3, by keep_tac hostOps3, by keep_tac hostOps3, by keep_tac hostOps3, by keep_tac hostOps3, by keep_tac hostOps3, by keep_tac hostOps3, by keep_tac hostOps3, by keep_tac hostOps3, by keep_tac hostOps3⟩

/-- The arguments are, after the layer, what they were before it. -/
theorem args : Args (W8 m ρ c) (W12 m ρ c) :=
  (((argsT (W8 m ρ c)).trans (argsU (W9 m ρ c))).trans (argsR m ρ c)).trans (argsC (W11 m ρ c))

/-- The launch's output array: the dense layer of the gathered columns of the concatenation the layer was entered
    with, the weights and the bias. -/
theorem out_eq : (W11 m ρ c (Proc.devRef .tc main_v13) : S8192x1024.Idx → EReal)
    = layK (takeC (F := Ideal) (W8 m ρ c (Proc.devRef .tc main_v9)) (W8 m ρ c (Proc.devRef .tc main_arg9))) (W8 m ρ c (Proc.devRef .tc main_arg7)) (W8 m ρ c (Proc.devRef .tc main_arg8)) := by
  have h3 : W11 m ρ c (Proc.devRef .tc main_v13) = (dat2 (V10 m ρ) c).arrAt 3 cfg2.N := W11_arr m ρ c 3
  rw [h3, Region2.out_eq (V10 m ρ) c]
  have e1 : (V10 m ρ c main_v11 : S8192x1536.Idx → EReal) = takeC (F := Ideal) (W8 m ρ c (Proc.devRef .tc main_v9)) (W8 m ρ c (Proc.devRef .tc main_arg9)) :=
    (selbf_eq (W9 m ρ c)).trans (sel_eq (W8 m ρ c))
  have e2 : (V10 m ρ c main_v12 : S1536x1024.Idx → EReal) = W8 m ρ c (Proc.devRef .tc main_arg7) :=
    (kbf_eq (W9 m ρ c)).trans (by keep_tac hostOps2_1)
  have e3 : (V10 m ρ c main_arg8 : S1024.Idx → EReal) = W8 m ρ c (Proc.devRef .tc main_arg8) :=
    (show StableHlo.after (hostOps2_2 (F := Ideal)) (W9 m ρ c) (Proc.devRef .tc main_arg8) = W9 m ρ c (Proc.devRef .tc main_arg8) from by keep_tac hostOps2_2).trans
      (show StableHlo.after (hostOps2_1 (F := Ideal)) (W8 m ρ c) (Proc.devRef .tc main_arg8) = W8 m ρ c (Proc.devRef .tc main_arg8) from by keep_tac hostOps2_1)
  show dense (M := 8192) (K := 1536) (N := 1024) (V10 m ρ c main_v11) (V10 m ρ c main_v12) (shapeCast S1x1024 (V10 m ρ c main_arg8) Gen.shapeCasts_S1024_S1x1024) = _
  rw [e1, e2, e3]
  rfl

/-- The concatenation the layer was entered with is still in its buffer when the layer's output is appended. -/
theorem acc_kept : W11 m ρ c (Proc.devRef .tc main_v9) = W8 m ρ c (Proc.devRef .tc main_v9) :=
  (W11_of_ne m ρ c main_v9 (by decide)).trans ((show StableHlo.after (hostOps2_2 (F := Ideal)) (W9 m ρ c) (Proc.devRef .tc main_v9) = W9 m ρ c (Proc.devRef .tc main_v9) from by keep_tac hostOps2_2).trans
    (show StableHlo.after (hostOps2_1 (F := Ideal)) (W8 m ρ c) (Proc.devRef .tc main_v9) = W8 m ρ c (Proc.devRef .tc main_v9) from by keep_tac hostOps2_1))

/-- The next concatenation: the one the layer was entered with, the layer's output appended. -/
theorem acc_eq : (W12 m ρ c (Proc.devRef .tc main_v14) : S8192x4096.Idx → EReal)
    = catC (F := Ideal) (W8 m ρ c (Proc.devRef .tc main_v9)) (layK (takeC (F := Ideal) (W8 m ρ c (Proc.devRef .tc main_v9)) (W8 m ρ c (Proc.devRef .tc main_arg9))) (W8 m ρ c (Proc.devRef .tc main_arg7)) (W8 m ρ c (Proc.devRef .tc main_arg8))) := by
  have h : (StableHlo.after (hostOps3 (F := Ideal)) (W11 m ρ c) (Proc.devRef .tc main_v14) : S8192x4096.Idx → EReal) = catC (F := Ideal) (W11 m ρ c (Proc.devRef .tc main_v9)) (W11 m ρ c (Proc.devRef .tc main_v13)) := by
    simp only [hostOps3]
    after_results_simp
    rfl
  refine h.trans ?_
  rw [acc_kept m ρ c, out_eq m ρ c]

end Cert.KernelIdeal.Layer2

end
-- ==== Proof.KRegion3.lean ====
/-
  What the fourth kernel launch leaves in its output array, as one function of the arrays it is entered with.

  The launch walks 8 grid points; point `t` stages rows `1024 t … 1024 t + 1023` of the selected columns (an
  `[8192, 1536]` array), the whole weight matrix and the whole bias vector, and writes back rows `1024 t … 1024 t + 1023`
  of the output. The body computes the dense layer of its staged blocks, and a block of rows of a dense layer is the
  dense layer of that block of rows, so every point writes back its block of ONE array: the dense layer of the whole
  operands. The eight blocks tile the output's rows, so the output ends holding exactly that array.
-/
import proofs.«171747_j77077483094889_1_alg».proof.Proof.Gen.KernelIdeal.Frame
import proofs.«171747_j77077483094889_1_alg».proof.Proof.Dense
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The array the output ends holding: the dense layer of the selected columns, the weights and the bias as a row. -/
def G (c : Dev nD) : S8192x1024.Idx → EReal :=
  dense (M := 8192) (K := 1536) (N := 1024) (V c main_v16) (V c main_v17) (shapeCast S1x1024 (V c main_arg11) shapeCasts_S1024_S1x1024)

/-- The body's stored value is the dense layer of its loaded blocks. -/
theorem pay_eq (x0 : Vec Ideal S1024x1536 .bf16) (x1 : Vec Ideal S1536x1024 .bf16) (x2 : Vec Ideal S1024 .f32) :
    k3_pay1 x0 x1 x2 = dense (M := 1024) (K := 1536) (N := 1024) x0 x1 (shapeCast S1x1024 x2 shapeCasts_S1024_S1x1024) := by
  unfold k3_pay1
  simp only [shapeCast_self]
  exact body_dense (R := 1024) (K := 1536) (N := 1024) (φ₁ := .bf16) (φ₂ := .bf16) dot_S1024x1536_S1536x1024_S1024x1024_1_0_0_1_n_n rfl x0 x1
    (shapeCast S1x1024 x2 shapeCasts_S1024_S1x1024) broadcasts_S1x1024_S1024x1024

/-- The printed index maps over the grid: the selected columns and the output move one block of rows per point, the
    weights and the bias stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Point `t`'s block of the selected columns is rows `1024 t + p` of the array. -/
theorem blk0 (c : Dev nD) (t : Fin cfg3.N) (p : Fin 1024) (k : Fin 1536) (h : 1024 * t.val + p.val < 8192) :
    iblk3 V c 0 t (ix2 p k) = V c main_v16 (ix2 (⟨1024 * t.val + p.val, h⟩ : Fin 8192) k) := by
  show V c main_v16 (((cfg3.win 0).blk t).view.emb (ix2 p k)) = _
  refine congrArg (V c main_v16) (funext fun a => Fin.ext ?_)
  obtain ⟨e0, e1, -⟩ := idx_facts t
  match a with
  | ⟨0, _⟩ => show win3_0.index t (0 : Fin 2) * 1024 + 1 * p.val = 1024 * t.val + p.val; omega
  | ⟨1, _⟩ => show win3_0.index t (1 : Fin 2) * 1536 + 1 * k.val = k.val; omega

/-- Every point's block of the weights is the whole matrix. -/
theorem blk1 (c : Dev nD) (t : Fin cfg3.N) : iblk3 V c 1 t = V c main_v17 := by
  funext y
  show V c main_v17 (((cfg3.win 1).blk t).view.emb y) = _
  refine congrArg (V c main_v17) (funext fun a => Fin.ext ?_)
  obtain ⟨-, -, e0, e1, -⟩ := idx_facts t
  match a with
  | ⟨0, _⟩ => show win3_1.index t (0 : Fin 2) * 1536 + 1 * (y 0).val = (y 0).val; omega
  | ⟨1, _⟩ => show win3_1.index t (1 : Fin 2) * 1024 + 1 * (y 1).val = (y 1).val; omega

/-- Every point's block of the bias is the whole vector. -/
theorem blk2 (c : Dev nD) (t : Fin cfg3.N) : iblk3 V c 2 t = V c main_arg11 := by
  funext y
  show V c main_arg11 (((cfg3.win 2).blk t).view.emb y) = _
  refine congrArg (V c main_arg11) (funext fun a => Fin.ext ?_)
  obtain ⟨-, -, -, -, e0, -⟩ := idx_facts t
  match a with
  | ⟨0, _⟩ => show win3_2.index t (0 : Fin 1) * 1024 + 1 * (y 0).val = (y 0).val; omega

/-- What point `t` writes back is block `t` of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz2]
  simp only [View.ld_unit_zero (S := S1024x1536) hz2, View.ld_unit_zero (S := S1536x1024) hz2, View.ld_unit_zero (S := S1024) hz1]
  rw [pay_eq]
  funext y
  obtain ⟨-, -, -, -, -, e0, e1⟩ := idx_facts t
  show dense (M := 1024) (K := 1536) (N := 1024) (iblk3 V c 0 t) (iblk3 V c 1 t) (shapeCast S1x1024 (iblk3 V c 2 t) shapeCasts_S1024_S1x1024) y
    = G V c (((cfg3.win 3).blk t).view.emb y)
  unfold G
  refine dense_block (M := 8192) (R := 1024) (K := 1536) (N := 1024) (1024 * t.val) (V c main_v16) (iblk3 V c 0 t)
    (V c main_v17) (iblk3 V c 1 t)
    (shapeCast S1x1024 (V c main_arg11) shapeCasts_S1024_S1x1024) (shapeCast S1x1024 (iblk3 V c 2 t) shapeCasts_S1024_S1x1024)
    (fun p k h => blk0 V c t p k h) (blk1 V c t) (congrArg (fun z => shapeCast S1x1024 z shapeCasts_S1024_S1x1024) (blk2 V c t))
    y (((cfg3.win 3).blk t).view.emb y) ?_ ?_
  · show win3_3.index t (0 : Fin 2) * 1024 + 1 * (y 0).val = 1024 * t.val + (y 0).val; omega
  · show win3_3.index t (1 : Fin 2) * 1024 + 1 * (y 1).val = (y 1).val; omega

/-- An index of the output is in point `t`'s block iff each coordinate is in the block's range on its axis. -/
theorem mem_blk (t : Fin cfg3.N) (i : S8192x1024.Idx) :
    i ∈ ((cfg3.win 3).blk t).view.set ↔ ∀ a : Fin 2, win3_3.index t a * S1024x1024.size a ≤ (i a).val ∧ (i a).val < win3_3.index t a * S1024x1024.size a + S1024x1024.size a := by
  show i ∈ ((View.whole main_v18).slice (win3_3.rect t)).set ↔ _
  rw [View.set_slice_whole, Rect.mem_set_unit]
  exact Iff.rfl

/-- Row `r` of the output is in the block of point `r / 1024`. -/
theorem cover (i : S8192x1024.Idx) : ∃ t : Fin cfg3.N, (cfg3.win 3).flush t = true ∧ i ∈ ((cfg3.win 3).blk t).view.set := by
  have hi0 : (i 0).val < 8192 := (i 0).isLt
  have hi1 : (i 1).val < 1024 := (i 1).isLt
  have hN : cfg3.N = 8 := N_3
  have hlt : (i 0).val / 1024 < cfg3.N := by rw [hN]; omega
  refine ⟨⟨(i 0).val / 1024, hlt⟩, flush3_3 _, ?_⟩
  rw [mem_blk]
  obtain ⟨-, -, -, -, -, e0, e1⟩ := idx_facts ⟨(i 0).val / 1024, hlt⟩
  have e0' : win3_3.index ⟨(i 0).val / 1024, hlt⟩ (0 : Fin 2) = (i 0).val / 1024 := e0
  intro a
  match a with
  | ⟨0, _⟩ => show win3_3.index ⟨(i 0).val / 1024, hlt⟩ (0 : Fin 2) * 1024 ≤ (i 0).val ∧ (i 0).val < win3_3.index ⟨(i 0).val / 1024, hlt⟩ (0 : Fin 2) * 1024 + 1024; omega
  | ⟨1, _⟩ => show win3_3.index ⟨(i 0).val / 1024, hlt⟩ (1 : Fin 2) * 1024 ≤ (i 1).val ∧ (i 1).val < win3_3.index ⟨(i 0).val / 1024, hlt⟩ (1 : Fin 2) * 1024 + 1024; omega

/-- The output array after the launch is the dense layer of the arrays the launch is entered with. -/
theorem out_eq (c : Dev nD) : (dat3 V c).arrAt 3 cfg3.N = G V c :=
  (dat3 V c).arrAt_eq_of_cover 3 (G V c) (fun t _ => flushed_eq V c t) (cover)

end Cert.KernelIdeal.Region3

end
-- ==== Proof.KLayer3.lean ====
/-
  The fourth layer of the kernel program, from the contents it is entered with to the contents it leaves.

  The layer's host lines gather 1536 columns of the running concatenation (`takeD`) and round the gathered columns
  and the weights to bf16 (no change on the extended reals); the launch leaves the dense layer of those operands in its
  output array (the launch's value, proved beside this module).
  No line and no launch writes an argument array, and the buffers a later line reads are not written in between, so
  every operand is read back to the contents the layer was entered with.
-/
import proofs.«171747_j77077483094889_1_alg».proof.Proof.KRegion3
import proofs.«171747_j77077483094889_1_alg».proof.Proof.KArgs
import proofs.«171747_j77077483094889_1_alg».proof.Proof.Fns

set_option maxRecDepth 16384

noncomputable section

namespace Cert.KernelIdeal.Layer3

open Idealize.ShloMosaic Idealize.ShloMosaic.TcCoe Idealize.SL.Sem Idealize.ShloMosaic.StableHlo
open Cert.KernelIdeal Cert.KernelIdeal.Gen Cert.KernelIdeal.Fns Cert.KernelIdeal.Keep Cert.Dense

variable (m : (ℓ : Loc nD τ sig) → Buf (Elt Ideal) ℓ) (ρ : Dev nD → PrngReg) (c : Dev nD)

/-- The gather's lines leave the gathered columns. -/
theorem sel_eq (W : Valuation τ sig (Elt Ideal)) :
    (StableHlo.after (hostOps3_1 (F := Ideal)) W (Proc.devRef .tc main_v15) : S8192x1536.Idx → EReal) = takeD (F := Ideal) (W (Proc.devRef .tc main_v14)) (W (Proc.devRef .tc main_arg12)) := by
  simp only [hostOps3_1]
  after_results_simp
  rfl

/-- Rounding the gathered columns to bf16 changes nothing on the extended reals. -/
theorem selbf_eq (W : Valuation τ sig (Elt Ideal)) :
    (StableHlo.after (hostOps3_2 (F := Ideal)) W (Proc.devRef .tc main_v16) : S8192x1536.Idx → EReal) = W (Proc.devRef .tc main_v15) := by
  simp only [hostOps3_2]
  after_results_simp
  rfl

/-- Nor does rounding the weights. -/
theorem kbf_eq (W : Valuation τ sig (Elt Ideal)) :
    (StableHlo.after (hostOps3_2 (F := Ideal)) W (Proc.devRef .tc main_v17) : S1536x1024.Idx → EReal) = W (Proc.devRef .tc main_arg10) := by
  simp only [hostOps3_2]
  after_results_simp
  rfl

/-- The gather's lines write no argument. -/
theorem argsT (W : Valuation τ sig (Elt Ideal)) : Args W (StableHlo.after (hostOps3_1 (F := Ideal)) W) :=
  ⟨by keep_tac hostOps3_1, by keep_tac hostOps3_1, by keep_tac hostOps3_1, by keep_tac hostOps3_1, by keep_tac hostOps3_1, by keep_tac hostOps3_1, by keep_tac hostOps3_1, by keep_tac hostOps3_1, by keep_tac hostOps3_1, by keep_tac hostOps3_1, by keep_tac hostOps3_1, by keep_tac hostOps3_1, by keep_tac hostOps3_1⟩

/-- Nor do the rounding lines. -/
theorem argsU (W : Valuation τ sig (Elt Ideal)) : Args W (StableHlo.after (hostOps3_2 (F := Ideal)) W) :=
  ⟨by keep_tac hostOps3_2, by keep_tac hostOps3_2, by keep_tac hostOps3_2, by keep_tac hostOps3_2, by keep_tac hostOps3_2, by keep_tac hostOps3_2, by keep_tac hostOps3_2, by keep_tac hostOps3_2, by keep_tac hostOps3_2, by keep_tac hostOps3_2, by keep_tac hostOps3_2, by keep_tac hostOps3_2, by keep_tac hostOps3_2⟩

/-- The launch writes its output array only; the bias it stages is read, not written. -/
theorem argsR : Args (W14 m ρ c) (W15 m ρ c) :=
  ⟨W15_of_ne m ρ c main_arg0 (by decide),
   W15_of_ne m ρ c main_arg1 (by decide),
   W15_of_ne m ρ c main_arg2 (by decide),
   W15_of_ne m ρ c main_arg3 (by decide),
   W15_of_ne m ρ c main_arg4 (by decide),
   W15_of_ne m ρ c main_arg5 (by decide),
   W15_of_ne m ρ c main_arg6 (by decide),
   W15_of_ne m ρ c main_arg7 (by decide),
   W15_of_ne m ρ c main_arg8 (by decide),
   W15_of_ne m ρ c main_arg9 (by decide),
   W15_of_ne m ρ c main_arg10 (by decide),
   (W15_arr m ρ c 2).trans (((dat3 (V14 m ρ) c).arrAt_in 2 rfl _).trans (A_eq3 (V14 m ρ) c 2)),
   W15_of_ne m ρ c main_arg12 (by decide)⟩

/-- The line after the launch writes no argument. -/
theorem argsC (W : Valuation τ sig (Elt Ideal)) : Args W (StableHlo.after (hostOps4 (F := Ideal)) W) :=
  ⟨by keep_tac hostOps4, by keep_tac hostOps4, by keep_tac hostOps4, by keep_tac hostOps4, by keep_tac hostOps4, by keep_tac hostOps4, by keep_tac hostOps4, by keep_tac hostOps4, by keep_tac hostOps4, by keep_tac hostOps4, by keep_tac hostOps4, by keep_tac hostOps4, by keep_tac hostOps4⟩

/-- The arguments are, after the layer, what they were before it. -/
theorem args : Args (W12 m ρ c) (W16 m ρ c) :=
  (((argsT (W12 m ρ c)).trans (argsU (W13 m ρ c))).trans (argsR m ρ c)).trans (argsC (W15 m ρ c))

/-- The launch's output array: the dense layer of the gathered columns of the concatenation the layer was entered
    with, the weights and the bias. -/
theorem out_eq : (W15 m ρ c (Proc.devRef .tc main_v18) : S8192x1024.Idx → EReal)
    = layK (takeD (F := Ideal) (W12 m ρ c (Proc.devRef .tc main_v14)) (W12 m ρ c (Proc.devRef .tc main_arg12))) (W12 m ρ c (Proc.devRef .tc main_arg10)) (W12 m ρ c (Proc.devRef .tc main_arg11)) := by
  have h3 : W15 m ρ c (Proc.devRef .tc main_v18) = (dat3 (V14 m ρ) c).arrAt 3 cfg3.N := W15_arr m ρ c 3
  rw [h3, Region3.out_eq (V14 m ρ) c]
  have e1 : (V14 m ρ c main_v16 : S8192x1536.Idx → EReal) = takeD (F := Ideal) (W12 m ρ c (Proc.devRef .tc main_v14)) (W12 m ρ c (Proc.devRef .tc main_arg12)) :=
    (selbf_eq (W13 m ρ c)).trans (sel_eq (W12 m ρ c))
  have e2 : (V14 m ρ c main_v17 : S1536x1024.Idx → EReal) = W12 m ρ c (Proc.devRef .tc main_arg10) :=
    (kbf_eq (W13 m ρ c)).trans (by keep_tac hostOps3_1)
  have e3 : (V14 m ρ c main_arg11 : S1024.Idx → EReal) = W12 m ρ c (Proc.devRef .tc main_arg11) :=
    (show StableHlo.after (hostOps3_2 (F := Ideal)) (W13 m ρ c) (Proc.devRef .tc main_arg11) = W13 m ρ c (Proc.devRef .tc main_arg11) from by keep_tac hostOps3_2).trans
      (show StableHlo.after (hostOps3_1 (F := Ideal)) (W12 m ρ c) (Proc.devRef .tc main_arg11) = W12 m ρ c (Proc.devRef .tc main_arg11) from by keep_tac hostOps3_1)
  show dense (M := 8192) (K := 1536) (N := 1024) (V14 m ρ c main_v16) (V14 m ρ c main_v17) (shapeCast S1x1024 (V14 m ρ c main_arg11) Gen.shapeCasts_S1024_S1x1024) = _
  rw [e1, e2, e3]
  rfl

/-- The last line leaves the launch's output where it is. -/
theorem out_kept : W16 m ρ c (Proc.devRef .tc main_v18) = W15 m ρ c (Proc.devRef .tc main_v18) := by keep_tac hostOps4

end Cert.KernelIdeal.Layer3

end
-- ==== Proof.KValue.lean ====
/-
  The kernel program's value: the four layers composed.

  Each layer's output is the dense layer of the columns gathered from the concatenation it was entered with; each next
  concatenation is the previous one with that output appended; the arguments are never written. Reading the result
  buffer back through the four layers therefore gives the network `net` over the dense layer `layK`, applied to the
  launch contents of the thirteen arguments.
-/
import proofs.«171747_j77077483094889_1_alg».proof.Proof.KLayer0
import proofs.«171747_j77077483094889_1_alg».proof.Proof.KLayer1
import proofs.«171747_j77077483094889_1_alg».proof.Proof.KLayer2
import proofs.«171747_j77077483094889_1_alg».proof.Proof.KLayer3

set_option maxRecDepth 16384

noncomputable section

namespace Cert.KernelIdeal.Value

open Idealize.ShloMosaic Idealize.ShloMosaic.TcCoe Idealize.SL.Sem
open Cert.KernelIdeal Cert.KernelIdeal.Gen Cert.KernelIdeal.Fns Cert.KernelIdeal.Keep

variable (m : (ℓ : Loc nD τ sig) → Buf (Elt Ideal) ℓ) (ρ : Dev nD → PrngReg) (c : Dev nD)

/-- The concatenation after the first layer. -/
def acc1 : FVec Ideal S8192x2048 .f32 :=
  catA (F := Ideal) (m ((c.tc : Thread nD τ).loc main_arg0)) (layK (takeA (F := Ideal) (m ((c.tc : Thread nD τ).loc main_arg0)) (m ((c.tc : Thread nD τ).loc main_arg3))) (m ((c.tc : Thread nD τ).loc main_arg1)) (m ((c.tc : Thread nD τ).loc main_arg2)))
/-- After the second. -/
def acc2 : FVec Ideal S8192x3072 .f32 :=
  catB (F := Ideal) (acc1 m c) (layK (takeB (F := Ideal) (acc1 m c) (m ((c.tc : Thread nD τ).loc main_arg6))) (m ((c.tc : Thread nD τ).loc main_arg4)) (m ((c.tc : Thread nD τ).loc main_arg5)))
/-- After the third. -/
def acc3 : FVec Ideal S8192x4096 .f32 :=
  catC (F := Ideal) (acc2 m c) (layK (takeC (F := Ideal) (acc2 m c) (m ((c.tc : Thread nD τ).loc main_arg9))) (m ((c.tc : Thread nD τ).loc main_arg7)) (m ((c.tc : Thread nD τ).loc main_arg8)))

theorem acc1_eq : (W4 m ρ c (Proc.devRef .tc main_v4) : S8192x2048.Idx → EReal) = acc1 m c := Layer0.acc_eq m ρ c

theorem acc2_eq : (W8 m ρ c (Proc.devRef .tc main_v9) : S8192x3072.Idx → EReal) = acc2 m c := by
  obtain ⟨-, -, -, -, p4, p5, p6, -, -, -, -, -, -⟩ := Layer0.args m ρ c
  have h := Layer1.acc_eq m ρ c
  rw [acc1_eq m ρ c, p4, p5, p6] at h
  exact h

theorem acc3_eq : (W12 m ρ c (Proc.devRef .tc main_v14) : S8192x4096.Idx → EReal) = acc3 m c := by
  obtain ⟨-, -, -, -, -, -, -, q7, q8, q9, -, -, -⟩ := (Layer0.args m ρ c).trans (Layer1.args m ρ c)
  have h := Layer2.acc_eq m ρ c
  rw [acc2_eq m ρ c, q7, q8, q9] at h
  exact h

/-- The network over the dense layer is the last layer applied to the third concatenation. -/
theorem net_eq : net (F := Ideal) layK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
    = layK (takeD (F := Ideal) (acc3 m c) (m ((c.tc : Thread nD τ).loc main_arg12))) (m ((c.tc : Thread nD τ).loc main_arg10)) (m ((c.tc : Thread nD τ).loc main_arg11)) := by
  simp only [net, acc3, acc2, acc1]

/-- The result buffer holds the last layer's output. -/
theorem last_eq : (W16 m ρ c (Proc.devRef .tc main_v18) : S8192x1024.Idx → EReal)
    = layK (takeD (F := Ideal) (acc3 m c) (m ((c.tc : Thread nD τ).loc main_arg12))) (m ((c.tc : Thread nD τ).loc main_arg10)) (m ((c.tc : Thread nD τ).loc main_arg11)) := by
  obtain ⟨-, -, -, -, -, -, -, -, -, -, r10, r11, r12⟩ := ((Layer0.args m ρ c).trans (Layer1.args m ρ c)).trans (Layer2.args m ρ c)
  have h := Layer3.out_eq m ρ c
  rw [acc3_eq m ρ c, r10, r11, r12] at h
  exact (Layer3.out_kept m ρ c).trans h

/-- What the result buffer holds at the end of the run. -/
theorem value : (W16 m ρ c (Proc.devRef .tc main_v18) : S8192x1024.Idx → EReal)
    = net (F := Ideal) layK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (last_eq m ρ c).trans (net_eq m c).symm

end Cert.KernelIdeal.Value

end
-- ==== Proof.RRun.lean ====
/-
  The reference program's @main as a list of its host lines, and its run.

  @main calls a gather function once per layer; a call executes the callee's lines on the call's own buffers, so with
  the calls opened @main is one straight line of 116 host lines: per layer the 23 lines of the gather (`opsT0 … opsT3`)
  and then the product, the bias broadcast twice, the sum, the hyperbolic tangent and the append (`opsM0 … opsM3`).
  Every weakly fair execution of a straight line terminates with each buffer at the fold of the lines' results over the
  launch contents.
-/
import proofs.«171747_j77077483094889_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The gather of layer 0, line by line. -/
abbrev opsT0 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1536, .i32⟩) (broadcastInDim S1536 ![] bcast_S_S1536),
    StableHlo.TRef.binary (.of main_arg3 : StableHlo.TRef sig ⟨S1536, .i32⟩) (.of main_call0_v0 : StableHlo.TRef sig ⟨S1536, .i32⟩) (.of main_call0_v1 : StableHlo.TRef sig ⟨S1536, .i1⟩) (cmpi .slt),
    StableHlo.TRef.nullary (.of main_call0_c_0 : StableHlo.TRef sig ⟨S_, .i32⟩) (constantI S_ 32 1024#32),
    StableHlo.TRef.unary (.of main_call0_c_0 : StableHlo.TRef sig ⟨S_, .i32⟩) (.of main_call0_v2 : StableHlo.TRef sig ⟨S1536, .i32⟩) (broadcastInDim S1536 ![] bcast_S_S1536),
    StableHlo.TRef.binary (.of main_arg3 : StableHlo.TRef sig ⟨S1536, .i32⟩) (.of main_call0_v2 : StableHlo.TRef sig ⟨S1536, .i32⟩) (.of main_call0_v3 : StableHlo.TRef sig ⟨S1536, .i32⟩) addi,
    StableHlo.TRef.ternary (.of main_call0_v1 : StableHlo.TRef sig ⟨S1536, .i1⟩) (.of main_call0_v3 : StableHlo.TRef sig ⟨S1536, .i32⟩) (.of main_arg3 : StableHlo.TRef sig ⟨S1536, .i32⟩) (.of main_call0_v4 : StableHlo.TRef sig ⟨S1536, .i32⟩) select,
    StableHlo.TRef.unary main_call0_call0.v0 (.of main_call0_v5 : StableHlo.TRef sig ⟨S1536x1, .i32⟩) (broadcastInDim S1536x1 ![0] bcast_S1536_S1536x1_0),
    StableHlo.TRef.nullary (.of main_call0_c_1 : StableHlo.TRef sig ⟨S1, .i32⟩) (constantI S1 32 1023#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1536x1, .i32⟩) (broadcastInDim S1536x1 ![] bcast_S_S1536x1),
    StableHlo.TRef.binary (.of main_call0_v5 : StableHlo.TRef sig ⟨S1536x1, .i32⟩) (.of main_call0_v6 : StableHlo.TRef sig ⟨S1536x1, .i32⟩) (.of main_call0_v7 : StableHlo.TRef sig ⟨S1536x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1536x1, .i32⟩) (broadcastInDim S1536x1 ![0, 1] bcast_S1x1_S1536x1_0_1),
    StableHlo.TRef.binary (.of main_call0_v5 : StableHlo.TRef sig ⟨S1536x1, .i32⟩) (.of main_call0_v9 : StableHlo.TRef sig ⟨S1536x1, .i32⟩) (.of main_call0_v10 : StableHlo.TRef sig ⟨S1536x1, .i1⟩) (cmpi .sle),
    StableHlo.TRef.binary (.of main_call0_v7 : StableHlo.TRef sig ⟨S1536x1, .i1⟩) (.of main_call0_v10 : StableHlo.TRef sig ⟨S1536x1, .i1⟩) (.of main_call0_v11 : StableHlo.TRef sig ⟨S1536x1, .i1⟩) andi,
    StableHlo.TRef.nullary (.of main_call0_c_3 : StableHlo.TRef sig ⟨S_, .i1⟩) (constantI S_ 1 1#1),
    StableHlo.TRef.binary (.of main_call0_v11 : StableHlo.TRef sig ⟨S1536x1, .i1⟩) (.of main_call0_c_3 : StableHlo.TRef sig ⟨S_, .i1⟩) (.of main_call0_v12 : StableHlo.TRef sig ⟨S1536, .i1⟩) (fun x v => Host.reduce IntOp.andi x v reducesTo_S1536x1_S1536_d1 h_S_),
    StableHlo.TRef.binary (.of main_arg0 : StableHlo.TRef sig ⟨S8192x1024, .f32⟩) (.of main_call0_v5 : StableHlo.TRef sig ⟨S1536x1, .i32⟩) (.of main_call0_v13 : StableHlo.TRef sig ⟨S8192x1536, .f32⟩) (fun x i => Host.gather gather_S8192x1024_S1536x1_S8192x1536_0_1_n_n_1_1_81921 x i),
    StableHlo.TRef.unary (.of main_call0_v12 : StableHlo.TRef sig ⟨S1536, .i1⟩) (.of main_call0_v14 : StableHlo.TRef sig ⟨S8192x1536, .i1⟩) (broadcastInDim S8192x1536 ![1] bcast_S1536_S8192x1536_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S8192x1536, .f32⟩) (broadcastInDim S8192x1536 ![] bcast_S_S8192x1536),
    StableHlo.TRef.ternary (.of main_call0_v14 : StableHlo.TRef sig ⟨S8192x1536, .i1⟩) (.of main_call0_v13 : StableHlo.TRef sig ⟨S8192x1536, .f32⟩) (.of main_call0_v15 : StableHlo.TRef sig ⟨S8192x1536, .f32⟩) (.of main_v0 : StableHlo.TRef sig ⟨S8192x1536, .f32⟩) select ]

/-- The layer of layer 0, line by line. -/
abbrev opsM0 : List (HloOp τ sig (Elt F)) :=
  [ StableHlo.binary main_v0 main_arg1 main_v1 ((fun l r => Host.dotGeneral dot_S8192x1536_S1536x1024_S8192x1024_1_0_0_1_n_n none l r) : (⟨S8192x1536, .f32⟩ : BufTy).Contents (Elt F) → (⟨S1536x1024, .f32⟩ : BufTy).Contents (Elt F) → (⟨S8192x1024, .f32⟩ : BufTy).Contents (Elt F)),
    StableHlo.unary main_arg2 main_v2 (broadcastInDim S1x1024 ![1] bcast_S1024_S1x1024_1 : (⟨S1024, .f32⟩ : BufTy).Contents (Elt F) → (⟨S1x1024, .f32⟩ : BufTy).Contents (Elt F)),
    StableHlo.unary main_v2 main_v3 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v1 main_v3 main_v4 (addf : (⟨S8192x1024, .f32⟩ : BufTy).Contents (Elt F) → (⟨S8192x1024, .f32⟩ : BufTy).Contents (Elt F) → (⟨S8192x1024, .f32⟩ : BufTy).Contents (Elt F)),
    StableHlo.unary main_v4 main_v5 (Host.tanh : (⟨S8192x1024, .f32⟩ : BufTy).Contents (Elt F) → (⟨S8192x1024, .f32⟩ : BufTy).Contents (Elt F)),
    StableHlo.binary main_arg0 main_v5 main_v6 ((fun a b => concatenate S8192x2048 1 [⟨S8192x1024, a⟩, ⟨S8192x1024, b⟩] concatenates_S8192x1024_S8192x1024_S8192x2048_d1) : (⟨S8192x1024, .f32⟩ : BufTy).Contents (Elt F) → (⟨S8192x1024, .f32⟩ : BufTy).Contents (Elt F) → (⟨S8192x2048, .f32⟩ : BufTy).Contents (Elt F)) ]

/-- The gather of layer 1, line by line. -/
abbrev opsT1 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1536, .i32⟩) (broadcastInDim S1536 ![] bcast_S_S1536),
    StableHlo.TRef.binary (.of main_arg6 : StableHlo.TRef sig ⟨S1536, .i32⟩) (.of main_call1_v0 : StableHlo.TRef sig ⟨S1536, .i32⟩) (.of main_call1_v1 : StableHlo.TRef sig ⟨S1536, .i1⟩) (cmpi .slt),
    StableHlo.TRef.nullary (.of main_call1_c_0 : StableHlo.TRef sig ⟨S_, .i32⟩) (constantI S_ 32 2048#32),
    StableHlo.TRef.unary (.of main_call1_c_0 : StableHlo.TRef sig ⟨S_, .i32⟩) (.of main_call1_v2 : StableHlo.TRef sig ⟨S1536, .i32⟩) (broadcastInDim S1536 ![] bcast_S_S1536),
    StableHlo.TRef.binary (.of main_arg6 : StableHlo.TRef sig ⟨S1536, .i32⟩) (.of main_call1_v2 : StableHlo.TRef sig ⟨S1536, .i32⟩) (.of main_call1_v3 : StableHlo.TRef sig ⟨S1536, .i32⟩) addi,
    StableHlo.TRef.ternary (.of main_call1_v1 : StableHlo.TRef sig ⟨S1536, .i1⟩) (.of main_call1_v3 : StableHlo.TRef sig ⟨S1536, .i32⟩) (.of main_arg6 : StableHlo.TRef sig ⟨S1536, .i32⟩) (.of main_call1_v4 : StableHlo.TRef sig ⟨S1536, .i32⟩) select,
    StableHlo.TRef.unary main_call1_call0.v0 (.of main_call1_v5 : StableHlo.TRef sig ⟨S1536x1, .i32⟩) (broadcastInDim S1536x1 ![0] bcast_S1536_S1536x1_0),
    StableHlo.TRef.nullary (.of main_call1_c_1 : StableHlo.TRef sig ⟨S1, .i32⟩) (constantI S1 32 2047#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1536x1, .i32⟩) (broadcastInDim S1536x1 ![] bcast_S_S1536x1),
    StableHlo.TRef.binary (.of main_call1_v5 : StableHlo.TRef sig ⟨S1536x1, .i32⟩) (.of main_call1_v6 : StableHlo.TRef sig ⟨S1536x1, .i32⟩) (.of main_call1_v7 : StableHlo.TRef sig ⟨S1536x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1536x1, .i32⟩) (broadcastInDim S1536x1 ![0, 1] bcast_S1x1_S1536x1_0_1),
    StableHlo.TRef.binary (.of main_call1_v5 : StableHlo.TRef sig ⟨S1536x1, .i32⟩) (.of main_call1_v9 : StableHlo.TRef sig ⟨S1536x1, .i32⟩) (.of main_call1_v10 : StableHlo.TRef sig ⟨S1536x1, .i1⟩) (cmpi .sle),
    StableHlo.TRef.binary (.of main_call1_v7 : StableHlo.TRef sig ⟨S1536x1, .i1⟩) (.of main_call1_v10 : StableHlo.TRef sig ⟨S1536x1, .i1⟩) (.of main_call1_v11 : StableHlo.TRef sig ⟨S1536x1, .i1⟩) andi,
    StableHlo.TRef.nullary (.of main_call1_c_3 : StableHlo.TRef sig ⟨S_, .i1⟩) (constantI S_ 1 1#1),
    StableHlo.TRef.binary (.of main_call1_v11 : StableHlo.TRef sig ⟨S1536x1, .i1⟩) (.of main_call1_c_3 : StableHlo.TRef sig ⟨S_, .i1⟩) (.of main_call1_v12 : StableHlo.TRef sig ⟨S1536, .i1⟩) (fun x v => Host.reduce IntOp.andi x v reducesTo_S1536x1_S1536_d1 h_S_),
    StableHlo.TRef.binary (.of main_v6 : StableHlo.TRef sig ⟨S8192x2048, .f32⟩) (.of main_call1_v5 : StableHlo.TRef sig ⟨S1536x1, .i32⟩) (.of main_call1_v13 : StableHlo.TRef sig ⟨S8192x1536, .f32⟩) (fun x i => Host.gather gather_S8192x2048_S1536x1_S8192x1536_0_1_n_n_1_1_81921 x i),
    StableHlo.TRef.unary (.of main_call1_v12 : StableHlo.TRef sig ⟨S1536, .i1⟩) (.of main_call1_v14 : StableHlo.TRef sig ⟨S8192x1536, .i1⟩) (broadcastInDim S8192x1536 ![1] bcast_S1536_S8192x1536_1),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S8192x1536, .f32⟩) (broadcastInDim S8192x1536 ![] bcast_S_S8192x1536),
    StableHlo.TRef.ternary (.of main_call1_v14 : StableHlo.TRef sig ⟨S8192x1536, .i1⟩) (.of main_call1_v13 : StableHlo.TRef sig ⟨S8192x1536, .f32⟩) (.of main_call1_v15 : StableHlo.TRef sig ⟨S8192x1536, .f32⟩) (.of main_v7 : StableHlo.TRef sig ⟨S8192x1536, .f32⟩) select ]

/-- The layer of layer 1, line by line. -/
abbrev opsM1 : List (HloOp τ sig (Elt F)) :=
  [ StableHlo.binary main_v7 main_arg4 main_v8 ((fun l r => Host.dotGeneral dot_S8192x1536_S1536x1024_S8192x1024_1_0_0_1_n_n none l r) : (⟨S8192x1536, .f32⟩ : BufTy).Contents (Elt F) → (⟨S1536x1024, .f32⟩ : BufTy).Contents (Elt F) → (⟨S8192x1024, .f32⟩ : BufTy).Contents (Elt F)),
    StableHlo.unary main_arg5 main_v9 (broadcastInDim S1x1024 ![1] bcast_S1024_S1x1024_1 : (⟨S1024, .f32⟩ : BufTy).Contents (Elt F) → (⟨S1x1024, .f32⟩ : BufTy).Contents (Elt F)),
    StableHlo.unary main_v9 main_v10 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v8 main_v10 main_v11 (addf : (⟨S8192x1024, .f32⟩ : BufTy).Contents (Elt F) → (⟨S8192x1024, .f32⟩ : BufTy).Contents (Elt F) → (⟨S8192x1024, .f32⟩ : BufTy).Contents (Elt F)),
    StableHlo.unary main_v11 main_v12 (Host.tanh : (⟨S8192x1024, .f32⟩ : BufTy).Contents (Elt F) → (⟨S8192x1024, .f32⟩ : BufTy).Contents (Elt F)),
    StableHlo.binary main_v6 main_v12 main_v13 ((fun a b => concatenate S8192x3072 1 [⟨S8192x2048, a⟩, ⟨S8192x1024, b⟩] concatenates_S8192x2048_S8192x1024_S8192x3072_d1) : (⟨S8192x2048, .f32⟩ : BufTy).Contents (Elt F) → (⟨S8192x1024, .f32⟩ : BufTy).Contents (Elt F) → (⟨S8192x3072, .f32⟩ : BufTy).Contents (Elt F)) ]

/-- The gather of layer 2, line by line. -/
abbrev opsT2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S1536, .i32⟩) (broadcastInDim S1536 ![] bcast_S_S1536),
    StableHlo.TRef.binary (.of main_arg9 : StableHlo.TRef sig ⟨S1536, .i32⟩) (.of main_call2_v0 : StableHlo.TRef sig ⟨S1536, .i32⟩) (.of main_call2_v1 : StableHlo.TRef sig ⟨S1536, .i1⟩) (cmpi .slt),
    StableHlo.TRef.nullary (.of main_call2_c_0 : StableHlo.TRef sig ⟨S_, .i32⟩) (constantI S_ 32 3072#32),
    StableHlo.TRef.unary (.of main_call2_c_0 : StableHlo.TRef sig ⟨S_, .i32⟩) (.of main_call2_v2 : StableHlo.TRef sig ⟨S1536, .i32⟩) (broadcastInDim S1536 ![] bcast_S_S1536),
    StableHlo.TRef.binary (.of main_arg9 : StableHlo.TRef sig ⟨S1536, .i32⟩) (.of main_call2_v2 : StableHlo.TRef sig ⟨S1536, .i32⟩) (.of main_call2_v3 : StableHlo.TRef sig ⟨S1536, .i32⟩) addi,
    StableHlo.TRef.ternary (.of main_call2_v1 : StableHlo.TRef sig ⟨S1536, .i1⟩) (.of main_call2_v3 : StableHlo.TRef sig ⟨S1536, .i32⟩) (.of main_arg9 : StableHlo.TRef sig ⟨S1536, .i32⟩) (.of main_call2_v4 : StableHlo.TRef sig ⟨S1536, .i32⟩) select,
    StableHlo.TRef.unary main_call2_call0.v0 (.of main_call2_v5 : StableHlo.TRef sig ⟨S1536x1, .i32⟩) (broadcastInDim S1536x1 ![0] bcast_S1536_S1536x1_0),
    StableHlo.TRef.nullary (.of main_call2_c_1 : StableHlo.TRef sig ⟨S1, .i32⟩) (constantI S1 32 3071#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S1536x1, .i32⟩) (broadcastInDim S1536x1 ![] bcast_S_S1536x1),
    StableHlo.TRef.binary (.of main_call2_v5 : StableHlo.TRef sig ⟨S1536x1, .i32⟩) (.of main_call2_v6 : StableHlo.TRef sig ⟨S1536x1, .i32⟩) (.of main_call2_v7 : StableHlo.TRef sig ⟨S1536x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S1536x1, .i32⟩) (broadcastInDim S1536x1 ![0, 1] bcast_S1x1_S1536x1_0_1),
    StableHlo.TRef.binary (.of main_call2_v5 : StableHlo.TRef sig ⟨S1536x1, .i32⟩) (.of main_call2_v9 : StableHlo.TRef sig ⟨S1536x1, .i32⟩) (.of main_call2_v10 : StableHlo.TRef sig ⟨S1536x1, .i1⟩) (cmpi .sle),
    StableHlo.TRef.binary (.of main_call2_v7 : StableHlo.TRef sig ⟨S1536x1, .i1⟩) (.of main_call2_v10 : StableHlo.TRef sig ⟨S1536x1, .i1⟩) (.of main_call2_v11 : StableHlo.TRef sig ⟨S1536x1, .i1⟩) andi,
    StableHlo.TRef.nullary (.of main_call2_c_3 : StableHlo.TRef sig ⟨S_, .i1⟩) (constantI S_ 1 1#1),
    StableHlo.TRef.binary (.of main_call2_v11 : StableHlo.TRef sig ⟨S1536x1, .i1⟩) (.of main_call2_c_3 : StableHlo.TRef sig ⟨S_, .i1⟩) (.of main_call2_v12 : StableHlo.TRef sig ⟨S1536, .i1⟩) (fun x v => Host.reduce IntOp.andi x v reducesTo_S1536x1_S1536_d1 h_S_),
    StableHlo.TRef.binary (.of main_v13 : StableHlo.TRef sig ⟨S8192x3072, .f32⟩) (.of main_call2_v5 : StableHlo.TRef sig ⟨S1536x1, .i32⟩) (.of main_call2_v13 : StableHlo.TRef sig ⟨S8192x1536, .f32⟩) (fun x i => Host.gather gather_S8192x3072_S1536x1_S8192x1536_0_1_n_n_1_1_81921 x i),
    StableHlo.TRef.unary (.of main_call2_v12 : StableHlo.TRef sig ⟨S1536, .i1⟩) (.of main_call2_v14 : StableHlo.TRef sig ⟨S8192x1536, .i1⟩) (broadcastInDim S8192x1536 ![1] bcast_S1536_S8192x1536_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S8192x1536, .f32⟩) (broadcastInDim S8192x1536 ![] bcast_S_S8192x1536),
    StableHlo.TRef.ternary (.of main_call2_v14 : StableHlo.TRef sig ⟨S8192x1536, .i1⟩) (.of main_call2_v13 : StableHlo.TRef sig ⟨S8192x1536, .f32⟩) (.of main_call2_v15 : StableHlo.TRef sig ⟨S8192x1536, .f32⟩) (.of main_v14 : StableHlo.TRef sig ⟨S8192x1536, .f32⟩) select ]

/-- The layer of layer 2, line by line. -/
abbrev opsM2 : List (HloOp τ sig (Elt F)) :=
  [ StableHlo.binary main_v14 main_arg7 main_v15 ((fun l r => Host.dotGeneral dot_S8192x1536_S1536x1024_S8192x1024_1_0_0_1_n_n none l r) : (⟨S8192x1536, .f32⟩ : BufTy).Contents (Elt F) → (⟨S1536x1024, .f32⟩ : BufTy).Contents (Elt F) → (⟨S8192x1024, .f32⟩ : BufTy).Contents (Elt F)),
    StableHlo.unary main_arg8 main_v16 (broadcastInDim S1x1024 ![1] bcast_S1024_S1x1024_1 : (⟨S1024, .f32⟩ : BufTy).Contents (Elt F) → (⟨S1x1024, .f32⟩ : BufTy).Contents (Elt F)),
    StableHlo.unary main_v16 main_v17 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v15 main_v17 main_v18 (addf : (⟨S8192x1024, .f32⟩ : BufTy).Contents (Elt F) → (⟨S8192x1024, .f32⟩ : BufTy).Contents (Elt F) → (⟨S8192x1024, .f32⟩ : BufTy).Contents (Elt F)),
    StableHlo.unary main_v18 main_v19 (Host.tanh : (⟨S8192x1024, .f32⟩ : BufTy).Contents (Elt F) → (⟨S8192x1024, .f32⟩ : BufTy).Contents (Elt F)),
    StableHlo.binary main_v13 main_v19 main_v20 ((fun a b => concatenate S8192x4096 1 [⟨S8192x3072, a⟩, ⟨S8192x1024, b⟩] concatenates_S8192x3072_S8192x1024_S8192x4096_d1) : (⟨S8192x3072, .f32⟩ : BufTy).Contents (Elt F) → (⟨S8192x1024, .f32⟩ : BufTy).Contents (Elt F) → (⟨S8192x4096, .f32⟩ : BufTy).Contents (Elt F)) ]

/-- The gather of layer 3, line by line. -/
abbrev opsT3 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S1536, .i32⟩) (broadcastInDim S1536 ![] bcast_S_S1536),
    StableHlo.TRef.binary (.of main_arg12 : StableHlo.TRef sig ⟨S1536, .i32⟩) (.of main_call3_v0 : StableHlo.TRef sig ⟨S1536, .i32⟩) (.of main_call3_v1 : StableHlo.TRef sig ⟨S1536, .i1⟩) (cmpi .slt),
    StableHlo.TRef.nullary (.of main_call3_c_0 : StableHlo.TRef sig ⟨S_, .i32⟩) (constantI S_ 32 4096#32),
    StableHlo.TRef.unary (.of main_call3_c_0 : StableHlo.TRef sig ⟨S_, .i32⟩) (.of main_call3_v2 : StableHlo.TRef sig ⟨S1536, .i32⟩) (broadcastInDim S1536 ![] bcast_S_S1536),
    StableHlo.TRef.binary (.of main_arg12 : StableHlo.TRef sig ⟨S1536, .i32⟩) (.of main_call3_v2 : StableHlo.TRef sig ⟨S1536, .i32⟩) (.of main_call3_v3 : StableHlo.TRef sig ⟨S1536, .i32⟩) addi,
    StableHlo.TRef.ternary (.of main_call3_v1 : StableHlo.TRef sig ⟨S1536, .i1⟩) (.of main_call3_v3 : StableHlo.TRef sig ⟨S1536, .i32⟩) (.of main_arg12 : StableHlo.TRef sig ⟨S1536, .i32⟩) (.of main_call3_v4 : StableHlo.TRef sig ⟨S1536, .i32⟩) select,
    StableHlo.TRef.unary main_call3_call0.v0 (.of main_call3_v5 : StableHlo.TRef sig ⟨S1536x1, .i32⟩) (broadcastInDim S1536x1 ![0] bcast_S1536_S1536x1_0),
    StableHlo.TRef.nullary (.of main_call3_c_1 : StableHlo.TRef sig ⟨S1, .i32⟩) (constantI S1 32 4095#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S1536x1, .i32⟩) (broadcastInDim S1536x1 ![] bcast_S_S1536x1),
    StableHlo.TRef.binary (.of main_call3_v5 : StableHlo.TRef sig ⟨S1536x1, .i32⟩) (.of main_call3_v6 : StableHlo.TRef sig ⟨S1536x1, .i32⟩) (.of main_call3_v7 : StableHlo.TRef sig ⟨S1536x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S1536x1, .i32⟩) (broadcastInDim S1536x1 ![0, 1] bcast_S1x1_S1536x1_0_1),
    StableHlo.TRef.binary (.of main_call3_v5 : StableHlo.TRef sig ⟨S1536x1, .i32⟩) (.of main_call3_v9 : StableHlo.TRef sig ⟨S1536x1, .i32⟩) (.of main_call3_v10 : StableHlo.TRef sig ⟨S1536x1, .i1⟩) (cmpi .sle),
    StableHlo.TRef.binary (.of main_call3_v7 : StableHlo.TRef sig ⟨S1536x1, .i1⟩) (.of main_call3_v10 : StableHlo.TRef sig ⟨S1536x1, .i1⟩) (.of main_call3_v11 : StableHlo.TRef sig ⟨S1536x1, .i1⟩) andi,
    StableHlo.TRef.nullary (.of main_call3_c_3 : StableHlo.TRef sig ⟨S_, .i1⟩) (constantI S_ 1 1#1),
    StableHlo.TRef.binary (.of main_call3_v11 : StableHlo.TRef sig ⟨S1536x1, .i1⟩) (.of main_call3_c_3 : StableHlo.TRef sig ⟨S_, .i1⟩) (.of main_call3_v12 : StableHlo.TRef sig ⟨S1536, .i1⟩) (fun x v => Host.reduce IntOp.andi x v reducesTo_S1536x1_S1536_d1 h_S_),
    StableHlo.TRef.binary (.of main_v20 : StableHlo.TRef sig ⟨S8192x4096, .f32⟩) (.of main_call3_v5 : StableHlo.TRef sig ⟨S1536x1, .i32⟩) (.of main_call3_v13 : StableHlo.TRef sig ⟨S8192x1536, .f32⟩) (fun x i => Host.gather gather_S8192x4096_S1536x1_S8192x1536_0_1_n_n_1_1_81921 x i),
    StableHlo.TRef.unary (.of main_call3_v12 : StableHlo.TRef sig ⟨S1536, .i1⟩) (.of main_call3_v14 : StableHlo.TRef sig ⟨S8192x1536, .i1⟩) (broadcastInDim S8192x1536 ![1] bcast_S1536_S8192x1536_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S8192x1536, .f32⟩) (broadcastInDim S8192x1536 ![] bcast_S_S8192x1536),
    StableHlo.TRef.ternary (.of main_call3_v14 : StableHlo.TRef sig ⟨S8192x1536, .i1⟩) (.of main_call3_v13 : StableHlo.TRef sig ⟨S8192x1536, .f32⟩) (.of main_call3_v15 : StableHlo.TRef sig ⟨S8192x1536, .f32⟩) (.of main_v21 : StableHlo.TRef sig ⟨S8192x1536, .f32⟩) select ]

/-- The layer of layer 3, line by line. -/
abbrev opsM3 : List (HloOp τ sig (Elt F)) :=
  [ StableHlo.binary main_v21 main_arg10 main_v22 ((fun l r => Host.dotGeneral dot_S8192x1536_S1536x1024_S8192x1024_1_0_0_1_n_n none l r) : (⟨S8192x1536, .f32⟩ : BufTy).Contents (Elt F) → (⟨S1536x1024, .f32⟩ : BufTy).Contents (Elt F) → (⟨S8192x1024, .f32⟩ : BufTy).Contents (Elt F)),
    StableHlo.unary main_arg11 main_v23 (broadcastInDim S1x1024 ![1] bcast_S1024_S1x1024_1 : (⟨S1024, .f32⟩ : BufTy).Contents (Elt F) → (⟨S1x1024, .f32⟩ : BufTy).Contents (Elt F)),
    StableHlo.unary main_v23 main_v24 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v22 main_v24 main_v25 (addf : (⟨S8192x1024, .f32⟩ : BufTy).Contents (Elt F) → (⟨S8192x1024, .f32⟩ : BufTy).Contents (Elt F) → (⟨S8192x1024, .f32⟩ : BufTy).Contents (Elt F)),
    StableHlo.unary main_v25 main_v26 (Host.tanh : (⟨S8192x1024, .f32⟩ : BufTy).Contents (Elt F) → (⟨S8192x1024, .f32⟩ : BufTy).Contents (Elt F)),
    StableHlo.binary main_v20 main_v26 main_v27 ((fun a b => concatenate S8192x5120 1 [⟨S8192x4096, a⟩, ⟨S8192x1024, b⟩] concatenates_S8192x4096_S8192x1024_S8192x5120_d1) : (⟨S8192x4096, .f32⟩ : BufTy).Contents (Elt F) → (⟨S8192x1024, .f32⟩ : BufTy).Contents (Elt F) → (⟨S8192x5120, .f32⟩ : BufTy).Contents (Elt F)) ]

/-- @main's lines, in order. -/
abbrev ops : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1536, .i32⟩) (broadcastInDim S1536 ![] bcast_S_S1536),
    StableHlo.TRef.binary (.of main_arg3 : StableHlo.TRef sig ⟨S1536, .i32⟩) (.of main_call0_v0 : StableHlo.TRef sig ⟨S1536, .i32⟩) (.of main_call0_v1 : StableHlo.TRef sig ⟨S1536, .i1⟩) (cmpi .slt),
    StableHlo.TRef.nullary (.of main_call0_c_0 : StableHlo.TRef sig ⟨S_, .i32⟩) (constantI S_ 32 1024#32),
    StableHlo.TRef.unary (.of main_call0_c_0 : StableHlo.TRef sig ⟨S_, .i32⟩) (.of main_call0_v2 : StableHlo.TRef sig ⟨S1536, .i32⟩) (broadcastInDim S1536 ![] bcast_S_S1536),
    StableHlo.TRef.binary (.of main_arg3 : StableHlo.TRef sig ⟨S1536, .i32⟩) (.of main_call0_v2 : StableHlo.TRef sig ⟨S1536, .i32⟩) (.of main_call0_v3 : StableHlo.TRef sig ⟨S1536, .i32⟩) addi,
    StableHlo.TRef.ternary (.of main_call0_v1 : StableHlo.TRef sig ⟨S1536, .i1⟩) (.of main_call0_v3 : StableHlo.TRef sig ⟨S1536, .i32⟩) (.of main_arg3 : StableHlo.TRef sig ⟨S1536, .i32⟩) (.of main_call0_v4 : StableHlo.TRef sig ⟨S1536, .i32⟩) select,
    StableHlo.TRef.unary main_call0_call0.v0 (.of main_call0_v5 : StableHlo.TRef sig ⟨S1536x1, .i32⟩) (broadcastInDim S1536x1 ![0] bcast_S1536_S1536x1_0),
    StableHlo.TRef.nullary (.of main_call0_c_1 : StableHlo.TRef sig ⟨S1, .i32⟩) (constantI S1 32 1023#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1536x1, .i32⟩) (broadcastInDim S1536x1 ![] bcast_S_S1536x1),
    StableHlo.TRef.binary (.of main_call0_v5 : StableHlo.TRef sig ⟨S1536x1, .i32⟩) (.of main_call0_v6 : StableHlo.TRef sig ⟨S1536x1, .i32⟩) (.of main_call0_v7 : StableHlo.TRef sig ⟨S1536x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1536x1, .i32⟩) (broadcastInDim S1536x1 ![0, 1] bcast_S1x1_S1536x1_0_1),
    StableHlo.TRef.binary (.of main_call0_v5 : StableHlo.TRef sig ⟨S1536x1, .i32⟩) (.of main_call0_v9 : StableHlo.TRef sig ⟨S1536x1, .i32⟩) (.of main_call0_v10 : StableHlo.TRef sig ⟨S1536x1, .i1⟩) (cmpi .sle),
    StableHlo.TRef.binary (.of main_call0_v7 : StableHlo.TRef sig ⟨S1536x1, .i1⟩) (.of main_call0_v10 : StableHlo.TRef sig ⟨S1536x1, .i1⟩) (.of main_call0_v11 : StableHlo.TRef sig ⟨S1536x1, .i1⟩) andi,
    StableHlo.TRef.nullary (.of main_call0_c_3 : StableHlo.TRef sig ⟨S_, .i1⟩) (constantI S_ 1 1#1),
    StableHlo.TRef.binary (.of main_call0_v11 : StableHlo.TRef sig ⟨S1536x1, .i1⟩) (.of main_call0_c_3 : StableHlo.TRef sig ⟨S_, .i1⟩) (.of main_call0_v12 : StableHlo.TRef sig ⟨S1536, .i1⟩) (fun x v => Host.reduce IntOp.andi x v reducesTo_S1536x1_S1536_d1 h_S_),
    StableHlo.TRef.binary (.of main_arg0 : StableHlo.TRef sig ⟨S8192x1024, .f32⟩) (.of main_call0_v5 : StableHlo.TRef sig ⟨S1536x1, .i32⟩) (.of main_call0_v13 : StableHlo.TRef sig ⟨S8192x1536, .f32⟩) (fun x i => Host.gather gather_S8192x1024_S1536x1_S8192x1536_0_1_n_n_1_1_81921 x i),
    StableHlo.TRef.unary (.of main_call0_v12 : StableHlo.TRef sig ⟨S1536, .i1⟩) (.of main_call0_v14 : StableHlo.TRef sig ⟨S8192x1536, .i1⟩) (broadcastInDim S8192x1536 ![1] bcast_S1536_S8192x1536_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S8192x1536, .f32⟩) (broadcastInDim S8192x1536 ![] bcast_S_S8192x1536),
    StableHlo.TRef.ternary (.of main_call0_v14 : StableHlo.TRef sig ⟨S8192x1536, .i1⟩) (.of main_call0_v13 : StableHlo.TRef sig ⟨S8192x1536, .f32⟩) (.of main_call0_v15 : StableHlo.TRef sig ⟨S8192x1536, .f32⟩) (.of main_v0 : StableHlo.TRef sig ⟨S8192x1536, .f32⟩) select,
    StableHlo.binary main_v0 main_arg1 main_v1 ((fun l r => Host.dotGeneral dot_S8192x1536_S1536x1024_S8192x1024_1_0_0_1_n_n none l r) : (⟨S8192x1536, .f32⟩ : BufTy).Contents (Elt F) → (⟨S1536x1024, .f32⟩ : BufTy).Contents (Elt F) → (⟨S8192x1024, .f32⟩ : BufTy).Contents (Elt F)),
    StableHlo.unary main_arg2 main_v2 (broadcastInDim S1x1024 ![1] bcast_S1024_S1x1024_1 : (⟨S1024, .f32⟩ : BufTy).Contents (Elt F) → (⟨S1x1024, .f32⟩ : BufTy).Contents (Elt F)),
    StableHlo.unary main_v2 main_v3 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v1 main_v3 main_v4 (addf : (⟨S8192x1024, .f32⟩ : BufTy).Contents (Elt F) → (⟨S8192x1024, .f32⟩ : BufTy).Contents (Elt F) → (⟨S8192x1024, .f32⟩ : BufTy).Contents (Elt F)),
    StableHlo.unary main_v4 main_v5 (Host.tanh : (⟨S8192x1024, .f32⟩ : BufTy).Contents (Elt F) → (⟨S8192x1024, .f32⟩ : BufTy).Contents (Elt F)),
    StableHlo.binary main_arg0 main_v5 main_v6 ((fun a b => concatenate S8192x2048 1 [⟨S8192x1024, a⟩, ⟨S8192x1024, b⟩] concatenates_S8192x1024_S8192x1024_S8192x2048_d1) : (⟨S8192x1024, .f32⟩ : BufTy).Contents (Elt F) → (⟨S8192x1024, .f32⟩ : BufTy).Contents (Elt F) → (⟨S8192x2048, .f32⟩ : BufTy).Contents (Elt F)),
    StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1536, .i32⟩) (broadcastInDim S1536 ![] bcast_S_S1536),
    StableHlo.TRef.binary (.of main_arg6 : StableHlo.TRef sig ⟨S1536, .i32⟩) (.of main_call1_v0 : StableHlo.TRef sig ⟨S1536, .i32⟩) (.of main_call1_v1 : StableHlo.TRef sig ⟨S1536, .i1⟩) (cmpi .slt),
    StableHlo.TRef.nullary (.of main_call1_c_0 : StableHlo.TRef sig ⟨S_, .i32⟩) (constantI S_ 32 2048#32),
    StableHlo.TRef.unary (.of main_call1_c_0 : StableHlo.TRef sig ⟨S_, .i32⟩) (.of main_call1_v2 : StableHlo.TRef sig ⟨S1536, .i32⟩) (broadcastInDim S1536 ![] bcast_S_S1536),
    StableHlo.TRef.binary (.of main_arg6 : StableHlo.TRef sig ⟨S1536, .i32⟩) (.of main_call1_v2 : StableHlo.TRef sig ⟨S1536, .i32⟩) (.of main_call1_v3 : StableHlo.TRef sig ⟨S1536, .i32⟩) addi,
    StableHlo.TRef.ternary (.of main_call1_v1 : StableHlo.TRef sig ⟨S1536, .i1⟩) (.of main_call1_v3 : StableHlo.TRef sig ⟨S1536, .i32⟩) (.of main_arg6 : StableHlo.TRef sig ⟨S1536, .i32⟩) (.of main_call1_v4 : StableHlo.TRef sig ⟨S1536, .i32⟩) select,
    StableHlo.TRef.unary main_call1_call0.v0 (.of main_call1_v5 : StableHlo.TRef sig ⟨S1536x1, .i32⟩) (broadcastInDim S1536x1 ![0] bcast_S1536_S1536x1_0),
    StableHlo.TRef.nullary (.of main_call1_c_1 : StableHlo.TRef sig ⟨S1, .i32⟩) (constantI S1 32 2047#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1536x1, .i32⟩) (broadcastInDim S1536x1 ![] bcast_S_S1536x1),
    StableHlo.TRef.binary (.of main_call1_v5 : StableHlo.TRef sig ⟨S1536x1, .i32⟩) (.of main_call1_v6 : StableHlo.TRef sig ⟨S1536x1, .i32⟩) (.of main_call1_v7 : StableHlo.TRef sig ⟨S1536x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1536x1, .i32⟩) (broadcastInDim S1536x1 ![0, 1] bcast_S1x1_S1536x1_0_1),
    StableHlo.TRef.binary (.of main_call1_v5 : StableHlo.TRef sig ⟨S1536x1, .i32⟩) (.of main_call1_v9 : StableHlo.TRef sig ⟨S1536x1, .i32⟩) (.of main_call1_v10 : StableHlo.TRef sig ⟨S1536x1, .i1⟩) (cmpi .sle),
    StableHlo.TRef.binary (.of main_call1_v7 : StableHlo.TRef sig ⟨S1536x1, .i1⟩) (.of main_call1_v10 : StableHlo.TRef sig ⟨S1536x1, .i1⟩) (.of main_call1_v11 : StableHlo.TRef sig ⟨S1536x1, .i1⟩) andi,
    StableHlo.TRef.nullary (.of main_call1_c_3 : StableHlo.TRef sig ⟨S_, .i1⟩) (constantI S_ 1 1#1),
    StableHlo.TRef.binary (.of main_call1_v11 : StableHlo.TRef sig ⟨S1536x1, .i1⟩) (.of main_call1_c_3 : StableHlo.TRef sig ⟨S_, .i1⟩) (.of main_call1_v12 : StableHlo.TRef sig ⟨S1536, .i1⟩) (fun x v => Host.reduce IntOp.andi x v reducesTo_S1536x1_S1536_d1 h_S_),
    StableHlo.TRef.binary (.of main_v6 : StableHlo.TRef sig ⟨S8192x2048, .f32⟩) (.of main_call1_v5 : StableHlo.TRef sig ⟨S1536x1, .i32⟩) (.of main_call1_v13 : StableHlo.TRef sig ⟨S8192x1536, .f32⟩) (fun x i => Host.gather gather_S8192x2048_S1536x1_S8192x1536_0_1_n_n_1_1_81921 x i),
    StableHlo.TRef.unary (.of main_call1_v12 : StableHlo.TRef sig ⟨S1536, .i1⟩) (.of main_call1_v14 : StableHlo.TRef sig ⟨S8192x1536, .i1⟩) (broadcastInDim S8192x1536 ![1] bcast_S1536_S8192x1536_1),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S8192x1536, .f32⟩) (broadcastInDim S8192x1536 ![] bcast_S_S8192x1536),
    StableHlo.TRef.ternary (.of main_call1_v14 : StableHlo.TRef sig ⟨S8192x1536, .i1⟩) (.of main_call1_v13 : StableHlo.TRef sig ⟨S8192x1536, .f32⟩) (.of main_call1_v15 : StableHlo.TRef sig ⟨S8192x1536, .f32⟩) (.of main_v7 : StableHlo.TRef sig ⟨S8192x1536, .f32⟩) select,
    StableHlo.binary main_v7 main_arg4 main_v8 ((fun l r => Host.dotGeneral dot_S8192x1536_S1536x1024_S8192x1024_1_0_0_1_n_n none l r) : (⟨S8192x1536, .f32⟩ : BufTy).Contents (Elt F) → (⟨S1536x1024, .f32⟩ : BufTy).Contents (Elt F) → (⟨S8192x1024, .f32⟩ : BufTy).Contents (Elt F)),
    StableHlo.unary main_arg5 main_v9 (broadcastInDim S1x1024 ![1] bcast_S1024_S1x1024_1 : (⟨S1024, .f32⟩ : BufTy).Contents (Elt F) → (⟨S1x1024, .f32⟩ : BufTy).Contents (Elt F)),
    StableHlo.unary main_v9 main_v10 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v8 main_v10 main_v11 (addf : (⟨S8192x1024, .f32⟩ : BufTy).Contents (Elt F) → (⟨S8192x1024, .f32⟩ : BufTy).Contents (Elt F) → (⟨S8192x1024, .f32⟩ : BufTy).Contents (Elt F)),
    StableHlo.unary main_v11 main_v12 (Host.tanh : (⟨S8192x1024, .f32⟩ : BufTy).Contents (Elt F) → (⟨S8192x1024, .f32⟩ : BufTy).Contents (Elt F)),
    StableHlo.binary main_v6 main_v12 main_v13 ((fun a b => concatenate S8192x3072 1 [⟨S8192x2048, a⟩, ⟨S8192x1024, b⟩] concatenates_S8192x2048_S8192x1024_S8192x3072_d1) : (⟨S8192x2048, .f32⟩ : BufTy).Contents (Elt F) → (⟨S8192x1024, .f32⟩ : BufTy).Contents (Elt F) → (⟨S8192x3072, .f32⟩ : BufTy).Contents (Elt F)),
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S1536, .i32⟩) (broadcastInDim S1536 ![] bcast_S_S1536),
    StableHlo.TRef.binary (.of main_arg9 : StableHlo.TRef sig ⟨S1536, .i32⟩) (.of main_call2_v0 : StableHlo.TRef sig ⟨S1536, .i32⟩) (.of main_call2_v1 : StableHlo.TRef sig ⟨S1536, .i1⟩) (cmpi .slt),
    StableHlo.TRef.nullary (.of main_call2_c_0 : StableHlo.TRef sig ⟨S_, .i32⟩) (constantI S_ 32 3072#32),
    StableHlo.TRef.unary (.of main_call2_c_0 : StableHlo.TRef sig ⟨S_, .i32⟩) (.of main_call2_v2 : StableHlo.TRef sig ⟨S1536, .i32⟩) (broadcastInDim S1536 ![] bcast_S_S1536),
    StableHlo.TRef.binary (.of main_arg9 : StableHlo.TRef sig ⟨S1536, .i32⟩) (.of main_call2_v2 : StableHlo.TRef sig ⟨S1536, .i32⟩) (.of main_call2_v3 : StableHlo.TRef sig ⟨S1536, .i32⟩) addi,
    StableHlo.TRef.ternary (.of main_call2_v1 : StableHlo.TRef sig ⟨S1536, .i1⟩) (.of main_call2_v3 : StableHlo.TRef sig ⟨S1536, .i32⟩) (.of main_arg9 : StableHlo.TRef sig ⟨S1536, .i32⟩) (.of main_call2_v4 : StableHlo.TRef sig ⟨S1536, .i32⟩) select,
    StableHlo.TRef.unary main_call2_call0.v0 (.of main_call2_v5 : StableHlo.TRef sig ⟨S1536x1, .i32⟩) (broadcastInDim S1536x1 ![0] bcast_S1536_S1536x1_0),
    StableHlo.TRef.nullary (.of main_call2_c_1 : StableHlo.TRef sig ⟨S1, .i32⟩) (constantI S1 32 3071#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S1536x1, .i32⟩) (broadcastInDim S1536x1 ![] bcast_S_S1536x1),
    StableHlo.TRef.binary (.of main_call2_v5 : StableHlo.TRef sig ⟨S1536x1, .i32⟩) (.of main_call2_v6 : StableHlo.TRef sig ⟨S1536x1, .i32⟩) (.of main_call2_v7 : StableHlo.TRef sig ⟨S1536x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S1536x1, .i32⟩) (broadcastInDim S1536x1 ![0, 1] bcast_S1x1_S1536x1_0_1),
    StableHlo.TRef.binary (.of main_call2_v5 : StableHlo.TRef sig ⟨S1536x1, .i32⟩) (.of main_call2_v9 : StableHlo.TRef sig ⟨S1536x1, .i32⟩) (.of main_call2_v10 : StableHlo.TRef sig ⟨S1536x1, .i1⟩) (cmpi .sle),
    StableHlo.TRef.binary (.of main_call2_v7 : StableHlo.TRef sig ⟨S1536x1, .i1⟩) (.of main_call2_v10 : StableHlo.TRef sig ⟨S1536x1, .i1⟩) (.of main_call2_v11 : StableHlo.TRef sig ⟨S1536x1, .i1⟩) andi,
    StableHlo.TRef.nullary (.of main_call2_c_3 : StableHlo.TRef sig ⟨S_, .i1⟩) (constantI S_ 1 1#1),
    StableHlo.TRef.binary (.of main_call2_v11 : StableHlo.TRef sig ⟨S1536x1, .i1⟩) (.of main_call2_c_3 : StableHlo.TRef sig ⟨S_, .i1⟩) (.of main_call2_v12 : StableHlo.TRef sig ⟨S1536, .i1⟩) (fun x v => Host.reduce IntOp.andi x v reducesTo_S1536x1_S1536_d1 h_S_),
    StableHlo.TRef.binary (.of main_v13 : StableHlo.TRef sig ⟨S8192x3072, .f32⟩) (.of main_call2_v5 : StableHlo.TRef sig ⟨S1536x1, .i32⟩) (.of main_call2_v13 : StableHlo.TRef sig ⟨S8192x1536, .f32⟩) (fun x i => Host.gather gather_S8192x3072_S1536x1_S8192x1536_0_1_n_n_1_1_81921 x i),
    StableHlo.TRef.unary (.of main_call2_v12 : StableHlo.TRef sig ⟨S1536, .i1⟩) (.of main_call2_v14 : StableHlo.TRef sig ⟨S8192x1536, .i1⟩) (broadcastInDim S8192x1536 ![1] bcast_S1536_S8192x1536_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S8192x1536, .f32⟩) (broadcastInDim S8192x1536 ![] bcast_S_S8192x1536),
    StableHlo.TRef.ternary (.of main_call2_v14 : StableHlo.TRef sig ⟨S8192x1536, .i1⟩) (.of main_call2_v13 : StableHlo.TRef sig ⟨S8192x1536, .f32⟩) (.of main_call2_v15 : StableHlo.TRef sig ⟨S8192x1536, .f32⟩) (.of main_v14 : StableHlo.TRef sig ⟨S8192x1536, .f32⟩) select,
    StableHlo.binary main_v14 main_arg7 main_v15 ((fun l r => Host.dotGeneral dot_S8192x1536_S1536x1024_S8192x1024_1_0_0_1_n_n none l r) : (⟨S8192x1536, .f32⟩ : BufTy).Contents (Elt F) → (⟨S1536x1024, .f32⟩ : BufTy).Contents (Elt F) → (⟨S8192x1024, .f32⟩ : BufTy).Contents (Elt F)),
    StableHlo.unary main_arg8 main_v16 (broadcastInDim S1x1024 ![1] bcast_S1024_S1x1024_1 : (⟨S1024, .f32⟩ : BufTy).Contents (Elt F) → (⟨S1x1024, .f32⟩ : BufTy).Contents (Elt F)),
    StableHlo.unary main_v16 main_v17 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v15 main_v17 main_v18 (addf : (⟨S8192x1024, .f32⟩ : BufTy).Contents (Elt F) → (⟨S8192x1024, .f32⟩ : BufTy).Contents (Elt F) → (⟨S8192x1024, .f32⟩ : BufTy).Contents (Elt F)),
    StableHlo.unary main_v18 main_v19 (Host.tanh : (⟨S8192x1024, .f32⟩ : BufTy).Contents (Elt F) → (⟨S8192x1024, .f32⟩ : BufTy).Contents (Elt F)),
    StableHlo.binary main_v13 main_v19 main_v20 ((fun a b => concatenate S8192x4096 1 [⟨S8192x3072, a⟩, ⟨S8192x1024, b⟩] concatenates_S8192x3072_S8192x1024_S8192x4096_d1) : (⟨S8192x3072, .f32⟩ : BufTy).Contents (Elt F) → (⟨S8192x1024, .f32⟩ : BufTy).Contents (Elt F) → (⟨S8192x4096, .f32⟩ : BufTy).Contents (Elt F)),
    StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S1536, .i32⟩) (broadcastInDim S1536 ![] bcast_S_S1536),
    StableHlo.TRef.binary (.of main_arg12 : StableHlo.TRef sig ⟨S1536, .i32⟩) (.of main_call3_v0 : StableHlo.TRef sig ⟨S1536, .i32⟩) (.of main_call3_v1 : StableHlo.TRef sig ⟨S1536, .i1⟩) (cmpi .slt),
    StableHlo.TRef.nullary (.of main_call3_c_0 : StableHlo.TRef sig ⟨S_, .i32⟩) (constantI S_ 32 4096#32),
    StableHlo.TRef.unary (.of main_call3_c_0 : StableHlo.TRef sig ⟨S_, .i32⟩) (.of main_call3_v2 : StableHlo.TRef sig ⟨S1536, .i32⟩) (broadcastInDim S1536 ![] bcast_S_S1536),
    StableHlo.TRef.binary (.of main_arg12 : StableHlo.TRef sig ⟨S1536, .i32⟩) (.of main_call3_v2 : StableHlo.TRef sig ⟨S1536, .i32⟩) (.of main_call3_v3 : StableHlo.TRef sig ⟨S1536, .i32⟩) addi,
    StableHlo.TRef.ternary (.of main_call3_v1 : StableHlo.TRef sig ⟨S1536, .i1⟩) (.of main_call3_v3 : StableHlo.TRef sig ⟨S1536, .i32⟩) (.of main_arg12 : StableHlo.TRef sig ⟨S1536, .i32⟩) (.of main_call3_v4 : StableHlo.TRef sig ⟨S1536, .i32⟩) select,
    StableHlo.TRef.unary main_call3_call0.v0 (.of main_call3_v5 : StableHlo.TRef sig ⟨S1536x1, .i32⟩) (broadcastInDim S1536x1 ![0] bcast_S1536_S1536x1_0),
    StableHlo.TRef.nullary (.of main_call3_c_1 : StableHlo.TRef sig ⟨S1, .i32⟩) (constantI S1 32 4095#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S1536x1, .i32⟩) (broadcastInDim S1536x1 ![] bcast_S_S1536x1),
    StableHlo.TRef.binary (.of main_call3_v5 : StableHlo.TRef sig ⟨S1536x1, .i32⟩) (.of main_call3_v6 : StableHlo.TRef sig ⟨S1536x1, .i32⟩) (.of main_call3_v7 : StableHlo.TRef sig ⟨S1536x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S1536x1, .i32⟩) (broadcastInDim S1536x1 ![0, 1] bcast_S1x1_S1536x1_0_1),
    StableHlo.TRef.binary (.of main_call3_v5 : StableHlo.TRef sig ⟨S1536x1, .i32⟩) (.of main_call3_v9 : StableHlo.TRef sig ⟨S1536x1, .i32⟩) (.of main_call3_v10 : StableHlo.TRef sig ⟨S1536x1, .i1⟩) (cmpi .sle),
    StableHlo.TRef.binary (.of main_call3_v7 : StableHlo.TRef sig ⟨S1536x1, .i1⟩) (.of main_call3_v10 : StableHlo.TRef sig ⟨S1536x1, .i1⟩) (.of main_call3_v11 : StableHlo.TRef sig ⟨S1536x1, .i1⟩) andi,
    StableHlo.TRef.nullary (.of main_call3_c_3 : StableHlo.TRef sig ⟨S_, .i1⟩) (constantI S_ 1 1#1),
    StableHlo.TRef.binary (.of main_call3_v11 : StableHlo.TRef sig ⟨S1536x1, .i1⟩) (.of main_call3_c_3 : StableHlo.TRef sig ⟨S_, .i1⟩) (.of main_call3_v12 : StableHlo.TRef sig ⟨S1536, .i1⟩) (fun x v => Host.reduce IntOp.andi x v reducesTo_S1536x1_S1536_d1 h_S_),
    StableHlo.TRef.binary (.of main_v20 : StableHlo.TRef sig ⟨S8192x4096, .f32⟩) (.of main_call3_v5 : StableHlo.TRef sig ⟨S1536x1, .i32⟩) (.of main_call3_v13 : StableHlo.TRef sig ⟨S8192x1536, .f32⟩) (fun x i => Host.gather gather_S8192x4096_S1536x1_S8192x1536_0_1_n_n_1_1_81921 x i),
    StableHlo.TRef.unary (.of main_call3_v12 : StableHlo.TRef sig ⟨S1536, .i1⟩) (.of main_call3_v14 : StableHlo.TRef sig ⟨S8192x1536, .i1⟩) (broadcastInDim S8192x1536 ![1] bcast_S1536_S8192x1536_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S8192x1536, .f32⟩) (broadcastInDim S8192x1536 ![] bcast_S_S8192x1536),
    StableHlo.TRef.ternary (.of main_call3_v14 : StableHlo.TRef sig ⟨S8192x1536, .i1⟩) (.of main_call3_v13 : StableHlo.TRef sig ⟨S8192x1536, .f32⟩) (.of main_call3_v15 : StableHlo.TRef sig ⟨S8192x1536, .f32⟩) (.of main_v21 : StableHlo.TRef sig ⟨S8192x1536, .f32⟩) select,
    StableHlo.binary main_v21 main_arg10 main_v22 ((fun l r => Host.dotGeneral dot_S8192x1536_S1536x1024_S8192x1024_1_0_0_1_n_n none l r) : (⟨S8192x1536, .f32⟩ : BufTy).Contents (Elt F) → (⟨S1536x1024, .f32⟩ : BufTy).Contents (Elt F) → (⟨S8192x1024, .f32⟩ : BufTy).Contents (Elt F)),
    StableHlo.unary main_arg11 main_v23 (broadcastInDim S1x1024 ![1] bcast_S1024_S1x1024_1 : (⟨S1024, .f32⟩ : BufTy).Contents (Elt F) → (⟨S1x1024, .f32⟩ : BufTy).Contents (Elt F)),
    StableHlo.unary main_v23 main_v24 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v22 main_v24 main_v25 (addf : (⟨S8192x1024, .f32⟩ : BufTy).Contents (Elt F) → (⟨S8192x1024, .f32⟩ : BufTy).Contents (Elt F) → (⟨S8192x1024, .f32⟩ : BufTy).Contents (Elt F)),
    StableHlo.unary main_v25 main_v26 (Host.tanh : (⟨S8192x1024, .f32⟩ : BufTy).Contents (Elt F) → (⟨S8192x1024, .f32⟩ : BufTy).Contents (Elt F)),
    StableHlo.binary main_v20 main_v26 main_v27 ((fun a b => concatenate S8192x5120 1 [⟨S8192x4096, a⟩, ⟨S8192x1024, b⟩] concatenates_S8192x4096_S8192x1024_S8192x5120_d1) : (⟨S8192x4096, .f32⟩ : BufTy).Contents (Elt F) → (⟨S8192x1024, .f32⟩ : BufTy).Contents (Elt F) → (⟨S8192x5120, .f32⟩ : BufTy).Contents (Elt F)) ]

/-- The whole line is the eight stretches one after the other. -/
theorem ops_split : (ops : List (HloOp τ sig (Elt F))) = opsT0 ++ (opsM0 ++ (opsT1 ++ (opsM1 ++ (opsT2 ++ (opsM2 ++ (opsT3 ++ opsM3)))))) := rfl

set_option maxRecDepth 8192 in
/-- @main is that straight line: the called functions' definitions opened at their calls, both sides are one chain of
    host steps once sequencing is reassociated. -/
theorem main_eq (c : Dev nD) : main (F := F) c = seq ops := by
  simp only [main, fn_take.body, fn_take_0.body, fn_take_1.body, fn_take_2.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., binary_bufs_sub .., unary_bufs_sub .., binary_bufs_sub ..⟩

/-- Every weakly fair execution of @main terminates, and every final state has each buffer at the fold of the lines'
    results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Run

end
-- ==== Proof.RArgs.lean ====
/-
  Which buffers a stretch of the reference's host lines leaves alone.

  No host line of the reference writes an argument array. `Args W W'` says that the contents `W'` agree with `W` on the
  thirteen arguments; it is transitive. `keep_tac` proves that one buffer is left alone by a literal list of host
  lines: the buffer differs from every buffer a line writes.
-/
import proofs.«171747_j77077483094889_1_alg».proof.Proof.RRun

noncomputable section

namespace Cert.ReferenceIdeal.Keep

open Idealize.ShloMosaic Idealize.ShloMosaic.TcCoe Idealize.SL.Sem Cert.ReferenceIdeal

variable {F : FTy → Type} [FloatOps F]

/-- `W'` holds what `W` holds in every argument array. -/
def Args (W W' : Valuation τ sig (Elt F)) : Prop :=
  W' (Proc.devRef .tc main_arg0) = W (Proc.devRef .tc main_arg0)
  ∧ W' (Proc.devRef .tc main_arg1) = W (Proc.devRef .tc main_arg1)
  ∧ W' (Proc.devRef .tc main_arg2) = W (Proc.devRef .tc main_arg2)
  ∧ W' (Proc.devRef .tc main_arg3) = W (Proc.devRef .tc main_arg3)
  ∧ W' (Proc.devRef .tc main_arg4) = W (Proc.devRef .tc main_arg4)
  ∧ W' (Proc.devRef .tc main_arg5) = W (Proc.devRef .tc main_arg5)
  ∧ W' (Proc.devRef .tc main_arg6) = W (Proc.devRef .tc main_arg6)
  ∧ W' (Proc.devRef .tc main_arg7) = W (Proc.devRef .tc main_arg7)
  ∧ W' (Proc.devRef .tc main_arg8) = W (Proc.devRef .tc main_arg8)
  ∧ W' (Proc.devRef .tc main_arg9) = W (Proc.devRef .tc main_arg9)
  ∧ W' (Proc.devRef .tc main_arg10) = W (Proc.devRef .tc main_arg10)
  ∧ W' (Proc.devRef .tc main_arg11) = W (Proc.devRef .tc main_arg11)
  ∧ W' (Proc.devRef .tc main_arg12) = W (Proc.devRef .tc main_arg12)

theorem Args.refl (W : Valuation τ sig (Elt F)) : Args W W :=
  ⟨rfl, rfl, rfl, rfl, rfl, rfl, rfl, rfl, rfl, rfl, rfl, rfl, rfl⟩

theorem Args.trans {W W' W'' : Valuation τ sig (Elt F)} (h : Args W W') (h' : Args W' W'') : Args W W'' := by
  obtain ⟨a0, a1, a2, a3, a4, a5, a6, a7, a8, a9, a10, a11, a12⟩ := h
  obtain ⟨b0, b1, b2, b3, b4, b5, b6, b7, b8, b9, b10, b11, b12⟩ := h'
  exact ⟨b0.trans a0, b1.trans a1, b2.trans a2, b3.trans a3, b4.trans a4, b5.trans a5, b6.trans a6, b7.trans a7, b8.trans a8, b9.trans a9, b10.trans a10, b11.trans a11, b12.trans a12⟩

/-- A buffer that is none of the buffers a literal list of host lines writes keeps its contents. -/
scoped macro "keep_tac " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, Finset.mem_singleton]
  repeat' apply And.intro
  all_goals exact StableHlo.devRef_ne_of_ne (by decide)))

end Cert.ReferenceIdeal.Keep

end
-- ==== Proof.RLayer0.lean ====
/-
  The first layer of the reference program, from any contents it is entered with.

  The gather's 23 lines leave the gathered columns of the running concatenation (`takeA`, the same function the
  kernel program's host lines compute); the six lines after it leave the host's layer of the gathered columns, the
  weights and the bias, and the concatenation with that output appended. No line writes an argument array, and the operands
  the six lines read are not written by the gather.
-/
import proofs.«171747_j77077483094889_1_alg».proof.Proof.RArgs
import proofs.«171747_j77077483094889_1_alg».proof.Proof.Fns

set_option maxRecDepth 16384

noncomputable section

namespace Cert.ReferenceIdeal.Layer0

open Idealize.ShloMosaic Idealize.ShloMosaic.TcCoe Idealize.SL.Sem Idealize.ShloMosaic.StableHlo
open Cert.ReferenceIdeal Cert.ReferenceIdeal.Run Cert.ReferenceIdeal.Keep Cert.KernelIdeal.Fns

/-- The gather's lines leave the gathered columns. -/
theorem sel_eq (W : Valuation τ sig (Elt Ideal)) :
    (StableHlo.after (opsT0 (F := Ideal)) W (Proc.devRef .tc main_v0) : S8192x1536.Idx → EReal) = takeA (F := Ideal) (W (Proc.devRef .tc main_arg0)) (W (Proc.devRef .tc main_arg3)) := by
  simp only [opsT0]
  after_results_simp
  rfl

/-- The layer's lines leave the host's layer of the gathered columns, the weights and the bias. -/
theorem out_eq (W : Valuation τ sig (Elt Ideal)) :
    (StableHlo.after (opsM0 (F := Ideal)) W (Proc.devRef .tc main_v5) : S8192x1024.Idx → EReal) = layR (W (Proc.devRef .tc main_v0)) (W (Proc.devRef .tc main_arg1)) (W (Proc.devRef .tc main_arg2)) := by
  simp only [opsM0]
  after_results_simp
  rfl

/-- And the concatenation with that output appended. -/
theorem acc_eq (W : Valuation τ sig (Elt Ideal)) :
    (StableHlo.after (opsM0 (F := Ideal)) W (Proc.devRef .tc main_v6) : S8192x2048.Idx → EReal) = catA (F := Ideal) (W (Proc.devRef .tc main_arg0)) (layR (W (Proc.devRef .tc main_v0)) (W (Proc.devRef .tc main_arg1)) (W (Proc.devRef .tc main_arg2))) := by
  simp only [opsM0]
  after_results_simp
  rfl

/-- The gather's lines write no argument. -/
theorem argsT (W : Valuation τ sig (Elt Ideal)) : Args W (StableHlo.after (opsT0 (F := Ideal)) W) :=
  ⟨by keep_tac opsT0, by keep_tac opsT0, by keep_tac opsT0, by keep_tac opsT0, by keep_tac opsT0, by keep_tac opsT0, by keep_tac opsT0, by keep_tac opsT0, by keep_tac opsT0, by keep_tac opsT0, by keep_tac opsT0, by keep_tac opsT0, by keep_tac opsT0⟩

/-- Nor do the layer's lines. -/
theorem argsM (W : Valuation τ sig (Elt Ideal)) : Args W (StableHlo.after (opsM0 (F := Ideal)) W) :=
  ⟨by keep_tac opsM0, by keep_tac opsM0, by keep_tac opsM0, by keep_tac opsM0, by keep_tac opsM0, by keep_tac opsM0, by keep_tac opsM0, by keep_tac opsM0, by keep_tac opsM0, by keep_tac opsM0, by keep_tac opsM0, by keep_tac opsM0, by keep_tac opsM0⟩

/-- The arguments are, after the layer, what they were before it. -/
theorem args (W : Valuation τ sig (Elt Ideal)) :
    Args W (StableHlo.after (opsM0 (F := Ideal)) (StableHlo.after (opsT0 (F := Ideal)) W)) :=
  (argsT W).trans (argsM _)

/-- The layer's output from the contents the layer is entered with. -/
theorem layer_out (W : Valuation τ sig (Elt Ideal)) :
    (StableHlo.after (opsM0 (F := Ideal)) (StableHlo.after (opsT0 (F := Ideal)) W) (Proc.devRef .tc main_v5) : S8192x1024.Idx → EReal)
      = layR (takeA (F := Ideal) (W (Proc.devRef .tc main_arg0)) (W (Proc.devRef .tc main_arg3))) (W (Proc.devRef .tc main_arg1)) (W (Proc.devRef .tc main_arg2)) := by
  rw [out_eq, sel_eq]
  rw [show StableHlo.after (opsT0 (F := Ideal)) W (Proc.devRef .tc main_arg1) = W (Proc.devRef .tc main_arg1) from by keep_tac opsT0,
    show StableHlo.after (opsT0 (F := Ideal)) W (Proc.devRef .tc main_arg2) = W (Proc.devRef .tc main_arg2) from by keep_tac opsT0]

/-- The next concatenation from the contents the layer is entered with. -/
theorem layer_acc (W : Valuation τ sig (Elt Ideal)) :
    (StableHlo.after (opsM0 (F := Ideal)) (StableHlo.after (opsT0 (F := Ideal)) W) (Proc.devRef .tc main_v6) : S8192x2048.Idx → EReal)
      = catA (F := Ideal) (W (Proc.devRef .tc main_arg0)) (layR (takeA (F := Ideal) (W (Proc.devRef .tc main_arg0)) (W (Proc.devRef .tc main_arg3))) (W (Proc.devRef .tc main_arg1)) (W (Proc.devRef .tc main_arg2))) := by
  rw [acc_eq, sel_eq]
  rw [show StableHlo.after (opsT0 (F := Ideal)) W (Proc.devRef .tc main_arg1) = W (Proc.devRef .tc main_arg1) from by keep_tac opsT0,
    show StableHlo.after (opsT0 (F := Ideal)) W (Proc.devRef .tc main_arg2) = W (Proc.devRef .tc main_arg2) from by keep_tac opsT0,
    show StableHlo.after (opsT0 (F := Ideal)) W (Proc.devRef .tc main_arg0) = W (Proc.devRef .tc main_arg0) from by keep_tac opsT0]

end Cert.ReferenceIdeal.Layer0

end
-- ==== Proof.RLayer1.lean ====
/-
  The second layer of the reference program, from any contents it is entered with.

  The gather's 23 lines leave the gathered columns of the running concatenation (`takeB`, the same function the
  kernel program's host lines compute); the six lines after it leave the host's layer of the gathered columns, the
  weights and the bias, and the concatenation with that output appended. No line writes an argument array, and the operands
  the six lines read are not written by the gather.
-/
import proofs.«171747_j77077483094889_1_alg».proof.Proof.RArgs
import proofs.«171747_j77077483094889_1_alg».proof.Proof.Fns

set_option maxRecDepth 16384

noncomputable section

namespace Cert.ReferenceIdeal.Layer1

open Idealize.ShloMosaic Idealize.ShloMosaic.TcCoe Idealize.SL.Sem Idealize.ShloMosaic.StableHlo
open Cert.ReferenceIdeal Cert.ReferenceIdeal.Run Cert.ReferenceIdeal.Keep Cert.KernelIdeal.Fns

/-- The gather's lines leave the gathered columns. -/
theorem sel_eq (W : Valuation τ sig (Elt Ideal)) :
    (StableHlo.after (opsT1 (F := Ideal)) W (Proc.devRef .tc main_v7) : S8192x1536.Idx → EReal) = takeB (F := Ideal) (W (Proc.devRef .tc main_v6)) (W (Proc.devRef .tc main_arg6)) := by
  simp only [opsT1]
  after_results_simp
  rfl

/-- The layer's lines leave the host's layer of the gathered columns, the weights and the bias. -/
theorem out_eq (W : Valuation τ sig (Elt Ideal)) :
    (StableHlo.after (opsM1 (F := Ideal)) W (Proc.devRef .tc main_v12) : S8192x1024.Idx → EReal) = layR (W (Proc.devRef .tc main_v7)) (W (Proc.devRef .tc main_arg4)) (W (Proc.devRef .tc main_arg5)) := by
  simp only [opsM1]
  after_results_simp
  rfl

/-- And the concatenation with that output appended. -/
theorem acc_eq (W : Valuation τ sig (Elt Ideal)) :
    (StableHlo.after (opsM1 (F := Ideal)) W (Proc.devRef .tc main_v13) : S8192x3072.Idx → EReal) = catB (F := Ideal) (W (Proc.devRef .tc main_v6)) (layR (W (Proc.devRef .tc main_v7)) (W (Proc.devRef .tc main_arg4)) (W (Proc.devRef .tc main_arg5))) := by
  simp only [opsM1]
  after_results_simp
  rfl

/-- The gather's lines write no argument. -/
theorem argsT (W : Valuation τ sig (Elt Ideal)) : Args W (StableHlo.after (opsT1 (F := Ideal)) W) :=
  ⟨by keep_tac opsT1, by keep_tac opsT1, by keep_tac opsT1, by keep_tac opsT1, by keep_tac opsT1, by keep_tac opsT1, by keep_tac opsT1, by keep_tac opsT1, by keep_tac opsT1, by keep_tac opsT1, by keep_tac opsT1, by keep_tac opsT1, by keep_tac opsT1⟩

/-- Nor do the layer's lines. -/
theorem argsM (W : Valuation τ sig (Elt Ideal)) : Args W (StableHlo.after (opsM1 (F := Ideal)) W) :=
  ⟨by keep_tac opsM1, by keep_tac opsM1, by keep_tac opsM1, by keep_tac opsM1, by keep_tac opsM1, by keep_tac opsM1, by keep_tac opsM1, by keep_tac opsM1, by keep_tac opsM1, by keep_tac opsM1, by keep_tac opsM1, by keep_tac opsM1, by keep_tac opsM1⟩

/-- The arguments are, after the layer, what they were before it. -/
theorem args (W : Valuation τ sig (Elt Ideal)) :
    Args W (StableHlo.after (opsM1 (F := Ideal)) (StableHlo.after (opsT1 (F := Ideal)) W)) :=
  (argsT W).trans (argsM _)

/-- The layer's output from the contents the layer is entered with. -/
theorem layer_out (W : Valuation τ sig (Elt Ideal)) :
    (StableHlo.after (opsM1 (F := Ideal)) (StableHlo.after (opsT1 (F := Ideal)) W) (Proc.devRef .tc main_v12) : S8192x1024.Idx → EReal)
      = layR (takeB (F := Ideal) (W (Proc.devRef .tc main_v6)) (W (Proc.devRef .tc main_arg6))) (W (Proc.devRef .tc main_arg4)) (W (Proc.devRef .tc main_arg5)) := by
  rw [out_eq, sel_eq]
  rw [show StableHlo.after (opsT1 (F := Ideal)) W (Proc.devRef .tc main_arg4) = W (Proc.devRef .tc main_arg4) from by keep_tac opsT1,
    show StableHlo.after (opsT1 (F := Ideal)) W (Proc.devRef .tc main_arg5) = W (Proc.devRef .tc main_arg5) from by keep_tac opsT1]

/-- The next concatenation from the contents the layer is entered with. -/
theorem layer_acc (W : Valuation τ sig (Elt Ideal)) :
    (StableHlo.after (opsM1 (F := Ideal)) (StableHlo.after (opsT1 (F := Ideal)) W) (Proc.devRef .tc main_v13) : S8192x3072.Idx → EReal)
      = catB (F := Ideal) (W (Proc.devRef .tc main_v6)) (layR (takeB (F := Ideal) (W (Proc.devRef .tc main_v6)) (W (Proc.devRef .tc main_arg6))) (W (Proc.devRef .tc main_arg4)) (W (Proc.devRef .tc main_arg5))) := by
  rw [acc_eq, sel_eq]
  rw [show StableHlo.after (opsT1 (F := Ideal)) W (Proc.devRef .tc main_arg4) = W (Proc.devRef .tc main_arg4) from by keep_tac opsT1,
    show StableHlo.after (opsT1 (F := Ideal)) W (Proc.devRef .tc main_arg5) = W (Proc.devRef .tc main_arg5) from by keep_tac opsT1,
    show StableHlo.after (opsT1 (F := Ideal)) W (Proc.devRef .tc main_v6) = W (Proc.devRef .tc main_v6) from by keep_tac opsT1]

end Cert.ReferenceIdeal.Layer1

end
-- ==== Proof.RLayer2.lean ====
/-
  The third layer of the reference program, from any contents it is entered with.

  The gather's 23 lines leave the gathered columns of the running concatenation (`takeC`, the same function the
  kernel program's host lines compute); the six lines after it leave the host's layer of the gathered columns, the
  weights and the bias, and the concatenation with that output appended. No line writes an argument array, and the operands
  the six lines read are not written by the gather.
-/
import proofs.«171747_j77077483094889_1_alg».proof.Proof.RArgs
import proofs.«171747_j77077483094889_1_alg».proof.Proof.Fns

set_option maxRecDepth 16384

noncomputable section

namespace Cert.ReferenceIdeal.Layer2

open Idealize.ShloMosaic Idealize.ShloMosaic.TcCoe Idealize.SL.Sem Idealize.ShloMosaic.StableHlo
open Cert.ReferenceIdeal Cert.ReferenceIdeal.Run Cert.ReferenceIdeal.Keep Cert.KernelIdeal.Fns

/-- The gather's lines leave the gathered columns. -/
theorem sel_eq (W : Valuation τ sig (Elt Ideal)) :
    (StableHlo.after (opsT2 (F := Ideal)) W (Proc.devRef .tc main_v14) : S8192x1536.Idx → EReal) = takeC (F := Ideal) (W (Proc.devRef .tc main_v13)) (W (Proc.devRef .tc main_arg9)) := by
  simp only [opsT2]
  after_results_simp
  rfl

/-- The layer's lines leave the host's layer of the gathered columns, the weights and the bias. -/
theorem out_eq (W : Valuation τ sig (Elt Ideal)) :
    (StableHlo.after (opsM2 (F := Ideal)) W (Proc.devRef .tc main_v19) : S8192x1024.Idx → EReal) = layR (W (Proc.devRef .tc main_v14)) (W (Proc.devRef .tc main_arg7)) (W (Proc.devRef .tc main_arg8)) := by
  simp only [opsM2]
  after_results_simp
  rfl

/-- And the concatenation with that output appended. -/
theorem acc_eq (W : Valuation τ sig (Elt Ideal)) :
    (StableHlo.after (opsM2 (F := Ideal)) W (Proc.devRef .tc main_v20) : S8192x4096.Idx → EReal) = catC (F := Ideal) (W (Proc.devRef .tc main_v13)) (layR (W (Proc.devRef .tc main_v14)) (W (Proc.devRef .tc main_arg7)) (W (Proc.devRef .tc main_arg8))) := by
  simp only [opsM2]
  after_results_simp
  rfl

/-- The gather's lines write no argument. -/
theorem argsT (W : Valuation τ sig (Elt Ideal)) : Args W (StableHlo.after (opsT2 (F := Ideal)) W) :=
  ⟨by keep_tac opsT2, by keep_tac opsT2, by keep_tac opsT2, by keep_tac opsT2, by keep_tac opsT2, by keep_tac opsT2, by keep_tac opsT2, by keep_tac opsT2, by keep_tac opsT2, by keep_tac opsT2, by keep_tac opsT2, by keep_tac opsT2, by keep_tac opsT2⟩

/-- Nor do the layer's lines. -/
theorem argsM (W : Valuation τ sig (Elt Ideal)) : Args W (StableHlo.after (opsM2 (F := Ideal)) W) :=
  ⟨by keep_tac opsM2, by keep_tac opsM2, by keep_tac opsM2, by keep_tac opsM2, by keep_tac opsM2, by keep_tac opsM2, by keep_tac opsM2, by keep_tac opsM2, by keep_tac opsM2, by keep_tac opsM2, by keep_tac opsM2, by keep_tac opsM2, by keep_tac opsM2⟩

/-- The arguments are, after the layer, what they were before it. -/
theorem args (W : Valuation τ sig (Elt Ideal)) :
    Args W (StableHlo.after (opsM2 (F := Ideal)) (StableHlo.after (opsT2 (F := Ideal)) W)) :=
  (argsT W).trans (argsM _)

/-- The layer's output from the contents the layer is entered with. -/
theorem layer_out (W : Valuation τ sig (Elt Ideal)) :
    (StableHlo.after (opsM2 (F := Ideal)) (StableHlo.after (opsT2 (F := Ideal)) W) (Proc.devRef .tc main_v19) : S8192x1024.Idx → EReal)
      = layR (takeC (F := Ideal) (W (Proc.devRef .tc main_v13)) (W (Proc.devRef .tc main_arg9))) (W (Proc.devRef .tc main_arg7)) (W (Proc.devRef .tc main_arg8)) := by
  rw [out_eq, sel_eq]
  rw [show StableHlo.after (opsT2 (F := Ideal)) W (Proc.devRef .tc main_arg7) = W (Proc.devRef .tc main_arg7) from by keep_tac opsT2,
    show StableHlo.after (opsT2 (F := Ideal)) W (Proc.devRef .tc main_arg8) = W (Proc.devRef .tc main_arg8) from by keep_tac opsT2]

/-- The next concatenation from the contents the layer is entered with. -/
theorem layer_acc (W : Valuation τ sig (Elt Ideal)) :
    (StableHlo.after (opsM2 (F := Ideal)) (StableHlo.after (opsT2 (F := Ideal)) W) (Proc.devRef .tc main_v20) : S8192x4096.Idx → EReal)
      = catC (F := Ideal) (W (Proc.devRef .tc main_v13)) (layR (takeC (F := Ideal) (W (Proc.devRef .tc main_v13)) (W (Proc.devRef .tc main_arg9))) (W (Proc.devRef .tc main_arg7)) (W (Proc.devRef .tc main_arg8))) := by
  rw [acc_eq, sel_eq]
  rw [show StableHlo.after (opsT2 (F := Ideal)) W (Proc.devRef .tc main_arg7) = W (Proc.devRef .tc main_arg7) from by keep_tac opsT2,
    show StableHlo.after (opsT2 (F := Ideal)) W (Proc.devRef .tc main_arg8) = W (Proc.devRef .tc main_arg8) from by keep_tac opsT2,
    show StableHlo.after (opsT2 (F := Ideal)) W (Proc.devRef .tc main_v13) = W (Proc.devRef .tc main_v13) from by keep_tac opsT2]

end Cert.ReferenceIdeal.Layer2

end
-- ==== Proof.RLayer3.lean ====
/-
  The fourth layer of the reference program, from any contents it is entered with.

  The gather's 23 lines leave the gathered columns of the running concatenation (`takeD`, the same function the
  kernel program's host lines compute); the six lines after it leave the host's layer of the gathered columns, the
  weights and the bias. No line writes an argument array, and the operands
  the six lines read are not written by the gather.
-/
import proofs.«171747_j77077483094889_1_alg».proof.Proof.RArgs
import proofs.«171747_j77077483094889_1_alg».proof.Proof.Fns

set_option maxRecDepth 16384

noncomputable section

namespace Cert.ReferenceIdeal.Layer3

open Idealize.ShloMosaic Idealize.ShloMosaic.TcCoe Idealize.SL.Sem Idealize.ShloMosaic.StableHlo
open Cert.ReferenceIdeal Cert.ReferenceIdeal.Run Cert.ReferenceIdeal.Keep Cert.KernelIdeal.Fns

/-- The gather's lines leave the gathered columns. -/
theorem sel_eq (W : Valuation τ sig (Elt Ideal)) :
    (StableHlo.after (opsT3 (F := Ideal)) W (Proc.devRef .tc main_v21) : S8192x1536.Idx → EReal) = takeD (F := Ideal) (W (Proc.devRef .tc main_v20)) (W (Proc.devRef .tc main_arg12)) := by
  simp only [opsT3]
  after_results_simp
  rfl

/-- The layer's lines leave the host's layer of the gathered columns, the weights and the bias. -/
theorem out_eq (W : Valuation τ sig (Elt Ideal)) :
    (StableHlo.after (opsM3 (F := Ideal)) W (Proc.devRef .tc main_v26) : S8192x1024.Idx → EReal) = layR (W (Proc.devRef .tc main_v21)) (W (Proc.devRef .tc main_arg10)) (W (Proc.devRef .tc main_arg11)) := by
  simp only [opsM3]
  after_results_simp
  rfl

/-- The gather's lines write no argument. -/
theorem argsT (W : Valuation τ sig (Elt Ideal)) : Args W (StableHlo.after (opsT3 (F := Ideal)) W) :=
  ⟨by keep_tac opsT3, by keep_tac opsT3, by keep_tac opsT3, by keep_tac opsT3, by keep_tac opsT3, by keep_tac opsT3, by keep_tac opsT3, by keep_tac opsT3, by keep_tac opsT3, by keep_tac opsT3, by keep_tac opsT3, by keep_tac opsT3, by keep_tac opsT3⟩

/-- Nor do the layer's lines. -/
theorem argsM (W : Valuation τ sig (Elt Ideal)) : Args W (StableHlo.after (opsM3 (F := Ideal)) W) :=
  ⟨by keep_tac opsM3, by keep_tac opsM3, by keep_tac opsM3, by keep_tac opsM3, by keep_tac opsM3, by keep_tac opsM3, by keep_tac opsM3, by keep_tac opsM3, by keep_tac opsM3, by keep_tac opsM3, by keep_tac opsM3, by keep_tac opsM3, by keep_tac opsM3⟩

/-- The arguments are, after the layer, what they were before it. -/
theorem args (W : Valuation τ sig (Elt Ideal)) :
    Args W (StableHlo.after (opsM3 (F := Ideal)) (StableHlo.after (opsT3 (F := Ideal)) W)) :=
  (argsT W).trans (argsM _)

/-- The layer's output from the contents the layer is entered with. -/
theorem layer_out (W : Valuation τ sig (Elt Ideal)) :
    (StableHlo.after (opsM3 (F := Ideal)) (StableHlo.after (opsT3 (F := Ideal)) W) (Proc.devRef .tc main_v26) : S8192x1024.Idx → EReal)
      = layR (takeD (F := Ideal) (W (Proc.devRef .tc main_v20)) (W (Proc.devRef .tc main_arg12))) (W (Proc.devRef .tc main_arg10)) (W (Proc.devRef .tc main_arg11)) := by
  rw [out_eq, sel_eq]
  rw [show StableHlo.after (opsT3 (F := Ideal)) W (Proc.devRef .tc main_arg10) = W (Proc.devRef .tc main_arg10) from by keep_tac opsT3,
    show StableHlo.after (opsT3 (F := Ideal)) W (Proc.devRef .tc main_arg11) = W (Proc.devRef .tc main_arg11) from by keep_tac opsT3]

end Cert.ReferenceIdeal.Layer3

end
-- ==== Proof.RValue.lean ====
/-
  The reference program's value: the four layers composed.

  The run's fold over the 116 host lines is the fold over the eight stretches in turn. Each layer's output is the host's
  layer of the columns gathered from the concatenation the layer was entered with, each next concatenation the previous
  one with that output appended, and no line writes an argument: read back through the four layers, the result buffer
  holds the network `net` over the host's layer `layR`, applied to the contents the run started from.
-/
import proofs.«171747_j77077483094889_1_alg».proof.Proof.RLayer0
import proofs.«171747_j77077483094889_1_alg».proof.Proof.RLayer1
import proofs.«171747_j77077483094889_1_alg».proof.Proof.RLayer2
import proofs.«171747_j77077483094889_1_alg».proof.Proof.RLayer3

set_option maxRecDepth 16384

noncomputable section

namespace Cert.ReferenceIdeal.Value

open Idealize.ShloMosaic Idealize.ShloMosaic.TcCoe Idealize.SL.Sem Idealize.ShloMosaic.StableHlo
open Cert.ReferenceIdeal Cert.ReferenceIdeal.Run Cert.ReferenceIdeal.Keep Cert.KernelIdeal.Fns

/-- What the result buffer holds after the 116 lines, from any contents. -/
theorem value (W : Valuation τ sig (Elt Ideal)) :
    (StableHlo.after (ops (F := Ideal)) W (Proc.devRef .tc main_v26) : S8192x1024.Idx → EReal)
      = net (F := Ideal) layR (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  rw [ops_split]
  simp only [StableHlo.after_append]
  have A0 := Layer0.args W
  have A1 := A0.trans (Layer1.args _)
  have A2 := A1.trans (Layer2.args _)
  obtain ⟨-, -, -, -, p4, p5, p6, -, -, -, -, -, -⟩ := A0
  obtain ⟨-, -, -, -, -, -, -, q7, q8, q9, -, -, -⟩ := A1
  obtain ⟨-, -, -, -, -, -, -, -, -, -, r10, r11, r12⟩ := A2
  rw [Layer3.layer_out, Layer2.layer_acc, Layer1.layer_acc, Layer0.layer_acc]
  rw [r10, r11, r12, q7, q8, q9, p4, p5, p6]
  rfl

/-- No line of the run writes an argument. -/
theorem args_all (W : Valuation τ sig (Elt Ideal)) : Args W (StableHlo.after (ops (F := Ideal)) W) := by
  rw [ops_split]
  simp only [StableHlo.after_append]
  exact (((Layer0.args W).trans (Layer1.args _)).trans (Layer2.args _)).trans (Layer3.args _)

end Cert.ReferenceIdeal.Value

end
-- ==== Proof.lean ====
/-
  The certificate: a four-layer network — per layer a gather of 1536 columns of the concatenation of the input and all
  earlier layers' outputs, a matrix product with a bias and a hyperbolic tangent, and the output appended to the
  concatenation — computed by a kernel program (the product, bias and tanh in a kernel launch of 8 blocks of 1024 rows,
  on operands rounded to bf16) and by a reference program (the same on the host), equal on the extended reals.

  The three frames: the two kernel programs' are the generated frame certificates; the reference's is its run as one
  straight line of host lines, none of which writes an argument. The idealized kernel is the kernel's own text read on the
  extended reals, so nothing is owed for it. For the values: the kernel program's result buffer ends at the network over
  the dense layer (`Cert.KernelIdeal.Value.value`: each launch's eight blocks tile its output, and a block of rows of
  a dense layer is the dense layer of that block of rows), the reference's at the network over the host's layer
  (`Cert.ReferenceIdeal.Value.value`), both of the arguments' launch contents through the SAME gather and append
  functions; and the host's layer IS the dense layer (`layR_eq_layK`: a dot-general is the sum over the contracted index
  of the products, whatever its schedule, and rounding to bf16 is no change on the extended reals).
-/
import proofs.«171747_j77077483094889_1_alg».proof.Defs
import proofs.«171747_j77077483094889_1_alg».proof.Proof.Gen.Kernel
import proofs.«171747_j77077483094889_1_alg».proof.Proof.Gen.Kernel.Frame
import proofs.«171747_j77077483094889_1_alg».proof.Proof.Gen.KernelIdeal
import proofs.«171747_j77077483094889_1_alg».proof.Proof.Gen.KernelIdeal.Frame
import proofs.«171747_j77077483094889_1_alg».proof.Proof.Gen.ReferenceIdeal
import proofs.«171747_j77077483094889_1_alg».proof.Proof.Gen.Pre_finite_inputs
import proofs.«171747_j77077483094889_1_alg».proof.Proof.KRun
import proofs.«171747_j77077483094889_1_alg».proof.Proof.KValue
import proofs.«171747_j77077483094889_1_alg».proof.Proof.RRun
import proofs.«171747_j77077483094889_1_alg».proof.Proof.RValue
import proofs.«171747_j77077483094889_1_alg».proof.Proof.Fns
import Idealize.ShloMosaic.Adequacy
import Idealize.ShloMosaic.Init

set_option maxRecDepth 16384

noncomputable section

namespace Cert.Proof

open Idealize.ShloMosaic Idealize.ShloMosaic.TcCoe Idealize.SL.Sem Cert.KernelIdeal.Fns

theorem frame_k : Cert.frame_Kernel := fun m ρ _ => Cert.Kernel.Gen.frame m ρ

theorem frame_ki : Cert.frame_KernelIdeal := fun m ρ _ => Cert.KernelIdeal.Gen.frame m ρ

/-- The reference's run leaves every argument as launched. -/
theorem frame_ri : Cert.frame_ReferenceIdeal := fun m ρ _ =>
  (θ_run Cert.ReferenceIdeal.defs _ _).mono (fun r h c => by
    obtain ⟨k0, k1, k2, k3, k4, k5, k6, k7, k8, k9, k10, k11, k12⟩ := Cert.ReferenceIdeal.Value.args_all (StableHlo.launchContents m c)
    exact ⟨(h c Cert.ReferenceIdeal.main_arg0).trans k0, (h c Cert.ReferenceIdeal.main_arg1).trans k1, (h c Cert.ReferenceIdeal.main_arg2).trans k2, (h c Cert.ReferenceIdeal.main_arg3).trans k3, (h c Cert.ReferenceIdeal.main_arg4).trans k4, (h c Cert.ReferenceIdeal.main_arg5).trans k5, (h c Cert.ReferenceIdeal.main_arg6).trans k6, (h c Cert.ReferenceIdeal.main_arg7).trans k7, (h c Cert.ReferenceIdeal.main_arg8).trans k8, (h c Cert.ReferenceIdeal.main_arg9).trans k9, (h c Cert.ReferenceIdeal.main_arg10).trans k10, (h c Cert.ReferenceIdeal.main_arg11).trans k11, (h c Cert.ReferenceIdeal.main_arg12).trans k12⟩)
    (Cert.ReferenceIdeal.Run.run (F := Ideal) m ρ)

/-- The reference's result from its launch memory, over the dense layer. -/
theorem ref_value (m' : (ℓ : Loc Cert.ReferenceIdeal.nD Cert.ReferenceIdeal.τ Cert.ReferenceIdeal.sig) → Buf (Elt Ideal) ℓ) (c : Dev Cert.ReferenceIdeal.nD) :
    (StableHlo.after (Cert.ReferenceIdeal.Run.ops (F := Ideal)) (StableHlo.launchContents m' c) (Proc.devRef .tc Cert.ReferenceIdeal.main_v26) : Cert.ReferenceIdeal.S8192x1024.Idx → EReal)
      = net (F := Ideal) layK (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) :=
  (Cert.ReferenceIdeal.Value.value (StableHlo.launchContents m' c)).trans (by rw [layR_eq_layK]; all_goals rfl)

/-- Both programs end with the network over the dense layer of the arguments' launch contents. -/
theorem algebraic : Cert.algebraic_KernelIdeal_ReferenceIdeal := by
  intro m ρ m' ρ' _ hagree
  refine ⟨fun c => net (F := Ideal) layK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.Value.value m ρ c), (h c).2⟩)
      (Cert.KernelIdeal.Run.run (F := Ideal) m ρ)
  · refine (θ_run Cert.ReferenceIdeal.defs _ _).mono (fun r h c => ?_) (Cert.ReferenceIdeal.Run.run (F := Ideal) m' ρ')
    obtain ⟨g0, g1, g2, g3, g4, g5, g6, g7, g8, g9, g10, g11, g12⟩ := hagree c
    obtain ⟨k0, k1, k2, k3, k4, k5, k6, k7, k8, k9, k10, k11, k12⟩ := Cert.ReferenceIdeal.Value.args_all (StableHlo.launchContents m' c)
    refine ⟨((h c Cert.ReferenceIdeal.main_v26).trans (ref_value m' c)).trans ?_, (h c Cert.ReferenceIdeal.main_arg0).trans k0, (h c Cert.ReferenceIdeal.main_arg1).trans k1, (h c Cert.ReferenceIdeal.main_arg2).trans k2, (h c Cert.ReferenceIdeal.main_arg3).trans k3, (h c Cert.ReferenceIdeal.main_arg4).trans k4, (h c Cert.ReferenceIdeal.main_arg5).trans k5, (h c Cert.ReferenceIdeal.main_arg6).trans k6, (h c Cert.ReferenceIdeal.main_arg7).trans k7, (h c Cert.ReferenceIdeal.main_arg8).trans k8, (h c Cert.ReferenceIdeal.main_arg9).trans k9, (h c Cert.ReferenceIdeal.main_arg10).trans k10, (h c Cert.ReferenceIdeal.main_arg11).trans k11, (h c Cert.ReferenceIdeal.main_arg12).trans k12⟩
    rw [g0, g1, g2, g3, g4, g5, g6, g7, g8, g9, g10, g11, g12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
